-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S20000x5000 : Shape := ⟨2, ![20000, 5000]⟩
abbrev S256x512 : Shape := ⟨2, ![256, 512]⟩
abbrev S512 : Shape := ⟨1, ![512]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S20000x5000 : S_.BroadcastsInDim S20000x5000 (![] : Fin 0 → Fin S20000x5000.rank)
  reducesTo_S20000x5000_S_d0_1 : S20000x5000.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S20000x256 .f32) (main_arg1 : FVec F S20000x5000 .f32) (main_arg2 : FVec F S256x512 .f32) (main_arg3 : FVec F S256x512 .f32) (main_arg4 : FVec F S512 .f32) (main_arg5 : FVec F S512 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x5000 .f32 := Host.absf main_arg1
  let main_cst_0 : FVec F S_ .f32 := constant S_ .f32 0x7F800000#32
  let main_v5 : FVec F S20000x5000 .f32 := broadcastInDim S20000x5000 ![] bcast_S_S20000x5000 main_cst_0
  let main_v6 : IVec S20000x5000 1 := cmpf .olt main_v4 main_v5
  let main_c_1 : IVec S_ 1 := constantI S_ 1 1#1
  let main_v7 : IVec S_ 1 := (fun x v => Host.reduce IntOp.andi x v reducesTo_S20000x5000_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_v13 main_v16
-- ==== Kernel.lean ====
abbrev S20000x256 : Shape := ⟨2, ![20000, 256]⟩
abbrev S20000x5000 : Shape := ⟨2, ![20000, 5000]⟩
abbrev S256x512 : Shape := ⟨2, ![256, 512]⟩
abbrev S512 : Shape := ⟨1, ![512]⟩
abbrev S1x512 : Shape := ⟨2, ![1, 512]⟩
abbrev S2x5000x512 : Shape := ⟨3, ![2, 5000, 512]⟩
abbrev S2x1x5000 : Shape := ⟨3, ![2, 1, 5000]⟩
abbrev S200x256 : Shape := ⟨2, ![200, 256]⟩
abbrev S200x5000 : Shape := ⟨2, ![200, 5000]⟩
abbrev S1x5000x512 : Shape := ⟨3, ![1, 5000, 512]⟩
abbrev S1x1x5000 : Shape := ⟨3, ![1, 1, 5000]⟩
abbrev S5000x512 : Shape := ⟨2, ![5000, 512]⟩
abbrev S1x5000 : Shape := ⟨2, ![1, 5000]⟩
abbrev S200x512 : Shape := ⟨2, ![200, 512]⟩
abbrev S5000 : Shape := ⟨1, ![5000]⟩
abbrev S_ : Shape := ⟨0, ![]⟩
abbrev S5000x1 : Shape := ⟨2, ![5000, 1]⟩
abbrev S20000x512 : Shape := ⟨2, ![20000, 512]⟩
abbrev S400x5000 : Shape := ⟨2, ![400, 5000]⟩
abbrev S400x256 : Shape := ⟨2, ![400, 256]⟩
abbrev S400x512 : Shape := ⟨2, ![400, 512]⟩
abbrev S400 : Shape := ⟨1, ![400]⟩
abbrev S400x1 : Shape := ⟨2, ![400, 1]⟩

abbrev nBuf : Space → Nat
  | .hbm => 30
  | .vmem => 19
  | .smem => 0
  | _ => 0

abbrev bufTy : (tb : Table) → Fin (tcTables nBuf tb) → BufTy
  | .hbm, ⟨0, _⟩ => ⟨S20000x256, .f32⟩
  | .hbm, ⟨1, _⟩ => ⟨S20000x5000, .f32⟩
  | .hbm, ⟨2, _⟩ => ⟨S256x512, .f32⟩
  | .hbm, ⟨3, _⟩ => ⟨S256x512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S2x5000x512, .bf16⟩
  | .hbm, ⟨9, _⟩ => ⟨S2x1x5000, .f32⟩
  | .hbm, ⟨10, _⟩ => ⟨S1x1x5000, .f32⟩
  | .hbm, ⟨11, _⟩ => ⟨S1x5000, .f32⟩
  | .hbm, ⟨12, _⟩ => ⟨S1x1x5000, .f32⟩
  | .hbm, ⟨13, _⟩ => ⟨S1x5000, .f32⟩
  | .hbm, ⟨14, _⟩ => ⟨S1x5000, .f32⟩
  | .hbm, ⟨15, _⟩ => ⟨S_, .f32⟩
  | .hbm, ⟨16, _⟩ => ⟨S1x5000, .f32⟩
  | .hbm, ⟨17, _⟩ => ⟨S1x5000, .f32⟩
  | .hbm, ⟨18, _⟩ => ⟨S1x5000x512, .bf16⟩
  | .hbm, ⟨19, _⟩ => ⟨S5000x512, .bf16⟩
  | .hbm, ⟨20, _⟩ => ⟨S5000x512, .f32⟩
  | .hbm, ⟨21, _⟩ => ⟨S1x5000x512, .bf16⟩
  | .hbm, ⟨22, _⟩ => ⟨S5000x512, .bf16⟩
  | .hbm, ⟨23, _⟩ => ⟨S5000x512, .f32⟩
  | .hbm, ⟨24, _⟩ => ⟨S5000x512, .f32⟩
  | .hbm, ⟨25, _⟩ => ⟨S5000x1, .f32⟩
  | .hbm, ⟨26, _⟩ => ⟨S5000x512, .f32⟩
  | .hbm, ⟨27, _⟩ => ⟨S5000x512, .f32⟩
  | .hbm, ⟨28, _⟩ => ⟨S5000x512, .bf16⟩
  | .hbm, ⟨29, _⟩ => ⟨S20000x512, .f32⟩
  | .local _ .vmem, ⟨0, _⟩ => ⟨S200x256, .f32⟩
  | .local _ .vmem, ⟨1, _⟩ => ⟨S200x256, .f32⟩
  | .local _ .vmem, ⟨2, _⟩ => ⟨S200x5000, .f32⟩
  | .local _ .vmem, ⟨3, _⟩ => ⟨S200x5000, .f32⟩
  | .local _ .vmem, ⟨4, _⟩ => ⟨S256x512, .f32⟩
  | .local _ .vmem, ⟨5, _⟩ => ⟨S1x5000x512, .bf16⟩
  | .local _ .vmem, ⟨6, _⟩ => ⟨S1x1x5000, .f32⟩
  | .local _ .vmem, ⟨7, _⟩ => ⟨S5000x512, .f32⟩
  | .local _ .vmem, ⟨8, _⟩ => ⟨S1x5000, .f32⟩
  | .local _ .vmem, ⟨9, _⟩ => ⟨S400x5000, .f32⟩
  | .local _ .vmem, ⟨10, _⟩ => ⟨S400x5000, .f32⟩
  | .local _ .vmem, ⟨11, _⟩ => ⟨S5000x512, .bf16⟩
  | .local _ .vmem, ⟨12, _⟩ => ⟨S400x256, .f32⟩
  | .local _ .vmem, ⟨13, _⟩ => ⟨S400x256, .f32⟩
  | .local _ .vmem, ⟨14, _⟩ => ⟨S256x512, .f32⟩
  | .local _ .vmem, ⟨15, _⟩ => ⟨S1x512, .f32⟩
  | .local _ .vmem, ⟨16, _⟩ => ⟨S1x512, .f32⟩
  | .local _ .vmem, ⟨17, _⟩ => ⟨S400x512, .f32⟩
  | .local _ .vmem, ⟨18, _⟩ => ⟨S400x512, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_16 : BitVec 32 := 0#32
  let v26 : BitVec 1 := Scalar.cmpi .ne v25 c0_i32_16
  v26

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5000x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x5000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S512_S1x512 : S512.ShapeCasts S1x512
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S1x5000_S1x5000_0_0 : ∀ a, (![0, 0] : Fin 2 → Nat) a + S1x5000.size a ≤ S1x5000.size a
  h_S1x5000 : 0 < S1x5000.numel
  shapeCasts_S1x5000_S1x5000 : S1x5000.ShapeCasts S1x5000
  inb_S200x256_S200x256_0_0 : ∀ a, (![0, 0] : Fin 2 → Nat) a + S200x256.size a ≤ S200x256.size a
  h_S200x256 : 0 < S200x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S200x5000_S200x5000_0_0 : ∀ a, (![0, 0] : Fin 2 → Nat) a + S200x5000.size a ≤ S200x5000.size a
  h_S200x5000 : 0 < S200x5000.numel
  reduces_S200x5000_S5000 : S200x5000.Reduces [0] S5000
  shapeCasts_S5000_S1x5000 : S5000.ShapeCasts S1x5000
  inb_S1x5000x512_S1x5000x512_0_0_0 : ∀ a, (![0, 0, 0] : Fin 3 → Nat) a + S1x5000x512.size a ≤ S1x5000x512.size a
  h_S1x5000x512 : 0 < S1x5000x512.numel
  shapeCasts_S1x5000x512_S5000x512 : S1x5000x512.ShapeCasts S5000x512
  shapeCasts_S5000x512_S1x5000x512 : S5000x512.ShapeCasts S1x5000x512
  packedbf16_S1x5000x512_S1x5000x512_0_0_0 : (Rect.unit (s := S1x5000x512) ![0, 0, 0] S1x5000x512.size inb_S1x5000x512_S1x5000x512_0_0_0).PackedRows (EltTy.packing .bf16)
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  shapeCasts_S1x5000_S1x1x5000 : S1x5000.ShapeCasts S1x1x5000
  slices_S2x1x5000_S1x1x5000_0_0_0 : S2x1x5000.Slices ![0, 0, 0] S1x1x5000
  slices_S2x1x5000_S1x1x5000_1_0_0 : S2x1x5000.Slices ![1, 0, 0] S1x1x5000
  bcast_S_S1x5000 : S_.BroadcastsInDim S1x5000 (![] : Fin 0 → Fin S1x5000.rank)
  slices_S2x5000x512_S1x5000x512_0_0_0 : S2x5000x512.Slices ![0, 0, 0] S1x5000x512
  slices_S2x5000x512_S1x5000x512_1_0_0 : S2x5000x512.Slices ![1, 0, 0] S1x5000x512
  transposes_S1x5000_S5000x1_1_0 : S1x5000.Transposes [1, 0] S5000x1
  bcast_S5000x1_S5000x512_0_1 : S5000x1.BroadcastsInDim S5000x512 (![0, 1] : Fin 2 → Fin S5000x512.rank)
  inb_S400x5000_S400x5000_0_0 : ∀ a, (![0, 0] : Fin 2 → Nat) a + S400x5000.size a ≤ S400x5000.size a
  h_S400x5000 : 0 < S400x5000.numel
  reduces_S400x5000_S400 : S400x5000.Reduces [1] S400
  shapeCasts_S400_S400x1 : S400.ShapeCasts S400x1
  broadcasts_S400x1_S400x512 : S400x1.Broadcasts S400x512
  inb_S400x256_S400x256_0_0 : ∀ a, (![0, 0] : Fin 2 → Nat) a + S400x256.size a ≤ S400x256.size a
  h_S400x256 : 0 < S400x256.numel
  reduces_S400x512_S400 : S400x512.Reduces [1] S400
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  dot_S200x256_S256x512_S200x512_1_0_0_1_n_n_wf : DotDims.WF S200x256 S256x512 S200x512 [1] [0] [0] [1] [] []
  dot_S200x5000_S200x512_S5000x512_0_0_1_1_n_n_wf : DotDims.WF S200x5000 S200x512 S5000x512 [0] [0] [1] [1] [] []
  dot_S400x5000_S5000x512_S400x512_1_0_0_1_n_n_wf : DotDims.WF S400x5000 S5000x512 S400x512 [1] [0] [0] [1] [] []
  dot_S400x256_S256x512_S400x512_1_0_0_1_n_n_wf : DotDims.WF S400x256 S256x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x256.size a ≤ S20000x256.size a
  hwx0_0 : ∀ i : grid0.Coords, EltTy.bits .f32 = 32 ∨ (Rect.block (s := S20000x256) S200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x5000.size a ≤ S20000x5000.size a
  hwx0_1 : ∀ i : grid0.Coords, EltTy.bits .f32 = 32 ∨ (Rect.block (s := S20000x5000) S200x5000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5000x512.size a ≤ S2x5000x512.size a
  hwx0_3 : ∀ i : grid0.Coords, EltTy.bits .bf16 = 32 ∨ (Rect.block (s := S2x5000x512) S1x5000x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x5000.size a ≤ S2x1x5000.size a
  hwx0_4 : ∀ i : grid0.Coords, EltTy.bits .f32 = 32 ∨ (Rect.block (s := S2x1x5000) S1x1x5000.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x5000.size a ≤ S20000x5000.size a
  hwx1_0 : ∀ i : grid1.Coords, EltTy.bits .f32 = 32 ∨ (Rect.block (s := S20000x5000) S400x5000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x512.size a ≤ S5000x512.size a
  hwx1_1 : ∀ i : grid1.Coords, EltTy.bits .bf16 = 32 ∨ (Rect.block (s := S5000x512) S5000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S20000x256.size a
  hwx1_2 : ∀ i : grid1.Coords, EltTy.bits .f32 = 32 ∨ (Rect.block (s := S20000x256) S400x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x512.size a ≤ S20000x512.size a
  hwx1_6 : ∀ i : grid1.Coords, EltTy.bits .f32 = 32 ∨ (Rect.block (s := S20000x512) S400x512.size (cc1_transform_6 i) (hinb1_6 i)).WholeWords (EltTy.packing .f32)

variable [Facts₀]

def dot_S200x256_S256x512_S200x512_1_0_0_1_n_n : DotDims S200x256 S256x512 S200x512 where
  lhsContracting := [1]
  rhsContracting := [0]
  lhsNonContracting := [0]
  rhsNonContracting := [1]
  lhsBatch := []
  rhsBatch := []
  wf := dot_S200x256_S256x512_S200x512_1_0_0_1_n_n_wf
def dot_S200x5000_S200x512_S5000x512_0_0_1_1_n_n : DotDims S200x5000 S200x512 S5000x512 where
  lhsContracting := [0]
  rhsContracting := [0]
  lhsNonContracting := [1]
  rhsNonContracting := [1]
  lhsBatch := []
  rhsBatch := []
  wf := dot_S200x5000_S200x512_S5000x512_0_0_1_1_n_n_wf
def dot_S400x5000_S5000x512_S400x512_1_0_0_1_n_n : DotDims S400x5000 S5000x512 S400x512 where
  lhsContracting := [1]
  rhsContracting := [0]
  lhsNonContracting := [0]
  rhsNonContracting := [1]
  lhsBatch := []
  rhsBatch := []
  wf := dot_S400x5000_S5000x512_S400x512_1_0_0_1_n_n_wf
def dot_S400x256_S256x512_S400x512_1_0_0_1_n_n : DotDims S400x256 S256x512 S400x512 where
  lhsContracting := [1]
  rhsContracting := [0]
  lhsNonContracting := [0]
  rhsNonContracting := [1]
  lhsBatch := []
  rhsBatch := []
  wf := dot_S400x256_S256x512_S400x512_1_0_0_1_n_n_wf

abbrev win0_0 : Pipeline.Window sig grid0 :=
  Pipeline.Window.ofSpec (Memref.whole main_arg0) S200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x5000x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x5000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S400x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S400x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x256 : Shape := ⟨2, ![20000, 256]⟩
abbrev S20000x5000 : Shape := ⟨2, ![20000, 5000]⟩
abbrev S256x512 : Shape := ⟨2, ![256, 512]⟩
abbrev S512 : Shape := ⟨1, ![512]⟩
abbrev S_ : Shape := ⟨0, ![]⟩
abbrev S20000 : Shape := ⟨1, ![20000]⟩
abbrev S5000 : Shape := ⟨1, ![5000]⟩
abbrev S20000x512 : Shape := ⟨2, ![20000, 512]⟩
abbrev S5000x20000 : Shape := ⟨2, ![5000, 20000]⟩
abbrev S5000x512 : Shape := ⟨2, ![5000, 512]⟩
abbrev S5000x1 : Shape := ⟨2, ![5000, 1]⟩
abbrev S20000x1 : Shape := ⟨2, ![20000, 1]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S20000x5000, .f32⟩
  | .hbm, ⟨2, _⟩ => ⟨S256x512, .f32⟩
  | .hbm, ⟨3, _⟩ => ⟨S256x512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S20000, .f32⟩
  | .hbm, ⟨8, _⟩ => ⟨S_, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S_, .f32⟩
  | .hbm, ⟨13, _⟩ => ⟨S5000, .f32⟩
  | .hbm, ⟨14, _⟩ => ⟨S_, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S20000x512, .f32⟩
  | .hbm, ⟨19, _⟩ => ⟨S5000x20000, .f32⟩
  | .hbm, ⟨20, _⟩ => ⟨S5000x512, .f32⟩
  | .hbm, ⟨21, _⟩ => ⟨S5000x1, .f32⟩
  | .hbm, ⟨22, _⟩ => ⟨S5000x512, .f32⟩
  | .hbm, ⟨23, _⟩ => ⟨S5000x512, .f32⟩
  | .hbm, ⟨24, _⟩ => ⟨S20000x512, .f32⟩
  | .hbm, ⟨25, _⟩ => ⟨S20000x1, .f32⟩
  | .hbm, ⟨26, _⟩ => ⟨S20000x512, .f32⟩
  | .hbm, ⟨27, _⟩ => ⟨S20000x512, .f32⟩
  | .hbm, ⟨28, _⟩ => ⟨S20000x512, .f32⟩
  | .hbm, ⟨29, _⟩ => ⟨S20000x512, .f32⟩
  | .hbm, ⟨30, _⟩ => ⟨S_, .f32⟩
  | .hbm, ⟨31, _⟩ => ⟨S20000, .f32⟩
  | .hbm, ⟨32, _⟩ => ⟨S20000x1, .f32⟩
  | .hbm, ⟨33, _⟩ => ⟨S_, .f32⟩
  | .hbm, ⟨34, _⟩ => ⟨S20000x1, .f32⟩
  | .hbm, ⟨35, _⟩ => ⟨S20000x1, .f32⟩
  | .hbm, ⟨36, _⟩ => ⟨S20000x512, .f32⟩
  | .hbm, ⟨37, _⟩ => ⟨S20000x512, .f32⟩
  | .hbm, ⟨38, _⟩ => ⟨S20000x512, .f32⟩
  | .hbm, ⟨39, _⟩ => ⟨S_, .f32⟩
  | .hbm, ⟨40, _⟩ => ⟨S20000, .f32⟩
  | .hbm, ⟨41, _⟩ => ⟨S20000x1, .f32⟩
  | .hbm, ⟨42, _⟩ => ⟨S_, .f32⟩
  | .hbm, ⟨43, _⟩ => ⟨S20000x1, .f32⟩
  | .hbm, ⟨44, _⟩ => ⟨S20000x1, .f32⟩
  | .hbm, ⟨45, _⟩ => ⟨S20000x512, .f32⟩
  | .hbm, ⟨46, _⟩ => ⟨S20000x512, .f32⟩
  | .hbm, ⟨47, _⟩ => ⟨S_, .f32⟩
  | .hbm, ⟨48, _⟩ => ⟨S20000x1, .f32⟩
  | .hbm, ⟨49, _⟩ => ⟨S20000x1, .f32⟩
  | .hbm, ⟨50, _⟩ => ⟨S20000x1, .f32⟩
  | .hbm, ⟨51, _⟩ => ⟨S20000x512, .f32⟩
  | .hbm, ⟨52, _⟩ => ⟨S20000x512, .f32⟩
  | .hbm, ⟨53, _⟩ => ⟨S1x512, .f32⟩
  | .hbm, ⟨54, _⟩ => ⟨S20000x512, .f32⟩
  | .hbm, ⟨55, _⟩ => ⟨S20000x512, .f32⟩
  | .hbm, ⟨56, _⟩ => ⟨S1x512, .f32⟩
  | .hbm, ⟨57, _⟩ => ⟨S20000x512, .f32⟩
  | .hbm, ⟨58, _⟩ => ⟨S20000x512, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S20000x5000_S20000_d1 : S20000x5000.ReducesTo [1] S20000
  h_S_ : 0 < S_.numel
  bcast_S_S20000 : S_.BroadcastsInDim S20000 (![] : Fin 0 → Fin S20000.rank)
  reducesTo_S20000x5000_S5000_d0 : S20000x5000.ReducesTo [0] S5000
  bcast_S_S5000 : S_.BroadcastsInDim S5000 (![] : Fin 0 → Fin S5000.rank)
  transposes_S20000x5000_S5000x20000_1_0 : S20000x5000.Transposes [1, 0] S5000x20000
  bcast_S5000_S5000x1_0 : S5000.BroadcastsInDim S5000x1 (![0] : Fin 1 → Fin S5000x1.rank)
  bcast_S5000x1_S5000x512_0_1 : S5000x1.BroadcastsInDim S5000x512 (![0, 1] : Fin 2 → Fin S5000x512.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  reducesTo_S20000x512_S20000_d1 : S20000x512.ReducesTo [1] S20000
  bcast_S_S20000x1 : S_.BroadcastsInDim S20000x1 (![] : Fin 0 → Fin S20000x1.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  dot_S20000x256_S256x512_S20000x512_1_0_0_1_n_n_wf : DotDims.WF S20000x256 S256x512 S20000x512 [1] [0] [0] [1] [] []
  dot_S5000x20000_S20000x512_S5000x512_1_0_0_1_n_n_wf : DotDims.WF S5000x20000 S20000x512 S5000x512 [1] [0] [0] [1] [] []
  dot_S20000x5000_S5000x512_S20000x512_1_0_0_1_n_n_wf : DotDims.WF S20000x5000 S5000x512 S20000x512 [1] [0] [0] [1] [] []

variable [Facts₀]

def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf
def dot_S5000x20000_S20000x512_S5000x512_1_0_0_1_n_n : DotDims S5000x20000 S20000x512 S5000x512 where
  lhsContracting := [1]
  rhsContracting := [0]
  lhsNonContracting := [0]
  rhsNonContracting := [1]
  lhsBatch := []
  rhsBatch := []
  wf := dot_S5000x20000_S20000x512_S5000x512_1_0_0_1_n_n_wf
def dot_S20000x5000_S5000x512_S20000x512_1_0_0_1_n_n : DotDims S20000x5000 S5000x512 S20000x512 where
  lhsContracting := [1]
  rhsContracting := [0]
  lhsNonContracting := [0]
  rhsNonContracting := [1]
  lhsBatch := []
  rhsBatch := []
  wf := dot_S20000x5000_S5000x512_S20000x512_1_0_0_1_n_n_wf

class Facts : Prop extends Facts₀ where

variable [Facts]
-- ==== Proof.KEdgeShared.lean ====
/-
  The edge-aggregation region (the first kernel: a 2 x 50 grid, point t = 50·core + step): what its proof shares.
  A point reads a 200-row tile of x and of H and the whole of W_node; it keeps two accumulators in scratch between
  points — the [5000, 512] sum of Hᵀ·(x·W_node) over the tiles seen so far on this core and the [1, 5000] column
  sums of H over them —, clears both at a core's first step (t ≡ 0 mod 50) and copies them into its two output
  blocks at the core's last step (t ≡ 49 mod 50); at every other point the output blocks are left alone and not
  written back. Stated at a PARAMETER V: the core's buffer contents when the region is entered.
-/
import proofs.«115665_j11158325035087_2_alg».proof.Proof.Gen.Kernel.Launch
import proofs.«115665_j11158325035087_2_alg».proof.Proof.Gen.Kernel.Skeleton
import proofs.«115665_j11158325035087_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: when the
    pipeline does not fetch, the block index has not moved and the body left the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: when the
    pipeline does not fetch, the block index has not moved and the body left the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: when the
    pipeline does not fetch, the block index has not moved and the body left the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, decided over the grid -/

/-- "This is the core's first step": the body then clears both accumulators. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 50 = 0 :=
  (by decide +kernel : ∀ t : Fin grid0.N, condFirst (grid0.coords t) ↔ t.val % 50 = 0)

/-- "This is the core's last step": the body then copies the accumulators into the output blocks. -/
abbrev condLast (i : grid0.Coords) : Prop := k0_cond2 i = 1#1
theorem hcondLast : ∀ t : Fin cfg0.N, condLast (grid0.coords t) ↔ t.val % 50 = 49 :=
  (by decide +kernel : ∀ t : Fin grid0.N, condLast (grid0.coords t) ↔ t.val % 50 = 49)

/-! ## Where the output windows are idle -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
/-- Away from a core's last step the body stores nothing into the output blocks, and the pipeline does not write them back. -/
theorem idle_3 : ∀ t : Fin cfg0.N, ¬condLast (grid0.coords t) → cfg0.idle 3 (grid0.coords t) = true := by decide +kernel
theorem idle_4 : ∀ t : Fin cfg0.N, ¬condLast (grid0.coords t) → cfg0.idle 4 (grid0.coords t) = true := by decide +kernel
theorem noFlush_3 : ∀ t : Fin cfg0.N, ¬condLast (grid0.coords t) → (cfg0.win 3).flush t = false := by decide +kernel
theorem noFlush_4 : ∀ t : Fin cfg0.N, ¬condLast (grid0.coords t) → (cfg0.win 4).flush t = false := by decide +kernel
/-- At a core's last step both are stored. -/
theorem live_3 : ∀ t : Fin cfg0.N, condLast (grid0.coords t) → cfg0.idle 3 (grid0.coords t) = false := by decide +kernel
theorem live_4 : ∀ t : Fin cfg0.N, condLast (grid0.coords t) → cfg0.idle 4 (grid0.coords t) = false := by decide +kernel

/-! ## The memrefs the body is called with -/

abbrev ms0 (t : Fin cfg0.N) : Memref sig .tc .vmem S200x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x5000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x5000x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x5000 .f32 := win0_4.stage (cfg0.slots t 4)
abbrev hs4 (t : Fin cfg0.N) : (ms4 t).IsWhole := hstage0_4 ((cfg0.slots t 4).cast nbuf0_4)
/-- The two accumulators: whole scoped buffers of the kernel's own. -/
abbrev accM : Memref sig .tc .vmem S5000x512 .f32 := Memref.whole cc0_scratch0
abbrev degM : Memref sig .tc .vmem S1x5000 .f32 := Memref.whole cc0_scratch1
/-- Views through which contents are stated. -/
abbrev VO3 : View sig .tc .vmem S1x5000x512 .bf16 := (Memref.whole cc0_stg3_0 : Memref sig .tc .vmem S1x5000x512 .bf16).view
abbrev VO4 : View sig .tc .vmem S1x1x5000 .f32 := (Memref.whole cc0_stg4_0 : Memref sig .tc .vmem S1x1x5000 .f32).view
abbrev VSacc : View sig .tc .vmem S5000x512 .f32 := (accM : Memref sig .tc .vmem S5000x512 .f32).view
abbrev VSdeg : View sig .tc .vmem S1x5000 .f32 := (degM : Memref sig .tc .vmem S1x5000 .f32).view

/-- The core's scoped buffers this kernel never touches (the other kernel's staging buffers), each at some contents. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the pipeline hands the body besides the windows, with the two accumulators named. -/
theorem PhiA_eq (c : Dev nD) :
    (Pipeline.ΦA spec0 c : sProp 𝕄)
      = iprop(iprop((∃ d, owns (c : Thread nD τ) accM fullShare d) ∗ (∃ d, owns (c : Thread nD τ) degM fullShare d) ∗ restOther (F := F) c) ∗ (∃ r, prngReg c r)) := by
  unfold Pipeline.ΦA; rw [scopedRest0_eq]; simp only [accM, degM, owns_whole, restOther]; try rfl

end Cert.Kernel.Edge

end
-- ==== Proof.KEdgeRunFirst.lean ====
/-
  The body at a core's FIRST step (both accumulators cleared, then this tile added; the output blocks untouched).
-/
import proofs.«115665_j11158325035087_2_alg».proof.Proof.KEdgeShared
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave in the output blocks and in the two accumulators (last first) at such a point,
    with the proof that from the three input tiles at their contents the body runs to its end holding the inputs as
    they were and each stored buffer with those pieces written. The pieces are found by the symbolic run itself. -/
noncomputable def runFirst (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i)
    (x0 : Vec F S200x256 .f32) (x1 : Vec F S200x5000 .f32) (x2 : Vec F S256x512 .f32) :
    Σ' (L3 : List (View.Piece (Elt F) S1x5000x512 .bf16)) (L4 : List (View.Piece (Elt F) S1x1x5000 .f32)) (LSacc : List (View.Piece (Elt F) S5000x512 .f32)), { LSdeg : List (View.Piece (Elt F) S1x5000 .f32) //
      ∀ (xi3 : Vec F S1x5000x512 .bf16) (xi4 : Vec F S1x1x5000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LSacc) ∗ (∃ f, arg8.view.loc (c : Thread nD τ) ↦[arg8.view.set]{fullShare} arg8.view.writes (Elt F) f LSdeg)) -∗ K ⟨⟩))
          ⊢ wp frame (wpE (defs₀ (F := F)) Variants.none c none) E (cc0__edge_kernel_body i arg2 harg2 arg3 harg3 arg4 harg4 arg5 harg5 arg6 harg6 arg7 harg7 arg8 harg8) K } := by
  refine ⟨[], [], ?_, ?_, fun xi3 xi4 E K => ?run⟩
  case run =>
    simp only [cc0__edge_kernel_body_eq_skeleton]; unfold cc0__edge_kernel_body_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    iexists _; iexact HS8

end Cert.Kernel.Edge

end
-- ==== Proof.KEdgeRunMid.lean ====
/-
  The body at a MIDDLE step (this tile added to both accumulators as the step before left them; the output blocks untouched).
-/
import proofs.«115665_j11158325035087_2_alg».proof.Proof.KEdgeRunFirst
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave in the output blocks and in the two accumulators (last first) at such a point,
    with the proof that from the three input tiles at their contents the body runs to its end holding the inputs as
    they were and each stored buffer with those pieces written. The pieces are found by the symbolic run itself. -/
noncomputable def runMid (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i)
    (x0 : Vec F S200x256 .f32) (x1 : Vec F S200x5000 .f32) (x2 : Vec F S256x512 .f32) (xs7 : Vec F S5000x512 .f32) (xs8 : Vec F S1x5000 .f32) :
    Σ' (L3 : List (View.Piece (Elt F) S1x5000x512 .bf16)) (L4 : List (View.Piece (Elt F) S1x1x5000 .f32)) (LSacc : List (View.Piece (Elt F) S5000x512 .f32)), { LSdeg : List (View.Piece (Elt F) S1x5000 .f32) //
      ∀ (xi3 : Vec F S1x5000x512 .bf16) (xi4 : Vec F S1x1x5000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LSacc) ∗ (∃ f, arg8.view.loc (c : Thread nD τ) ↦[arg8.view.set]{fullShare} arg8.view.writes (Elt F) f LSdeg)) -∗ K ⟨⟩))
          ⊢ wp frame (wpE (defs₀ (F := F)) Variants.none c none) E (cc0__edge_kernel_body i arg2 harg2 arg3 harg3 arg4 harg4 arg5 harg5 arg6 harg6 arg7 harg7 arg8 harg8) K } := by
  refine ⟨[], [], ?_, ?_, fun xi3 xi4 E K => ?run⟩
  case run =>
    simp only [cc0__edge_kernel_body_eq_skeleton]; unfold cc0__edge_kernel_body_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs7; obtain rfl := harg8.eq_unread hfs8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    iexists _; iexact HS8

end Cert.Kernel.Edge

end
-- ==== Proof.KEdgeRunLast.lean ====
/-
  The body at a core's LAST step (this tile added to both accumulators, then both copied into the output blocks).
-/
import proofs.«115665_j11158325035087_2_alg».proof.Proof.KEdgeRunMid
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave in the output blocks and in the two accumulators (last first) at such a point,
    with the proof that from the three input tiles at their contents the body runs to its end holding the inputs as
    they were and each stored buffer with those pieces written. The pieces are found by the symbolic run itself. -/
noncomputable def runLast (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i)
    (x0 : Vec F S200x256 .f32) (x1 : Vec F S200x5000 .f32) (x2 : Vec F S256x512 .f32) (xs7 : Vec F S5000x512 .f32) (xs8 : Vec F S1x5000 .f32) :
    Σ' (L3 : List (View.Piece (Elt F) S1x5000x512 .bf16)) (L4 : List (View.Piece (Elt F) S1x1x5000 .f32)) (LSacc : List (View.Piece (Elt F) S5000x512 .f32)), { LSdeg : List (View.Piece (Elt F) S1x5000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LSacc) ∗ (∃ f, arg8.view.loc (c : Thread nD τ) ↦[arg8.view.set]{fullShare} arg8.view.writes (Elt F) f LSdeg)) -∗ K ⟨⟩))
          ⊢ wp frame (wpE (defs₀ (F := F)) Variants.none c none) E (cc0__edge_kernel_body i arg2 harg2 arg3 harg3 arg4 harg4 arg5 harg5 arg6 harg6 arg7 harg7 arg8 harg8) K } := by
  refine ⟨?_, ?_, ?_, ?_, fun E K => ?run⟩
  case run =>
    simp only [cc0__edge_kernel_body_eq_skeleton]; unfold cc0__edge_kernel_body_skel
    unfold owns
    iintro ⟨⟨%f0, %hf0, H0⟩, ⟨%f1, %hf1, H1⟩, ⟨%f2, %hf2, H2⟩, ⟨%d3, %f3, -, H3⟩, ⟨%d4, %f4, -, H4⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg7.eq_unread hfs7; obtain rfl := harg8.eq_unread hfs8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS7]; · iexists _; iexact HS7
    iexists _; iexact HS8

end Cert.Kernel.Edge

end
-- ==== Proof.KEdgeRegion.lean ====
/-
  The edge-aggregation region: what each kind of step leaves in the two accumulators and the two output blocks, the
  accumulation over the grid's points, the region's invariant and proof data, and the body's obligation at every point.
-/
import proofs.«115665_j11158325035087_2_alg».proof.Proof.KEdgeRunLast
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of step leaves: the pieces of its stores cover each buffer it stores into -/

theorem cover_accF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) (y : S5000x512.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S5000x512.size (by sl_kernel_rfl) y
def accF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) : Vec F S5000x512 .f32 :=
  VSacc.read (Elt F) (VSacc.writes (Elt F) VSacc.junk (runFirst c i arg2 harg2 arg3 harg3 arg4 harg4 arg5 harg5 arg6 harg6 arg7 harg7 arg8 harg8 hc0 hc1 x0 x1 x2).2.2.1)

theorem cover_degF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) (y : S1x5000.Idx) :
    ∃ pc ∈ (runFirst c i arg2 harg2 arg3 harg3 arg4 harg4 arg5 harg5 arg6 harg6 arg7 harg7 arg8 harg8 hc0 hc1 x0 x1 x2).2.2.2.1, y ∈ pc.1.set :=
  View.cover_of_tiledL (runFirst c i arg2 harg2 arg3 harg3 arg4 harg4 arg5 harg5 arg6 harg6 arg7 harg7 arg8 harg8 hc0 hc1 x0 x1 x2).2.2.2.1 S1x5000.size (by sl_kernel_rfl) y
def degF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) : Vec F S1x5000 .f32 :=
  VSdeg.read (Elt F) (VSdeg.writes (Elt F) VSdeg.junk (runFirst c i arg2 harg2 arg3 harg3 arg4 harg4 arg5 harg5 arg6 harg6 arg7 harg7 arg8 harg8 hc0 hc1 x0 x1 x2).2.2.2.1)

theorem cover_accM (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) (y : S5000x512.Idx) :
    ∃ pc ∈ (runMid c i arg2 harg2 arg3 harg3 arg4 harg4 arg5 harg5 arg6 harg6 arg7 harg7 arg8 harg8 hc0 hc1 x0 x1 x2 xs7 xs8).2.2.1, y ∈ pc.1.set :=
  View.cover_of_tiledL (runMid c i arg2 harg2 arg3 harg3 arg4 harg4 arg5 harg5 arg6 harg6 arg7 harg7 arg8 harg8 hc0 hc1 x0 x1 x2 xs7 xs8).2.2.1 S5000x512.size (by sl_kernel_rfl) y
def accM_ (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) : Vec F S5000x512 .f32 :=
  VSacc.read (Elt F) (VSacc.writes (Elt F) VSacc.junk (runMid c i arg2 harg2 arg3 harg3 arg4 harg4 arg5 harg5 arg6 harg6 arg7 harg7 arg8 harg8 hc0 hc1 x0 x1 x2 xs7 xs8).2.2.1)

theorem cover_degM (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) (y : S1x5000.Idx) :
    ∃ pc ∈ (runMid c i arg2 harg2 arg3 harg3 arg4 harg4 arg5 harg5 arg6 harg6 arg7 harg7 arg8 harg8 hc0 hc1 x0 x1 x2 xs7 xs8).2.2.2.1, y ∈ pc.1.set :=
  View.cover_of_tiledL (runMid c i arg2 harg2 arg3 harg3 arg4 harg4 arg5 harg5 arg6 harg6 arg7 harg7 arg8 harg8 hc0 hc1 x0 x1 x2 xs7 xs8).2.2.2.1 S1x5000.size (by sl_kernel_rfl) y
def degM_ (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) : Vec F S1x5000 .f32 :=
  VSdeg.read (Elt F) (VSdeg.writes (Elt F) VSdeg.junk (runMid c i arg2 harg2 arg3 harg3 arg4 harg4 arg5 harg5 arg6 harg6 arg7 harg7 arg8 harg8 hc0 hc1 x0 x1 x2 xs7 xs8).2.2.2.1)

theorem cover_o3L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S1x5000x512.Idx) :
    ∃ pc ∈ (runLast c i arg2 harg2 arg3 harg3 arg4 harg4 arg5 harg5 arg6 harg6 arg7 harg7 arg8 harg8 hc0 hc1 x0 x1 x2 xs7 xs8).1, y ∈ pc.1.set :=
  View.cover_of_tiledL (runLast c i arg2 harg2 arg3 harg3 arg4 harg4 arg5 harg5 arg6 harg6 arg7 harg7 arg8 harg8 hc0 hc1 x0 x1 x2 xs7 xs8).1 S1x5000x512.size (by sl_kernel_rfl) y
def o3L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S1x5000x512 .bf16 :=
  VO3.read (Elt F) (VO3.writes (Elt F) VO3.junk (runLast c i arg2 harg2 arg3 harg3 arg4 harg4 arg5 harg5 arg6 harg6 arg7 harg7 arg8 harg8 hc0 hc1 x0 x1 x2 xs7 xs8).1)

theorem cover_o4L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S1x1x5000.Idx) :
    ∃ pc ∈ (runLast c i arg2 harg2 arg3 harg3 arg4 harg4 arg5 harg5 arg6 harg6 arg7 harg7 arg8 harg8 hc0 hc1 x0 x1 x2 xs7 xs8).2.1, y ∈ pc.1.set :=
  View.cover_of_tiledL (runLast c i arg2 harg2 arg3 harg3 arg4 harg4 arg5 harg5 arg6 harg6 arg7 harg7 arg8 harg8 hc0 hc1 x0 x1 x2 xs7 xs8).2.1 S1x1x5000.size (by sl_kernel_rfl) y
def o4L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S1x1x5000 .f32 :=
  VO4.read (Elt F) (VO4.writes (Elt F) VO4.junk (runLast c i arg2 harg2 arg3 harg3 arg4 harg4 arg5 harg5 arg6 harg6 arg7 harg7 arg8 harg8 hc0 hc1 x0 x1 x2 xs7 xs8).2.1)

theorem cover_accL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S5000x512.Idx) :
    ∃ pc ∈ (runLast c i arg2 harg2 arg3 harg3 arg4 harg4 arg5 harg5 arg6 harg6 arg7 harg7 arg8 harg8 hc0 hc1 x0 x1 x2 xs7 xs8).2.2.1, y ∈ pc.1.set :=
  View.cover_of_tiledL (runLast c i arg2 harg2 arg3 harg3 arg4 harg4 arg5 harg5 arg6 harg6 arg7 harg7 arg8 harg8 hc0 hc1 x0 x1 x2 xs7 xs8).2.2.1 S5000x512.size (by sl_kernel_rfl) y
def accL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S5000x512 .f32 :=
  VSacc.read (Elt F) (VSacc.writes (Elt F) VSacc.junk (runLast c i arg2 harg2 arg3 harg3 arg4 harg4 arg5 harg5 arg6 harg6 arg7 harg7 arg8 harg8 hc0 hc1 x0 x1 x2 xs7 xs8).2.2.1)

theorem cover_degL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S1x5000.Idx) :
    ∃ pc ∈ (runLast c i arg2 harg2 arg3 harg3 arg4 harg4 arg5 harg5 arg6 harg6 arg7 harg7 arg8 harg8 hc0 hc1 x0 x1 x2 xs7 xs8).2.2.2.1, y ∈ pc.1.set :=
  View.cover_of_tiledL (runLast c i arg2 harg2 arg3 harg3 arg4 harg4 arg5 harg5 arg6 harg6 arg7 harg7 arg8 harg8 hc0 hc1 x0 x1 x2 xs7 xs8).2.2.2.1 S1x5000.size (by sl_kernel_rfl) y
def degL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S1x5000 .f32 :=
  VSdeg.read (Elt F) (VSdeg.writes (Elt F) VSdeg.junk (runLast c i arg2 harg2 arg3 harg3 arg4 harg4 arg5 harg5 arg6 harg6 arg7 harg7 arg8 harg8 hc0 hc1 x0 x1 x2 xs7 xs8).2.2.2.1)

/-- Away from a core's last step nothing is stored into the output blocks: a placeholder nothing consults (the
    window is then neither written back nor read at the next point). -/
def o3Junk : Vec F S1x5000x512 .bf16 := VO3.read (Elt F) VO3.junk
def o4Junk : Vec F S1x1x5000 .f32 := VO4.read (Elt F) VO4.junk

/-! ## The accumulation -/

/-- What the two output blocks and the two accumulators hold after the body at position n: a core's first step
    starts from cleared accumulators, every other step from what the step before left. -/
def outsAt (c : Dev nD) : (n : ℕ) → n < cfg0.N → Vec F S1x5000x512 .bf16 × Vec F S1x1x5000 .f32 × Vec F S5000x512 .f32 × Vec F S1x5000 .f32
  | 0, hn => (o3Junk, o4Junk, accF c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) degM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩), degF c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) degM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 50 = 0 then
      if h1 : (n + 1) % 50 = 49 then
        False.elim (by omega)
      else
        (o3Junk, o4Junk, accF c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩), degF c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 50 = 49 then
        (o3L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, o4L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, accL c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, degL c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2)
      else
        (o3Junk, o4Junk, accM_ c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, degM_ c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2)

theorem outsAt_first (c : Dev nD) (t : Fin cfg0.N) (h0 : t.val % 50 = 0) (h1 : ¬t.val % 50 = 49) :
    outsAt V c t.val t.isLt = (o3Junk, o4Junk, accF c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t), degF c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_mid (c : Dev nD) (t : Fin cfg0.N) (h0 : ¬t.val % 50 = 0) (h1 : ¬t.val % 50 = 49) :
    outsAt V c t.val t.isLt = (o3Junk, o4Junk, accM_ c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, degM_ c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 50 = 0) (h1 : t.val % 50 = 49) :
    outsAt V c t.val t.isLt = (o3L c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, o4L c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, accL c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, degL c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators at what the step before left -/

def PhiS (c : Dev nD) : (n : ℕ) → n ≤ cfg0.N → sProp 𝕄
  | 0, _ => Pipeline.ΦA spec0 c
  | n + 1, hn => iprop(iprop(owns (c : Thread nD τ) accM fullShare ((outsAt V c n hn).2.2.1) ∗ owns (c : Thread nD τ) degM fullShare ((outsAt V c n hn).2.2.2) ∗ restOther (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2.2.1) ∗ owns (c : Thread nD τ) degM fullShare ((outsAt V c n hn).2.2.2) ∗ restOther (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2.2.1) ∗ owns (c : Thread nD τ) degM fullShare ((outsAt V c (n - 1) (by omega)).2.2.2) ∗ restOther (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem after_4 (c : Dev nD) (t : Fin cfg0.N) : (dat V c).after 4 t = (outsAt V c t.val t.isLt).2.1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.Kernel.Edge

end
-- ==== Proof.KEdgeBody.lean ====
/-
  The edge-aggregation region: the body's obligation at every point. The closed forms of the two conditions say which
  kind of step the point is; the invariant hands the body both accumulators at what the step before left (at anything
  before the first point) and takes them back at this step's contents; the output blocks are handed back untouched
  except at a core's last step, where the body fills them.
-/
import proofs.«115665_j11158325035087_2_alg».proof.Proof.KEdgeRegion
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 100 := lt_of_lt_of_eq t.isLt (show cfg0.N = 100 from N_0)
  by_cases h0 : t.val % 50 = 0
  · have h1 : ¬t.val % 50 = 49 := by omega
    have hnl : ¬condLast (grid0.coords t) := fun h => h1 ((hcondLast t).mp h)
    rw [Dat.leavesExact_idle (dat V c) 3 t (idle_3 t hnl) (noFlush_3 t hnl), Dat.leavesExact_idle (dat V c) 4 t (idle_4 t hnl) (noFlush_4 t hnl)]
    rw [outsAt_first V c t h0 h1]
    unfold accF degF; (try dsimp only)
    by_cases hz : t.val = 0
    · rw [PhiS_castSucc V c t, PhiS_zero V c _ _ hz, PhiA_eq]
      iintro ⟨⟨⟨HS7, HS8, Hrest⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)).2.2.2.2 _ _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accF c _ _ _ _ _ _ _ _ _ _ _ _ _ _ _ _ _ _ _ _)
          isplitl [HS8]
          · unfold owns; iexists _; isplitr
            swap; · iexact HS8
            ipureintro; exact View.read_writes_of_cover _ _ _ _ _ (cover_degF c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS7, HS8, Hrest⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)).2.2.2.2 _ _ Set.univ _)
      isplitl [H0]; · iexact H0
      isplitl [H1]; · iexact H1
      isplitl [H2]; · iexact H2
      isplitl [H3]; · iexact H3
      isplitl [H4]; · iexact H4
      isplitl [HS7]; · iexists _; iexact HS7
      isplitl [HS8]; · iexists _; iexact HS8
      iintro ⟨H0, H1, H2, H3, H4, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accF c _ _ _ _ _ _ _ _ _ _ _ _ _ _ _ _ _ _ _ _)
          isplitl [HS8]
          · unfold owns; iexists _; isplitr
            swap; · iexact HS8
            ipureintro; exact View.read_writes_of_cover _ _ _ _ _ (cover_degF c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 50 = 49
    · have hl : condLast (grid0.coords t) := (hcondLast t).mpr h1
      rw [show (dat V c).leavesExact 3 t = owns (c : Thread nD τ) (ms3 t) fullShare ((dat V c).after 3 t) from by
        unfold Dat.leavesExact; rw [live_3 t hl], after_3]
      rw [show (dat V c).leavesExact 4 t = owns (c : Thread nD τ) (ms4 t) fullShare ((dat V c).after 4 t) from by
        unfold Dat.leavesExact; rw [live_4 t hl], after_4]
      rw [outsAt_last V c t h0 h1]
      unfold o3L o4L accL degL; (try dsimp only)
      rw [PhiS_castSucc V c t, PhiS_pos V c _ _ hz]
      iintro ⟨⟨⟨HS7, HS8, Hrest⟩, Hg⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS7]; · iexact HS7
      isplitl [HS8]; · iexact HS8
      iintro ⟨H0, H1, H2, ⟨%e3, H3⟩, ⟨%e4, H4⟩, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accL c _ _ _ _ _ _ _ _ _ _ _ _ _ _ _ _ _ _ _ _ _ _)
          isplitl [HS8]
          · unfold owns; iexists _; isplitr
            swap; · iexact HS8
            ipureintro; exact View.read_writes_of_cover _ _ _ _ _ (cover_degL c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_o3L c _ _ _ _ _ _ _ _ _ _ _ _ _ _ _ _ _ _ _ _ _ _)
      unfold owns; iexists _; isplitr
      swap; · iexact H4
      ipureintro; exact View.read_writes_of_cover _ _ _ _ _ (cover_o4L c _ _ _ _ _ _ _ _ _ _ _ _ _ _ _ _ _ _ _ _ _ _)
    · have hnl : ¬condLast (grid0.coords t) := fun h => h1 ((hcondLast t).mp h)
      rw [Dat.leavesExact_idle (dat V c) 3 t (idle_3 t hnl) (noFlush_3 t hnl), Dat.leavesExact_idle (dat V c) 4 t (idle_4 t hnl) (noFlush_4 t hnl)]
      rw [outsAt_mid V c t h0 h1]
      unfold accM_ degM_; (try dsimp only)
      rw [PhiS_castSucc V c t, PhiS_pos V c _ _ hz]
      iintro ⟨⟨⟨HS7, HS8, Hrest⟩, Hg⟩, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) _ _).2.2.2.2 _ _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accM c _ _ _ _ _ _ _ _ _ _ _ _ _ _ _ _ _ _ _ _ _ _)
          isplitl [HS8]
          · unfold owns; iexists _; isplitr
            swap; · iexact HS8
            ipureintro; exact View.read_writes_of_cover _ _ _ _ _ (cover_degM c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

set_option maxHeartbeats 8000000 in
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS7, HS8, Hrest⟩, Hg⟩
  isplitl [HS7 HS8 Hrest]
  · isplitl [HS7]; · iexists _; iexact HS7
    isplitl [HS8]; · iexists _; iexact HS8
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 100 := N_0; omega)

end Cert.Kernel.Edge

end
-- ==== Proof.KNodeRegion.lean ====
/-
  The node region of the kernel program: the second pipeline's body obligation, at any entry contents.

  The region has seven windows. Windows 0–5 are read only: a block of 400 rows of the incidence matrix, the whole
  edge-feature table, a block of 400 rows of the node features, the whole residual weight matrix, and the scale
  and shift rows. Window 6 is the block of 400 output rows. At a grid point the body reads each input window
  whole, computes, and overwrites the output window whole; so after the body every input's staging buffer still
  holds its block and the output's holds one store's payload, a function of the six input blocks.

  Everything is stated at a parameter `V`: what the core's buffers hold when the region is entered.
-/
import proofs.«115665_j11158325035087_2_alg».proof.Proof.Gen.Kernel.Launch
import proofs.«115665_j11158325035087_2_alg».proof.Proof.Gen.Kernel.Skeleton
import proofs.«115665_j11158325035087_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The blocks of the windows -/

/-- The block of window `w` at grid point `t`: the part of the window's array, as the region finds it, that the
    window's index map selects there. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point. Where the window was fetched this
    is the fetch; where it was not, the block index is the previous point's and the body left that block alone. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: its current staging buffer holds its block at every point. Where the window was fetched this
    is the fetch; where it was not, the block index is the previous point's and the body left that block alone. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: its current staging buffer holds its block at every point. Where the window was fetched this
    is the fetch; where it was not, the block index is the previous point's and the body left that block alone. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3: its current staging buffer holds its block at every point. Where the window was fetched this
    is the fetch; where it was not, the block index is the previous point's and the body left that block alone. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4: its current staging buffer holds its block at every point. Where the window was fetched this
    is the fetch; where it was not, the block index is the previous point's and the body left that block alone. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5: its current staging buffer holds its block at every point. Where the window was fetched this
    is the fetch; where it was not, the block index is the previous point's and the body left that block alone. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes: every one is a whole buffer -/

abbrev rH : Rect S400x5000 := Rect.unit (s := S400x5000) ![0, 0] S400x5000.size inb_S400x5000_S400x5000_0_0
abbrev rE : Rect S5000x512 := Rect.unit (s := S5000x512) ![0, 0] S5000x512.size inb_S5000x512_S5000x512_0_0
abbrev rX : Rect S400x256 := Rect.unit (s := S400x256) ![0, 0] S400x256.size inb_S400x256_S400x256_0_0
abbrev rW : Rect S256x512 := Rect.unit (s := S256x512) ![0, 0] S256x512.size inb_S256x512_S256x512_0_0
abbrev rG : Rect S1x512 := Rect.unit (s := S1x512) ![0, 0] S1x512.size inb_S1x512_S1x512_0_0
abbrev rB : Rect S1x512 := Rect.unit (s := S1x512) ![0, 0] S1x512.size inb_S1x512_S1x512_0_0
abbrev rO : Rect S400x512 := Rect.unit (s := S400x512) ![0, 0] S400x512.size inb_S400x512_S400x512_0_0

/-! ## What the body leaves in the output window -/

/-- The output staging buffer after the body, as a function of the six input blocks: one store over the whole
    buffer, whose payload is the normalised rows scaled by the fifth input and shifted by the sixth. -/
def out6 (x0 : Vec F S400x5000 .f32) (x1 : Vec F S5000x512 .bf16) (x2 : Vec F S400x256 .f32) (x3 : Vec F S256x512 .f32)
    (x4 : Vec F S1x512 .f32) (x5 : Vec F S1x512 .f32) : Vec F S400x512 .f32 :=
  View.canon [⟨rO, k1_pay1 (k1_pay2 (View.ld x0 rH) (View.ld x1 rE) (View.ld x2 rX) (View.ld x3 rW) (View.ld x4 rG)) (View.ld x5 rB)⟩]

/-- The one store is the whole buffer, so every index lies in it. -/
theorem cover6 (p0 : Vec F S400x512 .f32) (y : S400x512.Idx) :
    ∃ pc ∈ ([⟨rO, p0⟩] : List (View.Piece (Elt F) S400x512 .f32)), y ∈ pc.1.set :=
  View.cover_of_tiled [⟨rO, p0⟩] S400x512.size (by rfl) y

/-! ## The body's triple -/

set_option maxHeartbeats 4000000 in
/-- The body on whole staging memrefs: with the inputs' holding `x0 … x5` and the output's holding anything, it runs
    to a state where the inputs' hold what they held and the output's holds `out6` of them. The body reads the six
    inputs, reads the output buffer once (a value it never uses), and stores the payload over the whole output. -/
theorem sound_kernel (c : Dev nD) (E : Set ℕ) (i : grid1.Coords) (arg1 : Memref sig .tc .vmem S400x5000 .f32) (harg1 : arg1.IsWhole) (arg2 : Memref sig .tc .vmem S5000x512 .bf16) (harg2 : arg2.IsWhole) (arg3 : Memref sig .tc .vmem S400x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S400x512 .f32) (harg7 : arg7.IsWhole)
    (x0 : Vec F S400x5000 .f32) (x1 : Vec F S5000x512 .bf16) (x2 : Vec F S400x256 .f32) (x3 : Vec F S256x512 .f32)
    (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5)) -∗ K ⟨⟩))
      ⊢ wp frame (wpE (defs₀ (F := F)) Variants.none c none) E (cc1__node_kernel_body i arg1 harg1 arg2 harg2 arg3 harg3 arg4 harg4 arg5 harg5 arg6 harg6 arg7 harg7) K := by
  simp only [cc1__node_kernel_body_eq_skeleton]; unfold cc1__node_kernel_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

/-! ## The proof data of the pipeline -/

/-- The proof data of the node pipeline on core `c`: the windows' arrays are what the region finds; after the body
    at point `t` every input's staging buffer holds its block and the output's holds `out6` of the six blocks; the
    invariant is the one of a body that touches nothing but its windows; nothing is owed; the shares are full. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec1 c
  q _ := fullShare
  owed _ := 0

/-- The arrays of the proof data are the entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t
    = out6 (iblk V c 0 t) (iblk V c 1 t) (iblk V c 2 t) (iblk V c 3 t) (iblk V c 4 t) (iblk V c 5 t) := by dsimp only [dat]

/-- What the body finds in each input window: its block. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: each input's memref holds its block, so the triple above applies; the invariant and what
    the core owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the node pipeline, at every point. -/
theorem body_obligation (c : Dev nD) : BodyObligation (dat (F := F) V c) (defs₀ (F := F)) Variants.none () Set.univ := fun t => by
  rw [bigSep_W1, bigSep_W1]
  exact sound_body V c t

end Cert.Kernel.Node

end
-- ==== Proof.KRun.lean ====
/-
  The whole program as one run. Between two items of the program a core's unscoped buffers hold: at launch the launch
  memory; after a stretch of host operations, those operations applied in order; after a kernel region, that region's
  arrays at what its write-backs leave and every other buffer as the region found it. The two regions are entered from
  and left at these contents; at the end every unscoped buffer is read off the last of them.
-/
import proofs.«115665_j11158325035087_2_alg».proof.Proof.KEdgeBody
import proofs.«115665_j11158325035087_2_alg».proof.Proof.KNodeRegion
import proofs.«115665_j11158325035087_2_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (Edge.dat (V1 m) c).arrAt w cfg0.N
theorem W2_arr (c : Dev nD) (w : Fin cfg0.W) :
    W2 m c (Proc.devRef .tc (Pipeline.arrRef spec0 w)) = (Edge.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Edge.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (Node.dat (V3 m) c).arrAt w cfg1.N
theorem W4_arr (c : Dev nD) (w : Fin cfg1.W) :
    W4 m c (Proc.devRef .tc (Pipeline.arrRef spec1 w)) = (Node.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Node.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No item writes an argument: each argument's buffer reaches the end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 2).trans (((Node.dat (V3 m) c).arrAt_in 2 rfl _).trans (Node.A_eq (V3 m) c 2))
    _ = W2 m c (Proc.devRef .tc main_arg0) := StableHlo.after_of_writes_sub hostOps1 _ hostOps1_writes (by decide)
    _ = W1 m c (Proc.devRef .tc main_arg0) := (W2_arr m c 0).trans (((Edge.dat (V1 m) c).arrAt_in 0 rfl _).trans (Edge.A_eq (V1 m) c 0))
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((Node.dat (V3 m) c).arrAt_in 0 rfl _).trans (Node.A_eq (V3 m) c 0))
    _ = W2 m c (Proc.devRef .tc main_arg1) := StableHlo.after_of_writes_sub hostOps1 _ hostOps1_writes (by decide)
    _ = W1 m c (Proc.devRef .tc main_arg1) := (W2_arr m c 1).trans (((Edge.dat (V1 m) c).arrAt_in 1 rfl _).trans (Edge.A_eq (V1 m) c 1))
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((Edge.dat (V1 m) c).arrAt_in 2 rfl _).trans (Edge.A_eq (V1 m) c 2))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 3).trans (((Node.dat (V3 m) c).arrAt_in 3 rfl _).trans (Node.A_eq (V3 m) c 3))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- The result array ends at what the second region's write-backs leave. -/
theorem W4_result (c : Dev nD) : W4 m c (Proc.devRef .tc main_v21) = (Node.dat (V3 m) c).arrAt 6 cfg1.N :=
  W4_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Edge.dat (V1 m) c
  | ⟨1, _⟩ => fun c => Node.dat (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state "every unscoped buffer at the boundary's contents, the generator register at some
    state, nothing owed": its arrays are split out of the unscoped buffers on entry and put back at what the
    write-backs leave on exit; the generator register goes into the kernel's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Edge.hin (V1 m) c)
    unfold Pipeline.ΦA
    iintro ⟨Hp, -, Hr⟩
    isplitl [Hr]; · iexact Hr
    iexact Hp
  hout c := by
    rw [Pipeline.ownSems0_none]
    refine Idealize.SL.BI.BIBase.Entails.trans (Edge.hout (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers on entry and put back at what the
    write-backs leave on exit; the generator register goes into the kernel's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (run_all m ρ)

/-- The same run with the result array named too. -/
theorem run_value : θ_run defs (onTc (τ := τ) (main (F := F))) ⟨m, fun _ => 0, ρ⟩ (fun r => ∀ c : Dev nD,
      r.2.mem ((c.tc : Thread nD τ).loc main_v21) = (Node.dat (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_v21 (by decide))).trans (W4_result m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (run_all m ρ)

end Cert.Kernel.Run

end
-- ==== Proof.EdgeShared.lean ====
/-
  The edge-aggregation region (the first kernel: a 2 x 50 grid, point t = 50·core + step): what its proof shares.
  A point reads a 200-row tile of x and of H and the whole of W_node; it keeps two accumulators in scratch between
  points — the [5000, 512] sum of Hᵀ·(x·W_node) over the tiles seen so far on this core and the [1, 5000] column
  sums of H over them —, clears both at a core's first step (t ≡ 0 mod 50) and copies them into its two output
  blocks at the core's last step (t ≡ 49 mod 50); at every other point the output blocks are left alone and not
  written back. Stated at a PARAMETER V: the core's buffer contents when the region is entered.
-/
import proofs.«115665_j11158325035087_2_alg».proof.Proof.Gen.KernelIdeal.Launch
import proofs.«115665_j11158325035087_2_alg».proof.Proof.Gen.KernelIdeal.Skeleton
import proofs.«115665_j11158325035087_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: when the
    pipeline does not fetch, the block index has not moved and the body left the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: when the
    pipeline does not fetch, the block index has not moved and the body left the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: when the
    pipeline does not fetch, the block index has not moved and the body left the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, decided over the grid -/

/-- "This is the core's first step": the body then clears both accumulators. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 50 = 0 :=
  (by decide +kernel : ∀ t : Fin grid0.N, condFirst (grid0.coords t) ↔ t.val % 50 = 0)

/-- "This is the core's last step": the body then copies the accumulators into the output blocks. -/
abbrev condLast (i : grid0.Coords) : Prop := k0_cond2 i = 1#1
theorem hcondLast : ∀ t : Fin cfg0.N, condLast (grid0.coords t) ↔ t.val % 50 = 49 :=
  (by decide +kernel : ∀ t : Fin grid0.N, condLast (grid0.coords t) ↔ t.val % 50 = 49)

/-! ## Where the output windows are idle -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
/-- Away from a core's last step the body stores nothing into the output blocks, and the pipeline does not write them back. -/
theorem idle_3 : ∀ t : Fin cfg0.N, ¬condLast (grid0.coords t) → cfg0.idle 3 (grid0.coords t) = true := by decide +kernel
theorem idle_4 : ∀ t : Fin cfg0.N, ¬condLast (grid0.coords t) → cfg0.idle 4 (grid0.coords t) = true := by decide +kernel
theorem noFlush_3 : ∀ t : Fin cfg0.N, ¬condLast (grid0.coords t) → (cfg0.win 3).flush t = false := by decide +kernel
theorem noFlush_4 : ∀ t : Fin cfg0.N, ¬condLast (grid0.coords t) → (cfg0.win 4).flush t = false := by decide +kernel
/-- At a core's last step both are stored. -/
theorem live_3 : ∀ t : Fin cfg0.N, condLast (grid0.coords t) → cfg0.idle 3 (grid0.coords t) = false := by decide +kernel
theorem live_4 : ∀ t : Fin cfg0.N, condLast (grid0.coords t) → cfg0.idle 4 (grid0.coords t) = false := by decide +kernel

/-! ## The memrefs the body is called with -/

abbrev ms0 (t : Fin cfg0.N) : Memref sig .tc .vmem S200x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x5000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x5000x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x5000 .f32 := win0_4.stage (cfg0.slots t 4)
abbrev hs4 (t : Fin cfg0.N) : (ms4 t).IsWhole := hstage0_4 ((cfg0.slots t 4).cast nbuf0_4)
/-- The two accumulators: whole scoped buffers of the kernel's own. -/
abbrev accM : Memref sig .tc .vmem S5000x512 .f32 := Memref.whole cc0_scratch0
abbrev degM : Memref sig .tc .vmem S1x5000 .f32 := Memref.whole cc0_scratch1
/-- Views through which contents are stated. -/
abbrev VO3 : View sig .tc .vmem S1x5000x512 .bf16 := (Memref.whole cc0_stg3_0 : Memref sig .tc .vmem S1x5000x512 .bf16).view
abbrev VO4 : View sig .tc .vmem S1x1x5000 .f32 := (Memref.whole cc0_stg4_0 : Memref sig .tc .vmem S1x1x5000 .f32).view
abbrev VSacc : View sig .tc .vmem S5000x512 .f32 := (accM : Memref sig .tc .vmem S5000x512 .f32).view
abbrev VSdeg : View sig .tc .vmem S1x5000 .f32 := (degM : Memref sig .tc .vmem S1x5000 .f32).view

/-- The core's scoped buffers this kernel never touches (the other kernel's staging buffers), each at some contents. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the pipeline hands the body besides the windows, with the two accumulators named. -/
theorem PhiA_eq (c : Dev nD) :
    (Pipeline.ΦA spec0 c : sProp 𝕄)
      = iprop(iprop((∃ d, owns (c : Thread nD τ) accM fullShare d) ∗ (∃ d, owns (c : Thread nD τ) degM fullShare d) ∗ restOther (F := F) c) ∗ (∃ r, prngReg c r)) := by
  unfold Pipeline.ΦA; rw [scopedRest0_eq]; simp only [accM, degM, owns_whole, restOther]; try rfl

end Cert.KernelIdeal.Edge

end
-- ==== Proof.EdgeRunFirst.lean ====
/-
  The body at a core's FIRST step (both accumulators cleared, then this tile added; the output blocks untouched).
-/
import proofs.«115665_j11158325035087_2_alg».proof.Proof.EdgeShared
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave in the output blocks and in the two accumulators (last first) at such a point,
    with the proof that from the three input tiles at their contents the body runs to its end holding the inputs as
    they were and each stored buffer with those pieces written. The pieces are found by the symbolic run itself. -/
noncomputable def runFirst (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i)
    (x0 : Vec F S200x256 .f32) (x1 : Vec F S200x5000 .f32) (x2 : Vec F S256x512 .f32) :
    Σ' (L3 : List (View.Piece (Elt F) S1x5000x512 .bf16)) (L4 : List (View.Piece (Elt F) S1x1x5000 .f32)) (LSacc : List (View.Piece (Elt F) S5000x512 .f32)), { LSdeg : List (View.Piece (Elt F) S1x5000 .f32) //
      ∀ (xi3 : Vec F S1x5000x512 .bf16) (xi4 : Vec F S1x1x5000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LSacc) ∗ (∃ f, arg8.view.loc (c : Thread nD τ) ↦[arg8.view.set]{fullShare} arg8.view.writes (Elt F) f LSdeg)) -∗ K ⟨⟩))
          ⊢ wp frame (wpE (defs₀ (F := F)) Variants.none c none) E (cc0__edge_kernel_body i arg2 harg2 arg3 harg3 arg4 harg4 arg5 harg5 arg6 harg6 arg7 harg7 arg8 harg8) K } := by
  refine ⟨[], [], ?_, ?_, fun xi3 xi4 E K => ?run⟩
  case run =>
    simp only [cc0__edge_kernel_body_eq_skeleton]; unfold cc0__edge_kernel_body_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    iexists _; iexact HS8

end Cert.KernelIdeal.Edge

end
-- ==== Proof.EdgeRunMid.lean ====
/-
  The body at a MIDDLE step (this tile added to both accumulators as the step before left them; the output blocks untouched).
-/
import proofs.«115665_j11158325035087_2_alg».proof.Proof.EdgeRunFirst
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave in the output blocks and in the two accumulators (last first) at such a point,
    with the proof that from the three input tiles at their contents the body runs to its end holding the inputs as
    they were and each stored buffer with those pieces written. The pieces are found by the symbolic run itself. -/
noncomputable def runMid (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i)
    (x0 : Vec F S200x256 .f32) (x1 : Vec F S200x5000 .f32) (x2 : Vec F S256x512 .f32) (xs7 : Vec F S5000x512 .f32) (xs8 : Vec F S1x5000 .f32) :
    Σ' (L3 : List (View.Piece (Elt F) S1x5000x512 .bf16)) (L4 : List (View.Piece (Elt F) S1x1x5000 .f32)) (LSacc : List (View.Piece (Elt F) S5000x512 .f32)), { LSdeg : List (View.Piece (Elt F) S1x5000 .f32) //
      ∀ (xi3 : Vec F S1x5000x512 .bf16) (xi4 : Vec F S1x1x5000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LSacc) ∗ (∃ f, arg8.view.loc (c : Thread nD τ) ↦[arg8.view.set]{fullShare} arg8.view.writes (Elt F) f LSdeg)) -∗ K ⟨⟩))
          ⊢ wp frame (wpE (defs₀ (F := F)) Variants.none c none) E (cc0__edge_kernel_body i arg2 harg2 arg3 harg3 arg4 harg4 arg5 harg5 arg6 harg6 arg7 harg7 arg8 harg8) K } := by
  refine ⟨[], [], ?_, ?_, fun xi3 xi4 E K => ?run⟩
  case run =>
    simp only [cc0__edge_kernel_body_eq_skeleton]; unfold cc0__edge_kernel_body_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs7; obtain rfl := harg8.eq_unread hfs8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    iexists _; iexact HS8

end Cert.KernelIdeal.Edge

end
-- ==== Proof.EdgeRunLast.lean ====
/-
  The body at a core's LAST step (this tile added to both accumulators, then both copied into the output blocks).
-/
import proofs.«115665_j11158325035087_2_alg».proof.Proof.EdgeRunMid
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave in the output blocks and in the two accumulators (last first) at such a point,
    with the proof that from the three input tiles at their contents the body runs to its end holding the inputs as
    they were and each stored buffer with those pieces written. The pieces are found by the symbolic run itself. -/
noncomputable def runLast (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i)
    (x0 : Vec F S200x256 .f32) (x1 : Vec F S200x5000 .f32) (x2 : Vec F S256x512 .f32) (xs7 : Vec F S5000x512 .f32) (xs8 : Vec F S1x5000 .f32) :
    Σ' (L3 : List (View.Piece (Elt F) S1x5000x512 .bf16)) (L4 : List (View.Piece (Elt F) S1x1x5000 .f32)) (LSacc : List (View.Piece (Elt F) S5000x512 .f32)), { LSdeg : List (View.Piece (Elt F) S1x5000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LSacc) ∗ (∃ f, arg8.view.loc (c : Thread nD τ) ↦[arg8.view.set]{fullShare} arg8.view.writes (Elt F) f LSdeg)) -∗ K ⟨⟩))
          ⊢ wp frame (wpE (defs₀ (F := F)) Variants.none c none) E (cc0__edge_kernel_body i arg2 harg2 arg3 harg3 arg4 harg4 arg5 harg5 arg6 harg6 arg7 harg7 arg8 harg8) K } := by
  refine ⟨?_, ?_, ?_, ?_, fun E K => ?run⟩
  case run =>
    simp only [cc0__edge_kernel_body_eq_skeleton]; unfold cc0__edge_kernel_body_skel
    unfold owns
    iintro ⟨⟨%f0, %hf0, H0⟩, ⟨%f1, %hf1, H1⟩, ⟨%f2, %hf2, H2⟩, ⟨%d3, %f3, -, H3⟩, ⟨%d4, %f4, -, H4⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg7.eq_unread hfs7; obtain rfl := harg8.eq_unread hfs8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS7]; · iexists _; iexact HS7
    iexists _; iexact HS8

end Cert.KernelIdeal.Edge

end
-- ==== Proof.EdgeRegion.lean ====
/-
  The edge-aggregation region: what each kind of step leaves in the two accumulators and the two output blocks, the
  accumulation over the grid's points, the region's invariant and proof data, and the body's obligation at every point.
-/
import proofs.«115665_j11158325035087_2_alg».proof.Proof.EdgeRunLast
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of step leaves: the pieces of its stores cover each buffer it stores into -/

theorem cover_accF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) (y : S5000x512.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S5000x512.size (by sl_kernel_rfl) y
def accF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) : Vec F S5000x512 .f32 :=
  VSacc.read (Elt F) (VSacc.writes (Elt F) VSacc.junk (runFirst c i arg2 harg2 arg3 harg3 arg4 harg4 arg5 harg5 arg6 harg6 arg7 harg7 arg8 harg8 hc0 hc1 x0 x1 x2).2.2.1)

theorem cover_degF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) (y : S1x5000.Idx) :
    ∃ pc ∈ (runFirst c i arg2 harg2 arg3 harg3 arg4 harg4 arg5 harg5 arg6 harg6 arg7 harg7 arg8 harg8 hc0 hc1 x0 x1 x2).2.2.2.1, y ∈ pc.1.set :=
  View.cover_of_tiledL (runFirst c i arg2 harg2 arg3 harg3 arg4 harg4 arg5 harg5 arg6 harg6 arg7 harg7 arg8 harg8 hc0 hc1 x0 x1 x2).2.2.2.1 S1x5000.size (by sl_kernel_rfl) y
def degF (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) : Vec F S1x5000 .f32 :=
  VSdeg.read (Elt F) (VSdeg.writes (Elt F) VSdeg.junk (runFirst c i arg2 harg2 arg3 harg3 arg4 harg4 arg5 harg5 arg6 harg6 arg7 harg7 arg8 harg8 hc0 hc1 x0 x1 x2).2.2.2.1)

theorem cover_accM (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) (y : S5000x512.Idx) :
    ∃ pc ∈ (runMid c i arg2 harg2 arg3 harg3 arg4 harg4 arg5 harg5 arg6 harg6 arg7 harg7 arg8 harg8 hc0 hc1 x0 x1 x2 xs7 xs8).2.2.1, y ∈ pc.1.set :=
  View.cover_of_tiledL (runMid c i arg2 harg2 arg3 harg3 arg4 harg4 arg5 harg5 arg6 harg6 arg7 harg7 arg8 harg8 hc0 hc1 x0 x1 x2 xs7 xs8).2.2.1 S5000x512.size (by sl_kernel_rfl) y
def accM_ (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) : Vec F S5000x512 .f32 :=
  VSacc.read (Elt F) (VSacc.writes (Elt F) VSacc.junk (runMid c i arg2 harg2 arg3 harg3 arg4 harg4 arg5 harg5 arg6 harg6 arg7 harg7 arg8 harg8 hc0 hc1 x0 x1 x2 xs7 xs8).2.2.1)

theorem cover_degM (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) (y : S1x5000.Idx) :
    ∃ pc ∈ (runMid c i arg2 harg2 arg3 harg3 arg4 harg4 arg5 harg5 arg6 harg6 arg7 harg7 arg8 harg8 hc0 hc1 x0 x1 x2 xs7 xs8).2.2.2.1, y ∈ pc.1.set :=
  View.cover_of_tiledL (runMid c i arg2 harg2 arg3 harg3 arg4 harg4 arg5 harg5 arg6 harg6 arg7 harg7 arg8 harg8 hc0 hc1 x0 x1 x2 xs7 xs8).2.2.2.1 S1x5000.size (by sl_kernel_rfl) y
def degM_ (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) : Vec F S1x5000 .f32 :=
  VSdeg.read (Elt F) (VSdeg.writes (Elt F) VSdeg.junk (runMid c i arg2 harg2 arg3 harg3 arg4 harg4 arg5 harg5 arg6 harg6 arg7 harg7 arg8 harg8 hc0 hc1 x0 x1 x2 xs7 xs8).2.2.2.1)

theorem cover_o3L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S1x5000x512.Idx) :
    ∃ pc ∈ (runLast c i arg2 harg2 arg3 harg3 arg4 harg4 arg5 harg5 arg6 harg6 arg7 harg7 arg8 harg8 hc0 hc1 x0 x1 x2 xs7 xs8).1, y ∈ pc.1.set :=
  View.cover_of_tiledL (runLast c i arg2 harg2 arg3 harg3 arg4 harg4 arg5 harg5 arg6 harg6 arg7 harg7 arg8 harg8 hc0 hc1 x0 x1 x2 xs7 xs8).1 S1x5000x512.size (by sl_kernel_rfl) y
def o3L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S1x5000x512 .bf16 :=
  VO3.read (Elt F) (VO3.writes (Elt F) VO3.junk (runLast c i arg2 harg2 arg3 harg3 arg4 harg4 arg5 harg5 arg6 harg6 arg7 harg7 arg8 harg8 hc0 hc1 x0 x1 x2 xs7 xs8).1)

theorem cover_o4L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S1x1x5000.Idx) :
    ∃ pc ∈ (runLast c i arg2 harg2 arg3 harg3 arg4 harg4 arg5 harg5 arg6 harg6 arg7 harg7 arg8 harg8 hc0 hc1 x0 x1 x2 xs7 xs8).2.1, y ∈ pc.1.set :=
  View.cover_of_tiledL (runLast c i arg2 harg2 arg3 harg3 arg4 harg4 arg5 harg5 arg6 harg6 arg7 harg7 arg8 harg8 hc0 hc1 x0 x1 x2 xs7 xs8).2.1 S1x1x5000.size (by sl_kernel_rfl) y
def o4L (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S1x1x5000 .f32 :=
  VO4.read (Elt F) (VO4.writes (Elt F) VO4.junk (runLast c i arg2 harg2 arg3 harg3 arg4 harg4 arg5 harg5 arg6 harg6 arg7 harg7 arg8 harg8 hc0 hc1 x0 x1 x2 xs7 xs8).2.1)

theorem cover_accL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S5000x512.Idx) :
    ∃ pc ∈ (runLast c i arg2 harg2 arg3 harg3 arg4 harg4 arg5 harg5 arg6 harg6 arg7 harg7 arg8 harg8 hc0 hc1 x0 x1 x2 xs7 xs8).2.2.1, y ∈ pc.1.set :=
  View.cover_of_tiledL (runLast c i arg2 harg2 arg3 harg3 arg4 harg4 arg5 harg5 arg6 harg6 arg7 harg7 arg8 harg8 hc0 hc1 x0 x1 x2 xs7 xs8).2.2.1 S5000x512.size (by sl_kernel_rfl) y
def accL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S5000x512 .f32 :=
  VSacc.read (Elt F) (VSacc.writes (Elt F) VSacc.junk (runLast c i arg2 harg2 arg3 harg3 arg4 harg4 arg5 harg5 arg6 harg6 arg7 harg7 arg8 harg8 hc0 hc1 x0 x1 x2 xs7 xs8).2.2.1)

theorem cover_degL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) (y : S1x5000.Idx) :
    ∃ pc ∈ (runLast c i arg2 harg2 arg3 harg3 arg4 harg4 arg5 harg5 arg6 harg6 arg7 harg7 arg8 harg8 hc0 hc1 x0 x1 x2 xs7 xs8).2.2.2.1, y ∈ pc.1.set :=
  View.cover_of_tiledL (runLast c i arg2 harg2 arg3 harg3 arg4 harg4 arg5 harg5 arg6 harg6 arg7 harg7 arg8 harg8 hc0 hc1 x0 x1 x2 xs7 xs8).2.2.2.1 S1x5000.size (by sl_kernel_rfl) y
def degL (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) : Vec F S1x5000 .f32 :=
  VSdeg.read (Elt F) (VSdeg.writes (Elt F) VSdeg.junk (runLast c i arg2 harg2 arg3 harg3 arg4 harg4 arg5 harg5 arg6 harg6 arg7 harg7 arg8 harg8 hc0 hc1 x0 x1 x2 xs7 xs8).2.2.2.1)

/-- Away from a core's last step nothing is stored into the output blocks: a placeholder nothing consults (the
    window is then neither written back nor read at the next point). -/
def o3Junk : Vec F S1x5000x512 .bf16 := VO3.read (Elt F) VO3.junk
def o4Junk : Vec F S1x1x5000 .f32 := VO4.read (Elt F) VO4.junk

/-! ## The accumulation -/

/-- What the two output blocks and the two accumulators hold after the body at position n: a core's first step
    starts from cleared accumulators, every other step from what the step before left. -/
def outsAt (c : Dev nD) : (n : ℕ) → n < cfg0.N → Vec F S1x5000x512 .bf16 × Vec F S1x1x5000 .f32 × Vec F S5000x512 .f32 × Vec F S1x5000 .f32
  | 0, hn => (o3Junk, o4Junk, accF c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) degM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩), degF c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) degM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 50 = 0 then
      if h1 : (n + 1) % 50 = 49 then
        False.elim (by omega)
      else
        (o3Junk, o4Junk, accF c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩), degF c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 50 = 49 then
        (o3L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, o4L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, accL c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, degL c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2)
      else
        (o3Junk, o4Junk, accM_ c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2, degM_ c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) degM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2)

theorem outsAt_first (c : Dev nD) (t : Fin cfg0.N) (h0 : t.val % 50 = 0) (h1 : ¬t.val % 50 = 49) :
    outsAt V c t.val t.isLt = (o3Junk, o4Junk, accF c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t), degF c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_mid (c : Dev nD) (t : Fin cfg0.N) (h0 : ¬t.val % 50 = 0) (h1 : ¬t.val % 50 = 49) :
    outsAt V c t.val t.isLt = (o3Junk, o4Junk, accM_ c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, degM_ c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 50 = 0) (h1 : t.val % 50 = 49) :
    outsAt V c t.val t.isLt = (o3L c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, o4L c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, accL c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2, degL c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators at what the step before left -/

def PhiS (c : Dev nD) : (n : ℕ) → n ≤ cfg0.N → sProp 𝕄
  | 0, _ => Pipeline.ΦA spec0 c
  | n + 1, hn => iprop(iprop(owns (c : Thread nD τ) accM fullShare ((outsAt V c n hn).2.2.1) ∗ owns (c : Thread nD τ) degM fullShare ((outsAt V c n hn).2.2.2) ∗ restOther (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2.2.1) ∗ owns (c : Thread nD τ) degM fullShare ((outsAt V c n hn).2.2.2) ∗ restOther (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2.2.1) ∗ owns (c : Thread nD τ) degM fullShare ((outsAt V c (n - 1) (by omega)).2.2.2) ∗ restOther (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem after_4 (c : Dev nD) (t : Fin cfg0.N) : (dat V c).after 4 t = (outsAt V c t.val t.isLt).2.1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.KernelIdeal.Edge

end
-- ==== Proof.EdgeBody.lean ====
/-
  The edge-aggregation region: the body's obligation at every point. The closed forms of the two conditions say which
  kind of step the point is; the invariant hands the body both accumulators at what the step before left (at anything
  before the first point) and takes them back at this step's contents; the output blocks are handed back untouched
  except at a core's last step, where the body fills them.
-/
import proofs.«115665_j11158325035087_2_alg».proof.Proof.EdgeRegion
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 100 := lt_of_lt_of_eq t.isLt (show cfg0.N = 100 from N_0)
  by_cases h0 : t.val % 50 = 0
  · have h1 : ¬t.val % 50 = 49 := by omega
    have hnl : ¬condLast (grid0.coords t) := fun h => h1 ((hcondLast t).mp h)
    rw [Dat.leavesExact_idle (dat V c) 3 t (idle_3 t hnl) (noFlush_3 t hnl), Dat.leavesExact_idle (dat V c) 4 t (idle_4 t hnl) (noFlush_4 t hnl)]
    rw [outsAt_first V c t h0 h1]
    unfold accF degF; (try dsimp only)
    by_cases hz : t.val = 0
    · rw [PhiS_castSucc V c t, PhiS_zero V c _ _ hz, PhiA_eq]
      iintro ⟨⟨⟨HS7, HS8, Hrest⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)).2.2.2.2 _ _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accF c _ _ _ _ _ _ _ _ _ _ _ _ _ _ _ _ _ _ _ _)
          isplitl [HS8]
          · unfold owns; iexists _; isplitr
            swap; · iexact HS8
            ipureintro; exact View.read_writes_of_cover _ _ _ _ _ (cover_degF c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS7, HS8, Hrest⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)).2.2.2.2 _ _ Set.univ _)
      isplitl [H0]; · iexact H0
      isplitl [H1]; · iexact H1
      isplitl [H2]; · iexact H2
      isplitl [H3]; · iexact H3
      isplitl [H4]; · iexact H4
      isplitl [HS7]; · iexists _; iexact HS7
      isplitl [HS8]; · iexists _; iexact HS8
      iintro ⟨H0, H1, H2, H3, H4, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accF c _ _ _ _ _ _ _ _ _ _ _ _ _ _ _ _ _ _ _ _)
          isplitl [HS8]
          · unfold owns; iexists _; isplitr
            swap; · iexact HS8
            ipureintro; exact View.read_writes_of_cover _ _ _ _ _ (cover_degF c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 50 = 49
    · have hl : condLast (grid0.coords t) := (hcondLast t).mpr h1
      rw [show (dat V c).leavesExact 3 t = owns (c : Thread nD τ) (ms3 t) fullShare ((dat V c).after 3 t) from by
        unfold Dat.leavesExact; rw [live_3 t hl], after_3]
      rw [show (dat V c).leavesExact 4 t = owns (c : Thread nD τ) (ms4 t) fullShare ((dat V c).after 4 t) from by
        unfold Dat.leavesExact; rw [live_4 t hl], after_4]
      rw [outsAt_last V c t h0 h1]
      unfold o3L o4L accL degL; (try dsimp only)
      rw [PhiS_castSucc V c t, PhiS_pos V c _ _ hz]
      iintro ⟨⟨⟨HS7, HS8, Hrest⟩, Hg⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS7]; · iexact HS7
      isplitl [HS8]; · iexact HS8
      iintro ⟨H0, H1, H2, ⟨%e3, H3⟩, ⟨%e4, H4⟩, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accL c _ _ _ _ _ _ _ _ _ _ _ _ _ _ _ _ _ _ _ _ _ _)
          isplitl [HS8]
          · unfold owns; iexists _; isplitr
            swap; · iexact HS8
            ipureintro; exact View.read_writes_of_cover _ _ _ _ _ (cover_degL c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_o3L c _ _ _ _ _ _ _ _ _ _ _ _ _ _ _ _ _ _ _ _ _ _)
      unfold owns; iexists _; isplitr
      swap; · iexact H4
      ipureintro; exact View.read_writes_of_cover _ _ _ _ _ (cover_o4L c _ _ _ _ _ _ _ _ _ _ _ _ _ _ _ _ _ _ _ _ _ _)
    · have hnl : ¬condLast (grid0.coords t) := fun h => h1 ((hcondLast t).mp h)
      rw [Dat.leavesExact_idle (dat V c) 3 t (idle_3 t hnl) (noFlush_3 t hnl), Dat.leavesExact_idle (dat V c) 4 t (idle_4 t hnl) (noFlush_4 t hnl)]
      rw [outsAt_mid V c t h0 h1]
      unfold accM_ degM_; (try dsimp only)
      rw [PhiS_castSucc V c t, PhiS_pos V c _ _ hz]
      iintro ⟨⟨⟨HS7, HS8, Hrest⟩, Hg⟩, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) _ _).2.2.2.2 _ _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, ⟨%es7, HS7⟩, ⟨%es8, HS8⟩⟩
      isplitl [HS7 HS8 Hrest Hg]
      · isplitl [HS7 HS8 Hrest]
        · isplitl [HS7]
          · unfold owns; iexists _; isplitr
            swap; · iexact HS7
            ipureintro; exact View.read_writes_of_cover _ _ _ _ _ (cover_accM c _ _ _ _ _ _ _ _ _ _ _ _ _ _ _ _ _ _ _ _ _ _)
          isplitl [HS8]
          · unfold owns; iexists _; isplitr
            swap; · iexact HS8
            ipureintro; exact View.read_writes_of_cover _ _ _ _ _ (cover_degM c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

set_option maxHeartbeats 8000000 in
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS7, HS8, Hrest⟩, Hg⟩
  isplitl [HS7 HS8 Hrest]
  · isplitl [HS7]; · iexists _; iexact HS7
    isplitl [HS8]; · iexists _; iexact HS8
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 100 := N_0; omega)

end Cert.KernelIdeal.Edge

end
-- ==== Proof.NodeRegion.lean ====
/-
  The node region of the kernel program: the second pipeline's body obligation, at any entry contents.

  The region has seven windows. Windows 0–5 are read only: a block of 400 rows of the incidence matrix, the whole
  edge-feature table, a block of 400 rows of the node features, the whole residual weight matrix, and the scale
  and shift rows. Window 6 is the block of 400 output rows. At a grid point the body reads each input window
  whole, computes, and overwrites the output window whole; so after the body every input's staging buffer still
  holds its block and the output's holds one store's payload, a function of the six input blocks.

  Everything is stated at a parameter `V`: what the core's buffers hold when the region is entered.
-/
import proofs.«115665_j11158325035087_2_alg».proof.Proof.Gen.KernelIdeal.Launch
import proofs.«115665_j11158325035087_2_alg».proof.Proof.Gen.KernelIdeal.Skeleton
import proofs.«115665_j11158325035087_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The blocks of the windows -/

/-- The block of window `w` at grid point `t`: the part of the window's array, as the region finds it, that the
    window's index map selects there. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point. Where the window was fetched this
    is the fetch; where it was not, the block index is the previous point's and the body left that block alone. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: its current staging buffer holds its block at every point. Where the window was fetched this
    is the fetch; where it was not, the block index is the previous point's and the body left that block alone. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: its current staging buffer holds its block at every point. Where the window was fetched this
    is the fetch; where it was not, the block index is the previous point's and the body left that block alone. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3: its current staging buffer holds its block at every point. Where the window was fetched this
    is the fetch; where it was not, the block index is the previous point's and the body left that block alone. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4: its current staging buffer holds its block at every point. Where the window was fetched this
    is the fetch; where it was not, the block index is the previous point's and the body left that block alone. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5: its current staging buffer holds its block at every point. Where the window was fetched this
    is the fetch; where it was not, the block index is the previous point's and the body left that block alone. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes: every one is a whole buffer -/

abbrev rH : Rect S400x5000 := Rect.unit (s := S400x5000) ![0, 0] S400x5000.size inb_S400x5000_S400x5000_0_0
abbrev rE : Rect S5000x512 := Rect.unit (s := S5000x512) ![0, 0] S5000x512.size inb_S5000x512_S5000x512_0_0
abbrev rX : Rect S400x256 := Rect.unit (s := S400x256) ![0, 0] S400x256.size inb_S400x256_S400x256_0_0
abbrev rW : Rect S256x512 := Rect.unit (s := S256x512) ![0, 0] S256x512.size inb_S256x512_S256x512_0_0
abbrev rG : Rect S1x512 := Rect.unit (s := S1x512) ![0, 0] S1x512.size inb_S1x512_S1x512_0_0
abbrev rB : Rect S1x512 := Rect.unit (s := S1x512) ![0, 0] S1x512.size inb_S1x512_S1x512_0_0
abbrev rO : Rect S400x512 := Rect.unit (s := S400x512) ![0, 0] S400x512.size inb_S400x512_S400x512_0_0

/-! ## What the body leaves in the output window -/

/-- The output staging buffer after the body, as a function of the six input blocks: one store over the whole
    buffer, whose payload is the normalised rows scaled by the fifth input and shifted by the sixth. -/
def out6 (x0 : Vec F S400x5000 .f32) (x1 : Vec F S5000x512 .bf16) (x2 : Vec F S400x256 .f32) (x3 : Vec F S256x512 .f32)
    (x4 : Vec F S1x512 .f32) (x5 : Vec F S1x512 .f32) : Vec F S400x512 .f32 :=
  View.canon [⟨rO, k1_pay1 (k1_pay2 (View.ld x0 rH) (View.ld x1 rE) (View.ld x2 rX) (View.ld x3 rW) (View.ld x4 rG)) (View.ld x5 rB)⟩]

/-- The one store is the whole buffer, so every index lies in it. -/
theorem cover6 (p0 : Vec F S400x512 .f32) (y : S400x512.Idx) :
    ∃ pc ∈ ([⟨rO, p0⟩] : List (View.Piece (Elt F) S400x512 .f32)), y ∈ pc.1.set :=
  View.cover_of_tiled [⟨rO, p0⟩] S400x512.size (by rfl) y

/-! ## The body's triple -/

set_option maxHeartbeats 4000000 in
/-- The body on whole staging memrefs: with the inputs' holding `x0 … x5` and the output's holding anything, it runs
    to a state where the inputs' hold what they held and the output's holds `out6` of them. The body reads the six
    inputs, reads the output buffer once (a value it never uses), and stores the payload over the whole output. -/
theorem sound_kernel (c : Dev nD) (E : Set ℕ) (i : grid1.Coords) (arg1 : Memref sig .tc .vmem S400x5000 .f32) (harg1 : arg1.IsWhole) (arg2 : Memref sig .tc .vmem S5000x512 .bf16) (harg2 : arg2.IsWhole) (arg3 : Memref sig .tc .vmem S400x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S400x512 .f32) (harg7 : arg7.IsWhole)
    (x0 : Vec F S400x5000 .f32) (x1 : Vec F S5000x512 .bf16) (x2 : Vec F S400x256 .f32) (x3 : Vec F S256x512 .f32)
    (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5)) -∗ K ⟨⟩))
      ⊢ wp frame (wpE (defs₀ (F := F)) Variants.none c none) E (cc1__node_kernel_body i arg1 harg1 arg2 harg2 arg3 harg3 arg4 harg4 arg5 harg5 arg6 harg6 arg7 harg7) K := by
  simp only [cc1__node_kernel_body_eq_skeleton]; unfold cc1__node_kernel_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

/-! ## The proof data of the pipeline -/

/-- The proof data of the node pipeline on core `c`: the windows' arrays are what the region finds; after the body
    at point `t` every input's staging buffer holds its block and the output's holds `out6` of the six blocks; the
    invariant is the one of a body that touches nothing but its windows; nothing is owed; the shares are full. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec1 c
  q _ := fullShare
  owed _ := 0

/-- The arrays of the proof data are the entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t
    = out6 (iblk V c 0 t) (iblk V c 1 t) (iblk V c 2 t) (iblk V c 3 t) (iblk V c 4 t) (iblk V c 5 t) := by dsimp only [dat]

/-- What the body finds in each input window: its block. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: each input's memref holds its block, so the triple above applies; the invariant and what
    the core owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the node pipeline, at every point. -/
theorem body_obligation (c : Dev nD) : BodyObligation (dat (F := F) V c) (defs₀ (F := F)) Variants.none () Set.univ := fun t => by
  rw [bigSep_W1, bigSep_W1]
  exact sound_body V c t

end Cert.KernelIdeal.Node

end
-- ==== Proof.Run.lean ====
/-
  The whole program as one run. Between two items of the program a core's unscoped buffers hold: at launch the launch
  memory; after a stretch of host operations, those operations applied in order; after a kernel region, that region's
  arrays at what its write-backs leave and every other buffer as the region found it. The two regions are entered from
  and left at these contents; at the end every unscoped buffer is read off the last of them.
-/
import proofs.«115665_j11158325035087_2_alg».proof.Proof.EdgeBody
import proofs.«115665_j11158325035087_2_alg».proof.Proof.NodeRegion
import proofs.«115665_j11158325035087_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (Edge.dat (V1 m) c).arrAt w cfg0.N
theorem W2_arr (c : Dev nD) (w : Fin cfg0.W) :
    W2 m c (Proc.devRef .tc (Pipeline.arrRef spec0 w)) = (Edge.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Edge.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (Node.dat (V3 m) c).arrAt w cfg1.N
theorem W4_arr (c : Dev nD) (w : Fin cfg1.W) :
    W4 m c (Proc.devRef .tc (Pipeline.arrRef spec1 w)) = (Node.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Node.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No item writes an argument: each argument's buffer reaches the end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 2).trans (((Node.dat (V3 m) c).arrAt_in 2 rfl _).trans (Node.A_eq (V3 m) c 2))
    _ = W2 m c (Proc.devRef .tc main_arg0) := StableHlo.after_of_writes_sub hostOps1 _ hostOps1_writes (by decide)
    _ = W1 m c (Proc.devRef .tc main_arg0) := (W2_arr m c 0).trans (((Edge.dat (V1 m) c).arrAt_in 0 rfl _).trans (Edge.A_eq (V1 m) c 0))
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((Node.dat (V3 m) c).arrAt_in 0 rfl _).trans (Node.A_eq (V3 m) c 0))
    _ = W2 m c (Proc.devRef .tc main_arg1) := StableHlo.after_of_writes_sub hostOps1 _ hostOps1_writes (by decide)
    _ = W1 m c (Proc.devRef .tc main_arg1) := (W2_arr m c 1).trans (((Edge.dat (V1 m) c).arrAt_in 1 rfl _).trans (Edge.A_eq (V1 m) c 1))
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((Edge.dat (V1 m) c).arrAt_in 2 rfl _).trans (Edge.A_eq (V1 m) c 2))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 3).trans (((Node.dat (V3 m) c).arrAt_in 3 rfl _).trans (Node.A_eq (V3 m) c 3))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- The result array ends at what the second region's write-backs leave. -/
theorem W4_result (c : Dev nD) : W4 m c (Proc.devRef .tc main_v21) = (Node.dat (V3 m) c).arrAt 6 cfg1.N :=
  W4_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Edge.dat (V1 m) c
  | ⟨1, _⟩ => fun c => Node.dat (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state "every unscoped buffer at the boundary's contents, the generator register at some
    state, nothing owed": its arrays are split out of the unscoped buffers on entry and put back at what the
    write-backs leave on exit; the generator register goes into the kernel's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Edge.hin (V1 m) c)
    unfold Pipeline.ΦA
    iintro ⟨Hp, -, Hr⟩
    isplitl [Hr]; · iexact Hr
    iexact Hp
  hout c := by
    rw [Pipeline.ownSems0_none]
    refine Idealize.SL.BI.BIBase.Entails.trans (Edge.hout (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers on entry and put back at what the
    write-backs leave on exit; the generator register goes into the kernel's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (run_all m ρ)

/-- The same run with the result array named too. -/
theorem run_value : θ_run defs (onTc (τ := τ) (main (F := F))) ⟨m, fun _ => 0, ρ⟩ (fun r => ∀ c : Dev nD,
      r.2.mem ((c.tc : Thread nD τ).loc main_v21) = (Node.dat (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_v21 (by decide))).trans (W4_result m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (run_all m ρ)

end Cert.KernelIdeal.Run

end
-- ==== Proof.Spec.lean ====
/-
  The mathematical content of the certificate, stated once with no program in sight: a hypergraph convolution with a
  residual projection followed by a layer normalisation over the feature axis, on the extended reals.

  Inputs: node features `x[20000, 256]`, the incidence matrix `H[20000, 5000]` (nodes by hyperedges), two weight
  matrices `Wn, Wr[256, 512]` and the normalisation's scale and shift `g, b[512]`. With
    degE e = max 1 (Σ_n H[n, e])          degV n = max 1 (Σ_e H[n, e])
    xproj n d    = Σ_k x[n, k] · Wn[k, d]
    edgeFeat e d = (Σ_n H[n, e] · xproj n d) / degE e
    hres n d     = (Σ_e H[n, e] · edgeFeat e d) / degV n + Σ_k x[n, k] · Wr[k, d]
    mu n  = (Σ_d hres n d) / 512
    var n = (Σ_d (hres n d − mu n) · (hres n d − mu n)) / 512
  the result is  out n d = (hres n d − mu n) · rsqrt (var n + ε) · g[d] + b[d].

  Every sum is a plain finite sum over a literal index range, division is the ideal instance's `Ideal.div`, the
  reciprocal square root its `Ideal.rsqrt`, and the three float literals (1, 512 and ε = 1e-5 as f32 words) stay words.
-/
import Idealize.ShloMosaic.PureOps.Ideal
import Idealize.ShloMosaic.Lib.ValueIdx

noncomputable section

open scoped BigOperators

namespace Cert.Spec

open Idealize.ShloMosaic Idealize.ShloMosaic.ValueIdx

variable (x : (⟨2, ![20000, 256]⟩ : Shape).Idx → EReal) (H : (⟨2, ![20000, 5000]⟩ : Shape).Idx → EReal)
  (Wn Wr : (⟨2, ![256, 512]⟩ : Shape).Idx → EReal) (g b : (⟨1, ![512]⟩ : Shape).Idx → EReal)

/-- The degree of hyperedge `e`: the column sum of the incidence matrix, clipped below at 1. -/
def degE (e : Fin 5000) : EReal :=
  max (Ideal.ofBits .f32 0x3F800000#32) (∑ n : Fin 20000, H (ix2 n e))

/-- The degree of node `n`: the row sum of the incidence matrix, clipped below at 1. -/
def degV (n : Fin 20000) : EReal :=
  max (Ideal.ofBits .f32 0x3F800000#32) (∑ e : Fin 5000, H (ix2 n e))

/-- The node projection `x · Wn`. -/
def xproj (n : Fin 20000) (d : Fin 512) : EReal :=
  ∑ k : Fin 256, x (ix2 n k) * Wn (ix2 k d)

/-- Hyperedge features: the incident nodes' projections summed, over the hyperedge's degree. -/
def edgeFeat (e : Fin 5000) (d : Fin 512) : EReal :=
  Ideal.div (∑ n : Fin 20000, H (ix2 n e) * xproj x Wn n d) (degE H e)

/-- Node features after the convolution, plus the residual projection `x · Wr`. -/
def hres (n : Fin 20000) (d : Fin 512) : EReal :=
  Ideal.div (∑ e : Fin 5000, H (ix2 n e) * edgeFeat x H Wn e d) (degV H n) + ∑ k : Fin 256, x (ix2 n k) * Wr (ix2 k d)

/-- The mean of a node's 512 features. -/
def mu (n : Fin 20000) : EReal :=
  Ideal.div (∑ d : Fin 512, hres x H Wn Wr n d) (Ideal.ofBits .f32 0x44000000#32)

/-- Their (biased) variance. -/
def var (n : Fin 20000) : EReal :=
  Ideal.div (∑ d : Fin 512, (hres x H Wn Wr n d - mu x H Wn Wr n) * (hres x H Wn Wr n d - mu x H Wn Wr n))
    (Ideal.ofBits .f32 0x44000000#32)

/-- The normalised, scaled and shifted feature `d` of node `n`. -/
def out (n : Fin 20000) (d : Fin 512) : EReal :=
  (hres x H Wn Wr n d - mu x H Wn Wr n) * Ideal.rsqrt (var x H Wn Wr n + Ideal.ofBits .f32 0x3727C5AC#32) * g (ix1 d)
    + b (ix1 d)

/-- The result array: `out` at an index's two coordinates. -/
def G : (⟨2, ![20000, 512]⟩ : Shape).Idx → EReal :=
  fun i => out x H Wn Wr g b (i 0) (i 1)

/-- At an index given by its coordinates the result is `out` there. -/
theorem G_ix2 (n : Fin 20000) (d : Fin 512) : G x H Wn Wr g b (ix2 n d) = out x H Wn Wr g b n d := rfl

end Cert.Spec

end
-- ==== Proof.RefSpec.lean ====
import proofs.«115665_j11158325035087_2_alg».proof.Proof.Gen.ReferenceIdeal.Read
import proofs.«115665_j11158325035087_2_alg».proof.Proof.Spec

/-!
  The reference program computes the specification: read index by index at the ideal values, its result array is
  `Cert.Spec.G` of its six arguments. One lemma per intermediate quantity (the two degrees, the projection, the
  hyperedge features, the convolved features with the residual, the mean, the variance), each obtained by reading the
  reference's operations at an index, dropping the zero a sum starts from, and identifying the composed index functions
  with indices given by coordinates.
-/

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x0 : (⟨S20000x256, .f32⟩ : BufTy).Contents (Elt Ideal)) (x1 : (⟨S20000x5000, .f32⟩ : BufTy).Contents (Elt Ideal))
  (x2 x3 : (⟨S256x512, .f32⟩ : BufTy).Contents (Elt Ideal)) (x4 x5 : (⟨S512, .f32⟩ : BufTy).Contents (Elt Ideal))

/-! ## The composed index functions, by coordinates -/

theorem idx_v0 (n : Fin 20000) (k : Fin 5000) : idx_main_v0 (ix1 n) k = ix2 n k :=
  funext fun a => Fin.ext (by match a with | ⟨0, _⟩ => rfl | ⟨1, _⟩ => rfl)
theorem idx_v2 (e : Fin 5000) (k : Fin 20000) : idx_main_v2 (ix1 e) k = ix2 k e :=
  funext fun a => Fin.ext (by match a with | ⟨0, _⟩ => rfl | ⟨1, _⟩ => rfl)
theorem lidx_v4 (n : Fin 20000) (d : Fin 512) (k : Fin 256) : lidx_main_v4 (ix2 n d) k = ix2 n k :=
  funext fun a => Fin.ext (by match a with | ⟨0, _⟩ => rfl | ⟨1, _⟩ => rfl)
theorem ridx_v4 (n : Fin 20000) (d : Fin 512) (k : Fin 256) : ridx_main_v4 (ix2 n d) k = ix2 k d :=
  funext fun a => Fin.ext (by match a with | ⟨0, _⟩ => rfl | ⟨1, _⟩ => rfl)
theorem idx_v5 (e : Fin 5000) (n : Fin 20000) : idx_main_v5 (ix2 e n) = ix2 n e :=
  funext fun a => Fin.ext (by match a with | ⟨0, _⟩ => rfl | ⟨1, _⟩ => rfl)
theorem lidx_v6 (e : Fin 5000) (d : Fin 512) (k : Fin 20000) : lidx_main_v6 (ix2 e d) k = ix2 e k :=
  funext fun a => Fin.ext (by match a with | ⟨0, _⟩ => rfl | ⟨1, _⟩ => rfl)
theorem ridx_v6 (e : Fin 5000) (d : Fin 512) (k : Fin 20000) : ridx_main_v6 (ix2 e d) k = ix2 k d :=
  funext fun a => Fin.ext (by match a with | ⟨0, _⟩ => rfl | ⟨1, _⟩ => rfl)
theorem idx_v7 (e : Fin 5000) (z : Fin 1) : idx_main_v7 (ix2 e z) = ix1 e :=
  funext fun a => Fin.ext (by match a with | ⟨0, _⟩ => rfl)
theorem idx_v8 (e : Fin 5000) (d : Fin 512) : idx_main_v8 (ix2 e d) = ix2 e (0 : Fin 1) :=
  funext fun a => Fin.ext (by match a with | ⟨0, _⟩ => rfl | ⟨1, _⟩ => rfl)
theorem lidx_v10 (n : Fin 20000) (d : Fin 512) (k : Fin 5000) : lidx_main_v10 (ix2 n d) k = ix2 n k :=
  funext fun a => Fin.ext (by match a with | ⟨0, _⟩ => rfl | ⟨1, _⟩ => rfl)
theorem ridx_v10 (n : Fin 20000) (d : Fin 512) (k : Fin 5000) : ridx_main_v10 (ix2 n d) k = ix2 k d :=
  funext fun a => Fin.ext (by match a with | ⟨0, _⟩ => rfl | ⟨1, _⟩ => rfl)
theorem idx_v11 (n : Fin 20000) (z : Fin 1) : idx_main_v11 (ix2 n z) = ix1 n :=
  funext fun a => Fin.ext (by match a with | ⟨0, _⟩ => rfl)
theorem idx_v12 (n : Fin 20000) (d : Fin 512) : idx_main_v12 (ix2 n d) = ix2 n (0 : Fin 1) :=
  funext fun a => Fin.ext (by match a with | ⟨0, _⟩ => rfl | ⟨1, _⟩ => rfl)
theorem lidx_v14 (n : Fin 20000) (d : Fin 512) (k : Fin 256) : lidx_main_v14 (ix2 n d) k = ix2 n k :=
  funext fun a => Fin.ext (by match a with | ⟨0, _⟩ => rfl | ⟨1, _⟩ => rfl)
theorem ridx_v14 (n : Fin 20000) (d : Fin 512) (k : Fin 256) : ridx_main_v14 (ix2 n d) k = ix2 k d :=
  funext fun a => Fin.ext (by match a with | ⟨0, _⟩ => rfl | ⟨1, _⟩ => rfl)
theorem idx_v16 (n : Fin 20000) (k : Fin 512) : idx_main_v16 (ix1 n) k = ix2 n k :=
  funext fun a => Fin.ext (by match a with | ⟨0, _⟩ => rfl | ⟨1, _⟩ => rfl)
theorem idx_v17 (n : Fin 20000) (z : Fin 1) : idx_main_v17 (ix2 n z) = ix1 n :=
  funext fun a => Fin.ext (by match a with | ⟨0, _⟩ => rfl)
theorem idx_v20 (n : Fin 20000) (d : Fin 512) : idx_main_v20 (ix2 n d) = ix2 n (0 : Fin 1) :=
  funext fun a => Fin.ext (by match a with | ⟨0, _⟩ => rfl | ⟨1, _⟩ => rfl)
theorem idx_v23 (n : Fin 20000) (k : Fin 512) : idx_main_v23 (ix1 n) k = ix2 n k :=
  funext fun a => Fin.ext (by match a with | ⟨0, _⟩ => rfl | ⟨1, _⟩ => rfl)
theorem idx_v24 (n : Fin 20000) (z : Fin 1) : idx_main_v24 (ix2 n z) = ix1 n :=
  funext fun a => Fin.ext (by match a with | ⟨0, _⟩ => rfl)
theorem idx_v27 (n : Fin 20000) (d : Fin 512) : idx_main_v27 (ix2 n d) = ix2 n (0 : Fin 1) :=
  funext fun a => Fin.ext (by match a with | ⟨0, _⟩ => rfl | ⟨1, _⟩ => rfl)
theorem idx_v32 (n : Fin 20000) (d : Fin 512) : idx_main_v32 (ix2 n d) = ix2 n (0 : Fin 1) :=
  funext fun a => Fin.ext (by match a with | ⟨0, _⟩ => rfl | ⟨1, _⟩ => rfl)
theorem idx_v34 (z : Fin 1) (d : Fin 512) : idx_main_v34 (ix2 z d) = ix1 d :=
  funext fun a => Fin.ext (by match a with | ⟨0, _⟩ => rfl)
theorem idx_v35 (n : Fin 20000) (d : Fin 512) : idx_main_v35 (ix2 n d) = ix2 (0 : Fin 1) d :=
  funext fun a => Fin.ext (by match a with | ⟨0, _⟩ => rfl | ⟨1, _⟩ => rfl)
theorem idx_v37 (z : Fin 1) (d : Fin 512) : idx_main_v37 (ix2 z d) = ix1 d :=
  funext fun a => Fin.ext (by match a with | ⟨0, _⟩ => rfl)
theorem idx_v38 (n : Fin 20000) (d : Fin 512) : idx_main_v38 (ix2 n d) = ix2 (0 : Fin 1) d :=
  funext fun a => Fin.ext (by match a with | ⟨0, _⟩ => rfl | ⟨1, _⟩ => rfl)

/-! ## The intermediate quantities -/

/-- The clipped row sums of the incidence matrix are the node degrees. -/
theorem degV_eq (n : Fin 20000) : val_main_v1 (F := Ideal) x1 (ix1 n) = Cert.Spec.degV x1 n := by
  rw [val_main_v1_apply, val_main_call0_v1_apply, val_main_call0_v0_apply, val_main_cst_0_apply, val_main_v0_apply,
    val_main_cst_apply]
  simp only [Ideal.maximumf_def, Ideal.ofBits_def, Ideal.ofBits_zero_f32, zero_add, idx_v0]
  rfl

/-- The clipped column sums are the hyperedge degrees. -/
theorem degE_eq (e : Fin 5000) : val_main_v3 (F := Ideal) x1 (ix1 e) = Cert.Spec.degE x1 e := by
  rw [val_main_v3_apply, val_main_call1_v1_apply, val_main_call1_v0_apply, val_main_cst_2_apply, val_main_v2_apply,
    val_main_cst_1_apply]
  simp only [Ideal.maximumf_def, Ideal.ofBits_def, Ideal.ofBits_zero_f32, zero_add, idx_v2]
  rfl

/-- The first contraction is the node projection. -/
theorem xproj_eq (n : Fin 20000) (d : Fin 512) : val_main_v4 (F := Ideal) x0 x2 (ix2 n d) = Cert.Spec.xproj x0 x2 n d := by
  rw [val_main_v4_apply]
  simp only [lidx_v4, ridx_v4]
  rfl

/-- The hyperedge features: the incidence matrix transposed against the projection, over the hyperedge degree. -/
theorem edgeFeat_eq (e : Fin 5000) (d : Fin 512) :
    val_main_v9 (F := Ideal) x0 x1 x2 (ix2 e d) = Cert.Spec.edgeFeat x0 x1 x2 e d := by
  rw [val_main_v9_apply, val_main_v6_apply, val_main_v8_apply, val_main_v7_apply]
  simp only [idx_v8, idx_v7, lidx_v6, ridx_v6, val_main_v5_apply, idx_v5, xproj_eq, degE_eq, Ideal.hostDivf_def]
  rfl

/-- The convolved node features plus the residual projection. -/
theorem hres_eq (n : Fin 20000) (d : Fin 512) :
    val_main_v15 (F := Ideal) x0 x1 x2 x3 (ix2 n d) = Cert.Spec.hres x0 x1 x2 x3 n d := by
  rw [val_main_v15_apply, val_main_v13_apply, val_main_v10_apply, val_main_v12_apply, val_main_v11_apply,
    val_main_v14_apply]
  simp only [idx_v12, idx_v11, lidx_v10, ridx_v10, lidx_v14, ridx_v14, edgeFeat_eq, degV_eq, Ideal.hostDivf_def,
    Ideal.addf_def]
  rfl

/-- The mean over the feature axis (kept with a unit axis by the reference). -/
theorem mu_eq (n : Fin 20000) (z : Fin 1) :
    val_main_v19 (F := Ideal) x0 x1 x2 x3 (ix2 n z) = Cert.Spec.mu x0 x1 x2 x3 n := by
  rw [val_main_v19_apply, val_main_v17_apply, val_main_v16_apply, val_main_cst_3_apply, val_main_v18_apply,
    val_main_cst_4_apply]
  simp only [idx_v17, idx_v16, hres_eq, Ideal.hostDivf_def, Ideal.ofBits_def, Ideal.ofBits_zero_f32, zero_add]
  rfl

/-- The variance over the feature axis. -/
theorem var_eq (n : Fin 20000) (z : Fin 1) :
    val_main_v26 (F := Ideal) x0 x1 x2 x3 (ix2 n z) = Cert.Spec.var x0 x1 x2 x3 n := by
  rw [val_main_v26_apply, val_main_v24_apply, val_main_v23_apply, val_main_cst_5_apply, val_main_v25_apply,
    val_main_cst_6_apply]
  simp only [idx_v24, idx_v23, val_main_v22_apply, val_main_v21_apply, val_main_v20_apply, idx_v20, hres_eq, mu_eq,
    Ideal.hostDivf_def, Ideal.mulf_def, Ideal.subf_def, Ideal.ofBits_def, Ideal.ofBits_zero_f32, zero_add]
  rfl

/-! ## The result -/

/-- Index by index, the reference's result array is the specification's. -/
theorem ref_eq_spec :
    val_main_v39 (F := Ideal) x0 x1 x2 x3 x4 x5 = Cert.Spec.G x0 x1 x2 x3 x4 x5 := by
  funext i
  obtain ⟨n, d, rfl⟩ : ∃ (n : Fin 20000) (d : Fin 512), i = ix2 n d := ⟨i 0, i 1, eq_ix2 i⟩
  rw [Cert.Spec.G_ix2, val_main_v39_apply, val_main_v36_apply, val_main_v33_apply, val_main_v28_apply,
    val_main_v27_apply, val_main_v32_apply, val_main_v31_apply, val_main_v30_apply, val_main_v29_apply,
    val_main_cst_7_apply, val_main_v35_apply, val_main_v34_apply, val_main_v38_apply, val_main_v37_apply]
  simp only [idx_v27, idx_v32, idx_v35, idx_v34, idx_v38, idx_v37, hres_eq, mu_eq, var_eq, Ideal.addf_def,
    Ideal.mulf_def, Ideal.subf_def, Ideal.hostUnary_rsqrt_def, Ideal.ofBits_def]
  rfl

end Cert.ReferenceIdeal.RefValue

end
-- ==== Proof.HostValue.lean ====
import proofs.«115665_j11158325035087_2_alg».proof.Proof.Gen.KernelIdeal.Launch
import proofs.«115665_j11158325035087_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
  What the host operations around the two kernel calls leave in their result arrays, read index by index at the ideal
  values, from ANY contents `W` of the buffers before them.

  Before the first call two reshapes give the scale and the shift a leading unit axis: `[512] → [1, 512]`. Between the
  calls the two halves of the hyperedge partial sums `P[2, 5000, 512]` and of the partial degrees `D[2, 1, 5000]` are
  added and divided: the array handed to the second call holds, at `(e, d)`,
    (P[0, e, d] + P[1, e, d]) / max (D[0, 0, e] + D[1, 0, e]) 1 .
  The slices, reshapes, the transpose and the broadcasts only move indices; the format changes are the identity on the
  extended reals.
-/

noncomputable section

namespace Cert.KernelIdeal.HostValue

open Cert.KernelIdeal Cert.KernelIdeal.Gen
open Idealize.ShloMosaic Idealize.ShloMosaic.TcCoe Idealize.ShloMosaic.ValueIdx Idealize.SL.Sem

/-! ## Index moves -/

/-- Half `k` of an array `[2, a, b]`, cut out as `[1, a, b]` and reshaped to `[a, b]`, reads at `(i, j)` the array at
    `(k, i, j)`. -/
theorem half_apply {α : Type} {a b : Nat} (X : (⟨3, ![2, a, b]⟩ : Shape).Idx → α) (o : Nat) (k : Fin 2) (hk : k.val = o)
    (hs : (⟨3, ![2, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X hs) hc (ix2 i j) = X (ix3 k i j) := by
  rw [shapeCast_1ab_ab_apply]
  exact extractStridedSlice_apply _ _ _ _ _ (fun ax => by
    match ax with
    | ⟨0, _⟩ => exact hk.trans (Nat.add_zero _).symm
    | ⟨1, _⟩ => exact (Nat.zero_add _).symm
    | ⟨2, _⟩ => exact (Nat.zero_add _).symm)

/-- The host's quotient at an index is the ideal division of the elements. -/
theorem hostDivf_apply {s : Shape} {φ : FTy} (a b : FVec Ideal s φ) (i : s.Idx) :
    Host.divf a b i = Ideal.div (a i) (b i) := rfl

/-! ## Between the calls: the combined hyperedge features -/

/-- The nineteen operations between the calls, composed: from the partial sums `P` and the partial degrees `D`. -/
def combineOps (P : FVec Ideal S2x5000x512 .bf16) (D : FVec Ideal S2x1x5000 .f32) : FVec Ideal S5000x512 .bf16 :=
  truncf .bf16
    (Host.divf
      (addf
        (extf .f32 (shapeCast S5000x512 (extractStridedSlice S1x5000x512 ![0, 0, 0] P slices_S2x5000x512_S1x5000x512_0_0_0)
          shapeCasts_S1x5000x512_S5000x512) bitsLt_bf16_f32)
        (extf .f32 (shapeCast S5000x512 (extractStridedSlice S1x5000x512 ![1, 0, 0] P slices_S2x5000x512_S1x5000x512_1_0_0)
          shapeCasts_S1x5000x512_S5000x512) bitsLt_bf16_f32))
      (broadcastInDim S5000x512 ![0, 1] bcast_S5000x1_S5000x512_0_1
        (transpose S5000x1 [1, 0]
          (maximumf
            (addf
              (shapeCast S1x5000 (extractStridedSlice S1x1x5000 ![0, 0, 0] D slices_S2x1x5000_S1x1x5000_0_0_0)
                shapeCasts_S1x1x5000_S1x5000)
              (shapeCast S1x5000 (extractStridedSlice S1x1x5000 ![1, 0, 0] D slices_S2x1x5000_S1x1x5000_1_0_0)
                shapeCasts_S1x1x5000_S1x5000))
            (broadcastInDim S1x5000 ![] bcast_S_S1x5000 (constant (F := Ideal) S_ .f32 0x3F800000#32)))
          transposes_S1x5000_S5000x1_1_0)))
    bitsLt_bf16_f32

/-- Read at `(e, d)`: the two halves' sum over the clipped sum of the two partial degrees. -/
theorem combineOps_apply (P : FVec Ideal S2x5000x512 .bf16) (D : FVec Ideal S2x1x5000 .f32) (e : Fin 5000) (d : Fin 512) :
    combineOps P D (ix2 e d)
      = Ideal.div (P (ix3 (0 : Fin 2) e d) + P (ix3 (1 : Fin 2) e d))
          (max (D (ix3 (0 : Fin 2) (0 : Fin 1) e) + D (ix3 (1 : Fin 2) (0 : Fin 1) e)) (Ideal.ofBits .f32 0x3F800000#32)) := by
  unfold combineOps
  rw [truncf_apply, hostDivf_apply, addf_apply, extf_apply, extf_apply, half_apply P 0 (0 : Fin 2) rfl, half_apply P 1 (1 : Fin 2) rfl]
  rw [broadcastInDim_apply _ bcast_S5000x1_S5000x512_0_1 _ (ix2 e d) (ix2 e (0 : Fin 1)) (fun a => match a with
    | ⟨0, _⟩ => by show e.val = if (5000 : Nat) = 1 then 0 else e.val; rw [if_neg (by decide)]
    | ⟨1, _⟩ => by show 0 = if (1 : Nat) = 1 then 0 else d.val; rw [if_pos rfl])]
  rw [transpose_ix2_apply, maximumf_apply, addf_apply, half_apply D 0 (0 : Fin 2) rfl, half_apply D 1 (1 : Fin 2) rfl]
  rw [broadcastInDim_apply _ bcast_S_S1x5000 _ (ix2 (0 : Fin 1) e) ix0 (fun a => a.elim0), constant_apply]

/-- The same as a closed function of the two arrays: at `(e, d)`,
    `(P[0, e, d] + P[1, e, d]) / max (D[0, 0, e] + D[1, 0, e]) 1`. -/
def combine (P : FVec Ideal S2x5000x512 .bf16) (D : FVec Ideal S2x1x5000 .f32) : FVec Ideal S5000x512 .bf16 :=
  fun i => Ideal.div (P (ix3 (0 : Fin 2) (i 0) (i 1)) + P (ix3 (1 : Fin 2) (i 0) (i 1)))
    (max (D (ix3 (0 : Fin 2) (0 : Fin 1) (i 0)) + D (ix3 (1 : Fin 2) (0 : Fin 1) (i 0))) (Ideal.ofBits .f32 0x3F800000#32))

theorem combine_ix2 (P : FVec Ideal S2x5000x512 .bf16) (D : FVec Ideal S2x1x5000 .f32) (e : Fin 5000) (d : Fin 512) :
    combine P D (ix2 e d)
      = Ideal.div (P (ix3 (0 : Fin 2) e d) + P (ix3 (1 : Fin 2) e d))
          (max (D (ix3 (0 : Fin 2) (0 : Fin 1) e) + D (ix3 (1 : Fin 2) (0 : Fin 1) e)) (Ideal.ofBits .f32 0x3F800000#32)) := rfl

theorem combineOps_eq (P : FVec Ideal S2x5000x512 .bf16) (D : FVec Ideal S2x1x5000 .f32) : combineOps P D = combine P D := by
  funext i
  obtain ⟨e, d, rfl⟩ : ∃ (e : Fin 5000) (d : Fin 512), i = ix2 e d := ⟨i 0, i 1, eq_ix2 i⟩
  exact combineOps_apply P D e d

/-! ## The host stretches from any contents -/

variable (W : Valuation τ sig (Elt Ideal))

/-- A reference the first stretch does not write keeps its contents. -/
theorem after0_of (r : Ref sig .tc) (h : r ∉ hostOps0_W) :
    StableHlo.after (Gen.hostOps0 (F := Ideal)) W (Proc.devRef .tc r) = W (Proc.devRef .tc r) :=
  StableHlo.after_of_writes_sub hostOps0 _ hostOps0_writes h

/-- A reference the second stretch does not write keeps its contents. -/
theorem after1_of (r : Ref sig .tc) (h : r ∉ hostOps1_W) :
    StableHlo.after (Gen.hostOps1 (F := Ideal)) W (Proc.devRef .tc r) = W (Proc.devRef .tc r) :=
  StableHlo.after_of_writes_sub hostOps1 _ hostOps1_writes h

theorem after0_v0_term :
    (StableHlo.after (Gen.hostOps0 (F := Ideal)) W (Proc.devRef .tc main_v0) : FVec Ideal S1x512 .f32)
      = shapeCast S1x512 (W (Proc.devRef .tc main_arg4) : FVec Ideal S512 .f32) shapeCasts_S512_S1x512 := by
  dsimp only [Gen.hostOps0]
  after_results
  rfl

theorem after0_v1_term :
    (StableHlo.after (Gen.hostOps0 (F := Ideal)) W (Proc.devRef .tc main_v1) : FVec Ideal S1x512 .f32)
      = shapeCast S1x512 (W (Proc.devRef .tc main_arg5) : FVec Ideal S512 .f32) shapeCasts_S512_S1x512 := by
  dsimp only [Gen.hostOps0]
  after_results
  rfl

/-- The scale with its leading unit axis: at `(u, d)` the scale at `d`. -/
theorem after0_v0 :
    (StableHlo.after (Gen.hostOps0 (F := Ideal)) W (Proc.devRef .tc main_v0) : FVec Ideal S1x512 .f32)
      = fun i => (W (Proc.devRef .tc main_arg4) : FVec Ideal S512 .f32) (ix1 (i 1)) := by
  rw [after0_v0_term]
  funext i
  obtain ⟨u, d, rfl⟩ : ∃ (u : Fin 1) (d : Fin 512), i = ix2 u d := ⟨i 0, i 1, eq_ix2 i⟩
  exact shapeCast_a_1a_apply _ _ u d

/-- The shift with its leading unit axis: at `(u, d)` the shift at `d`. -/
theorem after0_v1 :
    (StableHlo.after (Gen.hostOps0 (F := Ideal)) W (Proc.devRef .tc main_v1) : FVec Ideal S1x512 .f32)
      = fun i => (W (Proc.devRef .tc main_arg5) : FVec Ideal S512 .f32) (ix1 (i 1)) := by
  rw [after0_v1_term]
  funext i
  obtain ⟨u, d, rfl⟩ : ∃ (u : Fin 1) (d : Fin 512), i = ix2 u d := ⟨i 0, i 1, eq_ix2 i⟩
  exact shapeCast_a_1a_apply _ _ u d

theorem after1_v20_term :
    (StableHlo.after (Gen.hostOps1 (F := Ideal)) W (Proc.devRef .tc main_v20) : FVec Ideal S5000x512 .bf16)
      = combineOps (W (Proc.devRef .tc main_v2_0)) (W (Proc.devRef .tc main_v2_1)) := by
  dsimp only [Gen.hostOps1]
  after_results
  rfl

/-- The array handed to the second call: the two halves' sum over the clipped sum of the partial degrees. -/
theorem after1_v20 :
    (StableHlo.after (Gen.hostOps1 (F := Ideal)) W (Proc.devRef .tc main_v20) : FVec Ideal S5000x512 .bf16)
      = combine (W (Proc.devRef .tc main_v2_0)) (W (Proc.devRef .tc main_v2_1)) := by
  rw [after1_v20_term, combineOps_eq]

/-! ## What the stretches leave alone -/

theorem after0_arg0 : StableHlo.after (Gen.hostOps0 (F := Ideal)) W (Proc.devRef .tc main_arg0) = W (Proc.devRef .tc main_arg0) :=
  after0_of W main_arg0 (by decide)
theorem after0_arg1 : StableHlo.after (Gen.hostOps0 (F := Ideal)) W (Proc.devRef .tc main_arg1) = W (Proc.devRef .tc main_arg1) :=
  after0_of W main_arg1 (by decide)
theorem after0_arg2 : StableHlo.after (Gen.hostOps0 (F := Ideal)) W (Proc.devRef .tc main_arg2) = W (Proc.devRef .tc main_arg2) :=
  after0_of W main_arg2 (by decide)
theorem after0_arg3 : StableHlo.after (Gen.hostOps0 (F := Ideal)) W (Proc.devRef .tc main_arg3) = W (Proc.devRef .tc main_arg3) :=
  after0_of W main_arg3 (by decide)
theorem after1_arg0 : StableHlo.after (Gen.hostOps1 (F := Ideal)) W (Proc.devRef .tc main_arg0) = W (Proc.devRef .tc main_arg0) :=
  after1_of W main_arg0 (by decide)
theorem after1_arg1 : StableHlo.after (Gen.hostOps1 (F := Ideal)) W (Proc.devRef .tc main_arg1) = W (Proc.devRef .tc main_arg1) :=
  after1_of W main_arg1 (by decide)
theorem after1_arg3 : StableHlo.after (Gen.hostOps1 (F := Ideal)) W (Proc.devRef .tc main_arg3) = W (Proc.devRef .tc main_arg3) :=
  after1_of W main_arg3 (by decide)
theorem after1_v0 : StableHlo.after (Gen.hostOps1 (F := Ideal)) W (Proc.devRef .tc main_v0) = W (Proc.devRef .tc main_v0) :=
  after1_of W main_v0 (by decide)
theorem after1_v1 : StableHlo.after (Gen.hostOps1 (F := Ideal)) W (Proc.devRef .tc main_v1) = W (Proc.devRef .tc main_v1) :=
  after1_of W main_v1 (by decide)

end Cert.KernelIdeal.HostValue

end
-- ==== Proof.NodeValue.lean ====
/-
  The value of the node region's output at the ideal instance.

  At a grid point the body computes, for each of its 400 rows, the edge features gathered through the row of the
  incidence matrix and divided by the node's degree, plus the node's features through the residual weights; then the
  row's mean and variance over its 512 entries; then the row centred, multiplied by the reciprocal square root of
  the variance plus a small constant, scaled and shifted. A row of the output depends on the incidence matrix and the
  node features through that row alone, so block `t` of the output array is the same closed form read on rows
  `400 t … 400 t + 399`, and the blocks of the 50 points fill the array.
-/
import proofs.«115665_j11158325035087_2_alg».proof.Proof.NodeRegion
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.ValueIdx
open Idealize.ShloMosaic.Pipeline (Dat)

namespace Cert.KernelIdeal.NodeValue

open Cert.KernelIdeal Cert.KernelIdeal.Gen

/-! ## Two layout operations read at an index: a column made of a vector, and a column spread over the columns -/

section Layout
variable {α : Type}

/-- A vector of length `a` viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column spread over `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the rows of an `[a, b]` array, read at row `p`: the sum of that row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun c => Fin.ext (by match c with | ⟨0, _⟩ => rfl | ⟨1, _⟩ => rfl))

/-- The same sum kept as a column: at `(p, u)` the sum of row `p`. -/
theorem rowSumCol_apply {a b : ℕ} (src : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u) = ∑ k : Fin b, src (ix2 p k) :=
  (shapeCast_a_a1_apply _ hc p u).trans (rowSum_apply src h hφ hacc p)

/-! ## The two products of the body -/

theorem mmE_lhs0 (i : S400x512.Idx) (q : dot_S400x5000_S5000x512_S400x512_1_0_0_1_n_n.contr.Idx) : (dot_S400x5000_S5000x512_S400x512_1_0_0_1_n_n.lhsIdx i q 0).val = (i 0).val := by
  unfold DotDims.lhsIdx
  rw [dif_neg (show ¬(0 : Fin S400x5000.rank) ∈ dot_S400x5000_S5000x512_S400x512_1_0_0_1_n_n.lhsBatch by decide), dif_pos (show (0 : Fin S400x5000.rank) ∈ dot_S400x5000_S5000x512_S400x512_1_0_0_1_n_n.lhsNonContracting by decide)]
  rfl
theorem mmE_rhs1 (i : S400x512.Idx) (q : dot_S400x5000_S5000x512_S400x512_1_0_0_1_n_n.contr.Idx) : (dot_S400x5000_S5000x512_S400x512_1_0_0_1_n_n.rhsIdx i q 1).val = (i 1).val := by
  unfold DotDims.rhsIdx
  rw [dif_neg (show ¬(1 : Fin S5000x512.rank) ∈ dot_S400x5000_S5000x512_S400x512_1_0_0_1_n_n.rhsBatch by decide), dif_pos (show (1 : Fin S5000x512.rank) ∈ dot_S400x5000_S5000x512_S400x512_1_0_0_1_n_n.rhsNonContracting by decide)]
  rfl

/-- The product into a zero accumulator, at row `p` and column `d`: the sum over the contracted axis. -/
theorem mmE_apply (l : FVec Ideal S400x5000 .bf16) (r : FVec Ideal S5000x512 .bf16) (p : Fin 400) (d : Fin 512) :
    matmul dot_S400x5000_S5000x512_S400x512_1_0_0_1_n_n none l r (constant (F := Ideal) S400x512 .f32 0x00000000#32) (ix2 p d)
      = ∑ k : Fin 5000, l (ix2 p k) * r (ix2 k d) := by
  refine (Ideal.matmul_constant_zero_apply dot_S400x5000_S5000x512_S400x512_1_0_0_1_n_n none l r (ix2 p d)).trans ?_
  rw [← Equiv.sum_comp (contrEquiv1 dot_S400x5000_S5000x512_S400x512_1_0_0_1_n_n 5000 rfl rfl).symm]
  refine Finset.sum_congr rfl fun k _ => ?_
  have hk := contrEquiv1_symm_val dot_S400x5000_S5000x512_S400x512_1_0_0_1_n_n 5000 rfl rfl k
  have el : dot_S400x5000_S5000x512_S400x512_1_0_0_1_n_n.lhsIdx (ix2 p d) ((contrEquiv1 dot_S400x5000_S5000x512_S400x512_1_0_0_1_n_n 5000 rfl rfl).symm k) = ix2 p k := funext fun a => Fin.ext (by
    match a with
    | ⟨0, _⟩ => exact mmE_lhs0 _ _
    | ⟨1, _⟩ => exact (dot_S400x5000_S5000x512_S400x512_1_0_0_1_n_n.lhsIdx_val_of_single rfl _ _).trans hk)
  have er : dot_S400x5000_S5000x512_S400x512_1_0_0_1_n_n.rhsIdx (ix2 p d) ((contrEquiv1 dot_S400x5000_S5000x512_S400x512_1_0_0_1_n_n 5000 rfl rfl).symm k) = ix2 k d := funext fun a => Fin.ext (by
    match a with
    | ⟨0, _⟩ => exact (dot_S400x5000_S5000x512_S400x512_1_0_0_1_n_n.rhsIdx_val_of_single rfl _ _).trans hk
    | ⟨1, _⟩ => exact mmE_rhs1 _ _)
  rw [el, er]

theorem mmW_lhs0 (i : S400x512.Idx) (q : dot_S400x256_S256x512_S400x512_1_0_0_1_n_n.contr.Idx) : (dot_S400x256_S256x512_S400x512_1_0_0_1_n_n.lhsIdx i q 0).val = (i 0).val := by
  unfold DotDims.lhsIdx
  rw [dif_neg (show ¬(0 : Fin S400x256.rank) ∈ dot_S400x256_S256x512_S400x512_1_0_0_1_n_n.lhsBatch by decide), dif_pos (show (0 : Fin S400x256.rank) ∈ dot_S400x256_S256x512_S400x512_1_0_0_1_n_n.lhsNonContracting by decide)]
  rfl
theorem mmW_rhs1 (i : S400x512.Idx) (q : dot_S400x256_S256x512_S400x512_1_0_0_1_n_n.contr.Idx) : (dot_S400x256_S256x512_S400x512_1_0_0_1_n_n.rhsIdx i q 1).val = (i 1).val := by
  unfold DotDims.rhsIdx
  rw [dif_neg (show ¬(1 : Fin S256x512.rank) ∈ dot_S400x256_S256x512_S400x512_1_0_0_1_n_n.rhsBatch by decide), dif_pos (show (1 : Fin S256x512.rank) ∈ dot_S400x256_S256x512_S400x512_1_0_0_1_n_n.rhsNonContracting by decide)]
  rfl

/-- The product into a zero accumulator, at row `p` and column `d`: the sum over the contracted axis. -/
theorem mmW_apply (l : FVec Ideal S400x256 .bf16) (r : FVec Ideal S256x512 .bf16) (p : Fin 400) (d : Fin 512) :
    matmul dot_S400x256_S256x512_S400x512_1_0_0_1_n_n none l r (constant (F := Ideal) S400x512 .f32 0x00000000#32) (ix2 p d)
      = ∑ k : Fin 256, l (ix2 p k) * r (ix2 k d) := by
  refine (Ideal.matmul_constant_zero_apply dot_S400x256_S256x512_S400x512_1_0_0_1_n_n none l r (ix2 p d)).trans ?_
  rw [← Equiv.sum_comp (contrEquiv1 dot_S400x256_S256x512_S400x512_1_0_0_1_n_n 256 rfl rfl).symm]
  refine Finset.sum_congr rfl fun k _ => ?_
  have hk := contrEquiv1_symm_val dot_S400x256_S256x512_S400x512_1_0_0_1_n_n 256 rfl rfl k
  have el : dot_S400x256_S256x512_S400x512_1_0_0_1_n_n.lhsIdx (ix2 p d) ((contrEquiv1 dot_S400x256_S256x512_S400x512_1_0_0_1_n_n 256 rfl rfl).symm k) = ix2 p k := funext fun a => Fin.ext (by
    match a with
    | ⟨0, _⟩ => exact mmW_lhs0 _ _
    | ⟨1, _⟩ => exact (dot_S400x256_S256x512_S400x512_1_0_0_1_n_n.lhsIdx_val_of_single rfl _ _).trans hk)
  have er : dot_S400x256_S256x512_S400x512_1_0_0_1_n_n.rhsIdx (ix2 p d) ((contrEquiv1 dot_S400x256_S256x512_S400x512_1_0_0_1_n_n 256 rfl rfl).symm k) = ix2 k d := funext fun a => Fin.ext (by
    match a with
    | ⟨0, _⟩ => exact (dot_S400x256_S256x512_S400x512_1_0_0_1_n_n.rhsIdx_val_of_single rfl _ _).trans hk
    | ⟨1, _⟩ => exact mmW_rhs1 _ _)
  rw [el, er]

/-! ## The closed form: one output row from one row of the incidence matrix and of the node features -/

section Closed
variable {R : ℕ}

/-- The degree of node `n`: the sum of its incidence row, raised to one where it is smaller. -/
def deg (H : (⟨2, ![R, 5000]⟩ : Shape).Idx → EReal) (n : Fin R) : EReal :=
  max (∑ e : Fin 5000, H (ix2 n e)) (Ideal.ofBits .f32 0x3F800000#32)

/-- The row of node `n` before normalisation: the edge features gathered through its incidence row and divided by
    its degree, plus its own features through the residual weights. -/
def hid (H : (⟨2, ![R, 5000]⟩ : Shape).Idx → EReal) (E : (⟨2, ![5000, 512]⟩ : Shape).Idx → EReal)
    (X : (⟨2, ![R, 256]⟩ : Shape).Idx → EReal) (Wr : (⟨2, ![256, 512]⟩ : Shape).Idx → EReal) (n : Fin R) (d : Fin 512) : EReal :=
  Ideal.div (∑ e : Fin 5000, H (ix2 n e) * E (ix2 e d)) (deg H n) + ∑ k : Fin 256, X (ix2 n k) * Wr (ix2 k d)

/-- The mean of a row of 512 entries. -/
def mean (h : Fin 512 → EReal) : EReal := Ideal.div (∑ d : Fin 512, h d) (Ideal.ofBits .f32 0x44000000#32)

/-- Its variance: the mean of the squared deviations. -/
def vari (h : Fin 512 → EReal) : EReal :=
  Ideal.div (∑ d : Fin 512, (h d - mean h) * (h d - mean h)) (Ideal.ofBits .f32 0x44000000#32)

/-- The row normalised, scaled by `g` and shifted by `b`. -/
def norm (h : Fin 512 → EReal) (g b : (⟨2, ![1, 512]⟩ : Shape).Idx → EReal) (d : Fin 512) : EReal :=
  (h d - mean h) * Ideal.rsqrt (vari h + Ideal.ofBits .f32 0x3727C5AC#32) * g (ix2 (0 : Fin 1) d) + b (ix2 (0 : Fin 1) d)

/-- The output at node `n`, feature `d`. -/
def nodeAt (H : (⟨2, ![R, 5000]⟩ : Shape).Idx → EReal) (E : (⟨2, ![5000, 512]⟩ : Shape).Idx → EReal)
    (X : (⟨2, ![R, 256]⟩ : Shape).Idx → EReal) (Wr : (⟨2, ![256, 512]⟩ : Shape).Idx → EReal)
    (g b : (⟨2, ![1, 512]⟩ : Shape).Idx → EReal) (n : Fin R) (d : Fin 512) : EReal :=
  norm (hid H E X Wr n) g b d

/-- The output array. -/
def nodeOut (H : (⟨2, ![R, 5000]⟩ : Shape).Idx → EReal) (E : (⟨2, ![5000, 512]⟩ : Shape).Idx → EReal)
    (X : (⟨2, ![R, 256]⟩ : Shape).Idx → EReal) (Wr : (⟨2, ![256, 512]⟩ : Shape).Idx → EReal)
    (g b : (⟨2, ![1, 512]⟩ : Shape).Idx → EReal) : (⟨2, ![R, 512]⟩ : Shape).Idx → EReal :=
  fun i => nodeAt H E X Wr g b (i 0) (i 1)

/-- A row of the output depends on the incidence matrix and the node features through that row only: two sets of
    arrays, of any numbers of rows, that agree on a row give the same output row. -/
theorem nodeAt_congr {R' : ℕ} (H : (⟨2, ![R, 5000]⟩ : Shape).Idx → EReal) (H' : (⟨2, ![R', 5000]⟩ : Shape).Idx → EReal)
    (E E' : (⟨2, ![5000, 512]⟩ : Shape).Idx → EReal)
    (X : (⟨2, ![R, 256]⟩ : Shape).Idx → EReal) (X' : (⟨2, ![R', 256]⟩ : Shape).Idx → EReal)
    (Wr Wr' : (⟨2, ![256, 512]⟩ : Shape).Idx → EReal) (g g' b b' : (⟨2, ![1, 512]⟩ : Shape).Idx → EReal)
    (n : Fin R) (n' : Fin R') (d : Fin 512)
    (hH : ∀ e, H (ix2 n e) = H' (ix2 n' e)) (hE : E = E') (hX : ∀ k, X (ix2 n k) = X' (ix2 n' k)) (hW : Wr = Wr')
    (hg : g = g') (hb : b = b') :
    nodeAt H E X Wr g b n d = nodeAt H' E' X' Wr' g' b' n' d := by
  subst hE hW hg hb
  have hh : hid H E X Wr n = hid H' E X' Wr n' := by
    funext d'
    unfold hid deg
    simp only [hH, hX]
  unfold nodeAt
  rw [hh]

end Closed

/-! ## The body's arithmetic as a tree of operations, and each stage read at an index -/

/-- The degrees of the block's 400 nodes, kept as a column. -/
def degCol (x0 : FVec Ideal S400x5000 .f32) : FVec Ideal S400x1 .f32 :=
  maximumf (shapeCast S400x1 (multiReduction .add [1] S400 x0 0x00000000#32 reduces_S400x5000_S400 (.inl rfl) rfl) shapeCasts_S400_S400x1)
    (broadcast S400x1 (Scalar.ofBits .f32 0x3F800000#32))

theorem degCol_apply (x0 : FVec Ideal S400x5000 .f32) (p : Fin 400) (u : Fin 1) : degCol x0 (ix2 p u) = deg x0 p := by
  unfold degCol deg
  refine (maximumf_apply _ _ _).trans ?_
  refine congrArg₂ max ?_ rfl
  exact rowSumCol_apply x0 reduces_S400x5000_S400 (.inl rfl) rfl shapeCasts_S400_S400x1 p u

/-- The block's rows before normalisation. -/
def preNorm (x0 : FVec Ideal S400x5000 .f32) (x1 : FVec Ideal S5000x512 .bf16) (x2 : FVec Ideal S400x256 .f32)
    (x3 : FVec Ideal S256x512 .f32) : FVec Ideal S400x512 .f32 :=
  addf (divf (matmul dot_S400x5000_S5000x512_S400x512_1_0_0_1_n_n none (truncf .bf16 x0 bitsLt_bf16_f32)
        (shapeCast S5000x512 x1 shapeCasts_S5000x512_S5000x512) (constant (F := Ideal) S400x512 .f32 0x00000000#32))
      (broadcastTo S400x512 (degCol x0) broadcasts_S400x1_S400x512))
    (matmul dot_S400x256_S256x512_S400x512_1_0_0_1_n_n none (truncf .bf16 x2 bitsLt_bf16_f32) (truncf .bf16 x3 bitsLt_bf16_f32)
      (constant (F := Ideal) S400x512 .f32 0x00000000#32))

theorem preNorm_apply (x0 : FVec Ideal S400x5000 .f32) (x1 : FVec Ideal S5000x512 .bf16) (x2 : FVec Ideal S400x256 .f32)
    (x3 : FVec Ideal S256x512 .f32) (p : Fin 400) (d : Fin 512) :
    preNorm x0 x1 x2 x3 (ix2 p d) = hid x0 x1 x2 x3 p d := by
  unfold preNorm hid
  refine (addf_apply _ _ _).trans ?_
  refine congrArg₂ (· + ·) ?_ ?_
  · refine (divf_apply _ _ _).trans ?_
    refine congrArg₂ Ideal.div ?_ ?_
    · rw [shapeCast_self]
      exact mmE_apply _ _ p d
    · exact (broadcastTo_a1_ab_apply (degCol x0) broadcasts_S400x1_S400x512 p d).trans (degCol_apply x0 p 0)
  · exact mmW_apply _ _ p d

/-- The means of the rows of `v`, kept as a column. -/
def meanCol (v : FVec Ideal S400x512 .f32) : FVec Ideal S400x1 .f32 :=
  divf (shapeCast S400x1 (multiReduction .add [1] S400 v 0x00000000#32 reduces_S400x512_S400 (.inl rfl) rfl) shapeCasts_S400_S400x1)
    (broadcast S400x1 (Scalar.ofBits .f32 0x44000000#32))

theorem meanCol_apply (v : FVec Ideal S400x512 .f32) (p : Fin 400) (u : Fin 1) :
    meanCol v (ix2 p u) = mean (fun d => v (ix2 p d)) := by
  unfold meanCol mean
  refine (divf_apply _ _ _).trans ?_
  refine congrArg₂ Ideal.div ?_ rfl
  exact rowSumCol_apply v reduces_S400x512_S400 (.inl rfl) rfl shapeCasts_S400_S400x1 p u

/-- The rows of `v` with their means taken off. -/
def centred (v : FVec Ideal S400x512 .f32) : FVec Ideal S400x512 .f32 :=
  subf v (broadcastTo S400x512 (meanCol v) broadcasts_S400x1_S400x512)

theorem centred_apply (v : FVec Ideal S400x512 .f32) (p : Fin 400) (d : Fin 512) :
    centred v (ix2 p d) = v (ix2 p d) - mean (fun d' => v (ix2 p d')) := by
  unfold centred
  refine (subf_apply _ _ _).trans ?_
  refine congrArg₂ (· - ·) rfl ?_
  exact (broadcastTo_a1_ab_apply (meanCol v) broadcasts_S400x1_S400x512 p d).trans (meanCol_apply v p 0)

/-- The variances of the rows of `v`, kept as a column. -/
def varCol (v : FVec Ideal S400x512 .f32) : FVec Ideal S400x1 .f32 :=
  divf (shapeCast S400x1 (multiReduction .add [1] S400 (mulf (centred v) (centred v)) 0x00000000#32 reduces_S400x512_S400 (.inl rfl) rfl)
      shapeCasts_S400_S400x1)
    (broadcast S400x1 (Scalar.ofBits .f32 0x44000000#32))

theorem varCol_apply (v : FVec Ideal S400x512 .f32) (p : Fin 400) (u : Fin 1) :
    varCol v (ix2 p u) = vari (fun d => v (ix2 p d)) := by
  unfold varCol vari
  refine (divf_apply _ _ _).trans ?_
  refine congrArg₂ Ideal.div ?_ rfl
  refine (rowSumCol_apply _ reduces_S400x512_S400 (.inl rfl) rfl shapeCasts_S400_S400x1 p u).trans ?_
  refine Finset.sum_congr rfl fun d _ => ?_
  refine (mulf_apply _ _ _).trans ?_
  rw [centred_apply]

/-- The rows of `v` normalised and scaled by the row `x4`. -/
def normScale (v : FVec Ideal S400x512 .f32) (x4 : FVec Ideal S1x512 .f32) : FVec Ideal S400x512 .f32 :=
  mulf (mulf (centred v)
      (broadcastTo S400x512 (rsqrt (addf (varCol v) (broadcast S400x1 (Scalar.ofBits .f32 0x3727C5AC#32)))) broadcasts_S400x1_S400x512))
    (broadcastTo S400x512 (shapeCast S1x512 x4 shapeCasts_S1x512_S1x512) broadcasts_S1x512_S400x512)

/-- The body's first payload is that tree of operations of its loads. -/
theorem pay2_eq (x0 : FVec Ideal S400x5000 .f32) (x1 : FVec Ideal S5000x512 .bf16) (x2 : FVec Ideal S400x256 .f32)
    (x3 : FVec Ideal S256x512 .f32) (x4 : FVec Ideal S1x512 .f32) :
    k1_pay2 x0 x1 x2 x3 x4 = normScale (preNorm x0 x1 x2 x3) x4 := rfl

/-- The stored payload: the shift row added. -/
theorem pay1_eq (v : FVec Ideal S400x512 .f32) (x5 : FVec Ideal S1x512 .f32) :
    k1_pay1 v x5 = addf v (broadcastTo S400x512 (shapeCast S1x512 x5 shapeCasts_S1x512_S1x512) broadcasts_S1x512_S400x512) := rfl

/-- The stored payload at row `p`, column `d` of the block: the closed form over the six loaded blocks. -/
theorem pay_apply (x0 : FVec Ideal S400x5000 .f32) (x1 : FVec Ideal S5000x512 .bf16) (x2 : FVec Ideal S400x256 .f32)
    (x3 : FVec Ideal S256x512 .f32) (x4 x5 : FVec Ideal S1x512 .f32) (p : Fin 400) (d : Fin 512) :
    k1_pay1 (F := Ideal) (k1_pay2 (F := Ideal) x0 x1 x2 x3 x4) x5 (ix2 p d) = nodeAt x0 x1 x2 x3 x4 x5 p d := by
  rw [pay2_eq, pay1_eq]
  unfold nodeAt norm normScale
  have hrow : (fun d' => preNorm x0 x1 x2 x3 (ix2 p d')) = hid x0 x1 x2 x3 p := funext fun d' => preNorm_apply x0 x1 x2 x3 p d'
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) ?_ ?_
      · rw [centred_apply, hrow, preNorm_apply]
      · refine (broadcastTo_a1_ab_apply _ broadcasts_S400x1_S400x512 p d).trans ?_
        show Ideal.rsqrt (varCol (preNorm x0 x1 x2 x3) (ix2 p 0) + Ideal.ofBits .f32 0x3727C5AC#32) = _
        rw [varCol_apply, hrow]
    · refine (broadcastTo_1b_ab_apply _ broadcasts_S1x512_S400x512 p d).trans ?_
      rw [shapeCast_self]
  · refine (broadcastTo_1b_ab_apply _ broadcasts_S1x512_S400x512 p d).trans ?_
    rw [shapeCast_self]

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the three row-blocked windows are at block `t` of their
    rows, the four whole-array windows at block zero. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Window 0's block at point `t` is rows `400 t … 400 t + 399` of its array. -/
theorem iblkH_apply (c : Dev nD) (t : Fin cfg1.N) (p : Fin 400) (k : Fin 5000) (n : Fin 20000) (hn : n.val = 400 * t.val + p.val) :
    (Node.iblk V c 0 t : Vec Ideal S400x5000 .f32) (ix2 p k) = (V c main_arg1 : S20000x5000.Idx → EReal) (ix2 n k) := by
  obtain ⟨h0, h1, -, -, -, -, -, -, -, -, -, -, -, -⟩ := idx_facts t
  unfold Node.iblk
  rw [View.read_apply]
  show V c main_arg1 _ = V c main_arg1 _
  congr 1
  funext a
  apply Fin.ext
  match a with
  | ⟨0, _⟩ => show win1_0.index t (0 : Fin 2) * 400 + 1 * p.val = n.val; rw [h0, hn]; omega
  | ⟨1, _⟩ => show win1_0.index t (1 : Fin 2) * 5000 + 1 * k.val = k.val; rw [h1]; omega

/-- Window 1's block at every point is its whole array. -/
theorem iblkE_eq (c : Dev nD) (t : Fin cfg1.N) :
    (Node.iblk V c 1 t : S5000x512.Idx → EReal) = (V c main_v20 : S5000x512.Idx → EReal) := by
  obtain ⟨-, -, h0, h1, -, -, -, -, -, -, -, -, -, -⟩ := idx_facts t
  funext j
  unfold Node.iblk
  rw [View.read_apply]
  show V c main_v20 _ = V c main_v20 j
  congr 1
  funext a
  apply Fin.ext
  match a with
  | ⟨0, _⟩ => show win1_1.index t (0 : Fin 2) * 5000 + 1 * (j 0).val = (j 0).val; rw [h0]; omega
  | ⟨1, _⟩ => show win1_1.index t (1 : Fin 2) * 512 + 1 * (j 1).val = (j 1).val; rw [h1]; omega

/-- Window 2's block at point `t` is rows `400 t … 400 t + 399` of its array. -/
theorem iblkX_apply (c : Dev nD) (t : Fin cfg1.N) (p : Fin 400) (k : Fin 256) (n : Fin 20000) (hn : n.val = 400 * t.val + p.val) :
    (Node.iblk V c 2 t : Vec Ideal S400x256 .f32) (ix2 p k) = (V c main_arg0 : S20000x256.Idx → EReal) (ix2 n k) := by
  obtain ⟨-, -, -, -, h0, h1, -, -, -, -, -, -, -, -⟩ := idx_facts t
  unfold Node.iblk
  rw [View.read_apply]
  show V c main_arg0 _ = V c main_arg0 _
  congr 1
  funext a
  apply Fin.ext
  match a with
  | ⟨0, _⟩ => show win1_2.index t (0 : Fin 2) * 400 + 1 * p.val = n.val; rw [h0, hn]; omega
  | ⟨1, _⟩ => show win1_2.index t (1 : Fin 2) * 256 + 1 * k.val = k.val; rw [h1]; omega

/-- Window 3's block at every point is its whole array. -/
theorem iblkW_eq (c : Dev nD) (t : Fin cfg1.N) :
    (Node.iblk V c 3 t : S256x512.Idx → EReal) = (V c main_arg3 : S256x512.Idx → EReal) := by
  obtain ⟨-, -, -, -, -, -, h0, h1, -, -, -, -, -, -⟩ := idx_facts t
  funext j
  unfold Node.iblk
  rw [View.read_apply]
  show V c main_arg3 _ = V c main_arg3 j
  congr 1
  funext a
  apply Fin.ext
  match a with
  | ⟨0, _⟩ => show win1_3.index t (0 : Fin 2) * 256 + 1 * (j 0).val = (j 0).val; rw [h0]; omega
  | ⟨1, _⟩ => show win1_3.index t (1 : Fin 2) * 512 + 1 * (j 1).val = (j 1).val; rw [h1]; omega

/-- Window 4's block at every point is its whole array. -/
theorem iblkG_eq (c : Dev nD) (t : Fin cfg1.N) :
    (Node.iblk V c 4 t : S1x512.Idx → EReal) = (V c main_v0 : S1x512.Idx → EReal) := by
  obtain ⟨-, -, -, -, -, -, -, -, h0, h1, -, -, -, -⟩ := idx_facts t
  funext j
  unfold Node.iblk
  rw [View.read_apply]
  show V c main_v0 _ = V c main_v0 j
  congr 1
  funext a
  apply Fin.ext
  match a with
  | ⟨0, _⟩ => show win1_4.index t (0 : Fin 2) * 1 + 1 * (j 0).val = (j 0).val; rw [h0]; omega
  | ⟨1, _⟩ => show win1_4.index t (1 : Fin 2) * 512 + 1 * (j 1).val = (j 1).val; rw [h1]; omega

/-- Window 5's block at every point is its whole array. -/
theorem iblkB_eq (c : Dev nD) (t : Fin cfg1.N) :
    (Node.iblk V c 5 t : S1x512.Idx → EReal) = (V c main_v1 : S1x512.Idx → EReal) := by
  obtain ⟨-, -, -, -, -, -, -, -, -, -, h0, h1, -, -⟩ := idx_facts t
  funext j
  unfold Node.iblk
  rw [View.read_apply]
  show V c main_v1 _ = V c main_v1 j
  congr 1
  funext a
  apply Fin.ext
  match a with
  | ⟨0, _⟩ => show win1_5.index t (0 : Fin 2) * 1 + 1 * (j 0).val = (j 0).val; rw [h0]; omega
  | ⟨1, _⟩ => show win1_5.index t (1 : Fin 2) * 512 + 1 * (j 1).val = (j 1).val; rw [h1]; omega

/-- The output array the region leaves, as one function of the six arrays it reads. -/
abbrev G (c : Dev nD) : S20000x512.Idx → EReal :=
  nodeOut (V c main_arg1 : S20000x5000.Idx → EReal) (V c main_v20 : S5000x512.Idx → EReal) (V c main_arg0 : S20000x256.Idx → EReal)
    (V c main_arg3 : S256x512.Idx → EReal) (V c main_v0 : S1x512.Idx → EReal) (V c main_v1 : S1x512.Idx → EReal)

/-- What point `t` writes back is block `t` of that function. -/
theorem flushed_eq (c : Dev nD) (t : Fin cfg1.N) :
    (Node.dat V c).flushed 6 t = ((cfg1.win 6).blk t).view.read (Elt Ideal) (G V c) := by
  have hN : cfg1.N = 50 := N_1
  have ht : t.val < 50 := hN ▸ t.isLt
  obtain ⟨-, -, -, -, -, -, -, -, -, -, -, -, h0, h1⟩ := idx_facts t
  show (cfg1.win 6).cut (grid1.coords t) ((Node.dat V c).after 6 t) = _
  rw [Node.after_6]
  unfold Node.out6
  rw [View.canon_unit_zero hz]
  simp only [View.ld_unit_zero (S := S400x5000) hz, View.ld_unit_zero (S := S5000x512) hz, View.ld_unit_zero (S := S400x256) hz,
    View.ld_unit_zero (S := S256x512) hz, View.ld_unit_zero (S := S1x512) hz]
  funext j
  obtain ⟨p, d, rfl⟩ : ∃ (p : Fin 400) (d : Fin 512), j = ix2 p d := ⟨j 0, j 1, eq_ix2 j⟩
  rw [View.read_apply]
  have hemb : ((cfg1.win 6).blk t).view.emb (ix2 p d) = (ix2 (⟨400 * t.val + p.val, by omega⟩ : Fin 20000) d : S20000x512.Idx) := by
    funext a
    apply Fin.ext
    match a with
    | ⟨0, _⟩ => show win1_6.index t (0 : Fin 2) * 400 + 1 * p.val = 400 * t.val + p.val; rw [h0]; omega
    | ⟨1, _⟩ => show win1_6.index t (1 : Fin 2) * 512 + 1 * d.val = d.val; rw [h1]; omega
  rw [hemb]
  show k1_pay1 (F := Ideal) (k1_pay2 (F := Ideal) (Node.iblk V c 0 t) (Node.iblk V c 1 t) (Node.iblk V c 2 t) (Node.iblk V c 3 t) (Node.iblk V c 4 t))
      (Node.iblk V c 5 t) (ix2 p d) = nodeAt _ _ _ _ _ _ (⟨400 * t.val + p.val, by omega⟩ : Fin 20000) d
  refine (pay_apply (Node.iblk V c 0 t) (Node.iblk V c 1 t) (Node.iblk V c 2 t) (Node.iblk V c 3 t) (Node.iblk V c 4 t) (Node.iblk V c 5 t) p d).trans ?_
  exact nodeAt_congr _ _ _ _ _ _ _ _ _ _ _ _ p _ d
    (fun e => iblkH_apply V c t p e _ rfl) (iblkE_eq V c t) (fun k => iblkX_apply V c t p k _ rfl) (iblkW_eq V c t)
    (iblkG_eq V c t) (iblkB_eq V c t)

/-- An index of the output array is in point `t`'s block iff each coordinate is in the block's range on its axis. -/
theorem mem_blk (t : Fin cfg1.N) (i : S20000x512.Idx) :
    i ∈ ((cfg1.win 6).blk t).view.set ↔ ∀ a : Fin 2, win1_6.index t a * S400x512.size a ≤ (i a).val ∧ (i a).val < win1_6.index t a * S400x512.size a + S400x512.size a := by
  show i ∈ ((View.whole main_v21).slice (win1_6.rect t)).set ↔ _
  rw [View.set_slice_whole, Rect.mem_set_unit]
  exact Iff.rfl

/-- Every row of the output is in the block of the point its number divided by 400 names, and that point writes back. -/
theorem cover (i : S20000x512.Idx) : ∃ t : Fin cfg1.N, (cfg1.win 6).flush t = true ∧ i ∈ ((cfg1.win 6).blk t).view.set := by
  have hN : cfg1.N = 50 := N_1
  have hi0 : (i 0).val < 20000 := (i 0).isLt
  have hi1 : (i 1).val < 512 := (i 1).isLt
  have hq : (i 0).val / 400 < cfg1.N := by rw [hN]; omega
  obtain ⟨-, -, -, -, -, -, -, -, -, -, -, -, h0, h1⟩ := idx_facts ⟨(i 0).val / 400, hq⟩
  refine ⟨⟨(i 0).val / 400, hq⟩, flush1_6 _, ?_⟩
  rw [mem_blk]
  intro a
  match a with
  | ⟨0, _⟩ =>
    show win1_6.index ⟨(i 0).val / 400, hq⟩ (0 : Fin 2) * 400 ≤ (i 0).val ∧ (i 0).val < win1_6.index ⟨(i 0).val / 400, hq⟩ (0 : Fin 2) * 400 + 400
    rw [h0]; show (i 0).val / 400 * 400 ≤ (i 0).val ∧ (i 0).val < (i 0).val / 400 * 400 + 400; omega
  | ⟨1, _⟩ =>
    show win1_6.index ⟨(i 0).val / 400, hq⟩ (1 : Fin 2) * 512 ≤ (i 1).val ∧ (i 1).val < win1_6.index ⟨(i 0).val / 400, hq⟩ (1 : Fin 2) * 512 + 512
    rw [h1]; omega

/-- THE OUTPUT ARRAY after the region: at node `n` and feature `d` the normalised, scaled and shifted row of node `n`,
    computed from row `n` of the incidence matrix and of the node features and from the whole edge-feature table,
    residual weights, scale and shift. -/
theorem final6 (c : Dev nD) : (Node.dat V c).arrAt 6 cfg1.N = G V c :=
  (Node.dat V c).arrAt_eq_of_cover 6 (G V c) (fun t _ => flushed_eq V c t) (cover)

end Array

end Cert.KernelIdeal.NodeValue

end
-- ==== Proof.SpecAlgebra.lean ====
/-
  A re-indexing law for sums over the 20000 nodes, on the extended reals (a commutative additive monoid: no finiteness
  is needed). The node range splits into 2 halves of 50 blocks of 200 rows: node `(c · 50 + i) · 200 + r` is row `r` of
  block `i` of half `c`, and a sum over all nodes is the iterated sum over halves, blocks and rows.
-/
import proofs.«115665_j11158325035087_2_alg».proof.Proof.Spec
import Mathlib.Algebra.BigOperators.Fin
import Mathlib.Data.Fintype.BigOperators

noncomputable section

open scoped BigOperators

namespace Cert.Spec

/-- Nodes as (half, block, row): `n = (c · 50 + i) · 200 + r`. -/
def blockEquiv : Fin 2 × Fin 50 × Fin 200 ≃ Fin 20000 where
  toFun p := ⟨(p.1.val * 50 + p.2.1.val) * 200 + p.2.2.val, by
    have := p.1.isLt; have := p.2.1.isLt; have := p.2.2.isLt; omega⟩
  invFun n := (⟨n.val / 10000, by have := n.isLt; omega⟩, ⟨n.val / 200 % 50, Nat.mod_lt _ (by decide)⟩,
    ⟨n.val % 200, Nat.mod_lt _ (by decide)⟩)
  left_inv p := by
    obtain ⟨⟨c, hc⟩, ⟨i, hi⟩, ⟨r, hr⟩⟩ := p
    refine Prod.ext (Fin.ext ?_) (Prod.ext (Fin.ext ?_) (Fin.ext ?_))
    · show ((c * 50 + i) * 200 + r) / 10000 = c
      omega
    · show ((c * 50 + i) * 200 + r) / 200 % 50 = i
      omega
    · show ((c * 50 + i) * 200 + r) % 200 = r
      omega
  right_inv n := by
    obtain ⟨n, hn⟩ := n
    refine Fin.ext ?_
    show (n / 10000 * 50 + n / 200 % 50) * 200 + n % 200 = n
    omega

/-- A sum over the nodes is the sum over halves, blocks within a half, and rows within a block. -/
theorem sum_blocks {M : Type*} [AddCommMonoid M] (f : Fin 20000 → M) :
    ∑ n : Fin 20000, f n
      = ∑ c : Fin 2, ∑ i : Fin 50, ∑ r : Fin 200, f ⟨(c.val * 50 + i.val) * 200 + r.val, by omega⟩ := by
  rw [← Equiv.sum_comp blockEquiv f, Fintype.sum_prod_type]
  refine Finset.sum_congr rfl fun c _ => ?_
  rw [Fintype.sum_prod_type]
  rfl

end Cert.Spec

end
-- ==== Proof.JoinAlgebra.lean ====
import proofs.«115665_j11158325035087_2_alg».proof.Proof.Spec
import proofs.«115665_j11158325035087_2_alg».proof.Proof.SpecAlgebra
import proofs.«115665_j11158325035087_2_alg».proof.Proof.HostValue
import proofs.«115665_j11158325035087_2_alg».proof.Proof.NodeValue

/-!
  The algebra that joins the two kernel calls to the specification, on the extended reals.

  The first call leaves, per half `c` of the node range (two halves of 50 blocks of 200 rows), the partial sums
    P[c, e, d] = Σ_i Σ_r H[n, e] · (Σ_k x[n, k] · Wn[k, d])      D[c, 0, e] = Σ_i Σ_r H[n, e]      (n = (c·50 + i)·200 + r)
  and the host combines them as `(P[0] + P[1]) / max (D[0] + D[1]) 1`. Since every node is exactly one `(c, i, r)`, the two
  halves' sums add up to the sums over all nodes, and the combination is the specification's hyperedge feature: only
  re-association of finite sums in a commutative monoid and the commutativity of `max` are used — no finiteness.

  The second call computes, from those features, the node features with the residual, their mean and variance, and
  the normalised result; with the hyperedge features those of the specification, that is the specification's result.
-/

noncomputable section

open scoped BigOperators

namespace Cert.Join

open Idealize.ShloMosaic Idealize.ShloMosaic.ValueIdx
open Cert.KernelIdeal Cert.KernelIdeal.HostValue

variable (X : (⟨2, ![20000, 256]⟩ : Shape).Idx → EReal) (Hm : (⟨2, ![20000, 5000]⟩ : Shape).Idx → EReal)
  (Wn Wr : (⟨2, ![256, 512]⟩ : Shape).Idx → EReal) (g b : (⟨1, ![512]⟩ : Shape).Idx → EReal)

/-! ## The first call's partial sums -/

/-- Row `r` of block `i` of half `c` is a node. -/
theorem node_lt (c : Fin 2) (i : Fin 50) (r : Fin 200) : (c.val * 50 + i.val) * 200 + r.val < 20000 := by
  have := c.isLt; have := i.isLt; have := r.isLt; omega

/-- One node's contribution to hyperedge `e`'s feature `d`: its incidence times its projection. -/
def edgeTerm (n : Fin 20000) (e : Fin 5000) (d : Fin 512) : EReal :=
  Hm (ix2 n e) * (∑ k : Fin 256, X (ix2 n k) * Wn (ix2 k d))

/-- It is the specification's summand. (Were the factors the other way round this would be `mul_comm _ _`.) -/
theorem edgeTerm_eq (n : Fin 20000) (e : Fin 5000) (d : Fin 512) :
    edgeTerm X Hm Wn n e d = Hm (ix2 n e) * Cert.Spec.xproj X Wn n d := rfl

/-- The partial hyperedge sums: half `j 0`'s nodes' contributions to hyperedge `j 1`, feature `j 2`. -/
def partialEdge : FVec Ideal S2x5000x512 .bf16 :=
  fun j => ∑ i : Fin 50, ∑ r : Fin 200,
    Hm (ix2 (⟨((j 0).val * 50 + i.val) * 200 + r.val, node_lt (j 0) i r⟩ : Fin 20000) (j 1))
      * (∑ k : Fin 256, X (ix2 (⟨((j 0).val * 50 + i.val) * 200 + r.val, node_lt (j 0) i r⟩ : Fin 20000) k) * Wn (ix2 k (j 2)))

/-- The partial degrees: half `j 0`'s nodes' incidences with hyperedge `j 2`. -/
def partialDeg : FVec Ideal S2x1x5000 .f32 :=
  fun j => ∑ i : Fin 50, ∑ r : Fin 200,
    Hm (ix2 (⟨((j 0).val * 50 + i.val) * 200 + r.val, node_lt (j 0) i r⟩ : Fin 20000) (j 2))

/-- The two halves' partial sums add up to the sum over all nodes. -/
theorem partialEdge_add (e : Fin 5000) (d : Fin 512) :
    partialEdge X Hm Wn (ix3 (0 : Fin 2) e d) + partialEdge X Hm Wn (ix3 (1 : Fin 2) e d)
      = ∑ n : Fin 20000, Hm (ix2 n e) * Cert.Spec.xproj X Wn n d := by
  rw [Cert.Spec.sum_blocks, Fin.sum_univ_two]
  rfl

/-- The two halves' partial degrees add up to the hyperedge's column sum. -/
theorem partialDeg_add (e : Fin 5000) :
    partialDeg Hm (ix3 (0 : Fin 2) (0 : Fin 1) e) + partialDeg Hm (ix3 (1 : Fin 2) (0 : Fin 1) e)
      = ∑ n : Fin 20000, Hm (ix2 n e) := by
  rw [Cert.Spec.sum_blocks, Fin.sum_univ_two]
  rfl

/-- The host's combination of the partial sums is the specification's hyperedge feature. -/
theorem combine_partials (e : Fin 5000) (d : Fin 512) :
    combine (partialEdge X Hm Wn) (partialDeg Hm) (ix2 e d) = Cert.Spec.edgeFeat X Hm Wn e d := by
  rw [combine_ix2, partialEdge_add, partialDeg_add, max_comm]
  rfl

/-- The specification's hyperedge features as an array. -/
def edgeArr : FVec Ideal S5000x512 .bf16 := fun i => Cert.Spec.edgeFeat X Hm Wn (i 0) (i 1)

/-- The same, array by array. -/
theorem combine_partials_eq : combine (partialEdge X Hm Wn) (partialDeg Hm) = edgeArr X Hm Wn := by
  funext i
  obtain ⟨e, d, rfl⟩ : ∃ (e : Fin 5000) (d : Fin 512), i = ix2 e d := ⟨i 0, i 1, eq_ix2 i⟩
  exact combine_partials X Hm Wn e d

/-! ## The second call's result -/

/-- At an index given by its coordinates the array of hyperedge features is the specification's feature. -/
theorem edgeArr_ix2 (e : Fin 5000) (d : Fin 512) : edgeArr X Hm Wn (ix2 e d) = Cert.Spec.edgeFeat X Hm Wn e d := rfl

section Node

open Cert.KernelIdeal.NodeValue

variable (E : (⟨2, ![5000, 512]⟩ : Shape).Idx → EReal) (hE : ∀ e d, E (ix2 e d) = Cert.Spec.edgeFeat X Hm Wn e d)
  (g1 b1 : (⟨2, ![1, 512]⟩ : Shape).Idx → EReal)

/-- The second call clips the row sum the other way round: `max s 1` for the specification's `max 1 s`. -/
theorem deg_eq (n : Fin 20000) : deg (R := 20000) Hm n = Cert.Spec.degV Hm n := max_comm _ _

include hE in
/-- With the specification's hyperedge features, a node's row before normalisation is the specification's. -/
theorem hid_eq (n : Fin 20000) : hid (R := 20000) Hm E X Wr n = Cert.Spec.hres X Hm Wn Wr n := by
  funext d
  unfold hid Cert.Spec.hres
  rw [deg_eq]
  simp only [hE]

/-- The mean of the specification's row is the specification's mean … -/
theorem mean_eq (n : Fin 20000) : mean (Cert.Spec.hres X Hm Wn Wr n) = Cert.Spec.mu X Hm Wn Wr n := rfl

/-- … and its variance the specification's variance. -/
theorem vari_eq (n : Fin 20000) : vari (Cert.Spec.hres X Hm Wn Wr n) = Cert.Spec.var X Hm Wn Wr n := rfl

include hE in
/-- The second call's closed form, on the specification's hyperedge features and on the scale and shift read through
    their leading unit axis, is the specification's result. -/
theorem nodeOut_eq_spec (hg : ∀ d, g1 (ix2 (0 : Fin 1) d) = g (ix1 d)) (hb : ∀ d, b1 (ix2 (0 : Fin 1) d) = b (ix1 d)) :
    nodeOut (R := 20000) Hm E X Wr g1 b1 = Cert.Spec.G X Hm Wn Wr g b := by
  funext i
  obtain ⟨n, d, rfl⟩ : ∃ (n : Fin 20000) (d : Fin 512), i = ix2 n d := ⟨i 0, i 1, eq_ix2 i⟩
  show NodeValue.norm (hid (R := 20000) Hm E X Wr n) g1 b1 d = Cert.Spec.out X Hm Wn Wr g b n d
  rw [hid_eq X Hm Wn Wr E hE n]
  unfold NodeValue.norm Cert.Spec.out
  rw [hg, hb, mean_eq, vari_eq]

end Node

end Cert.Join

end
-- ==== Proof.Join.lean ====
/-
  The join: the array the second kernel call leaves is the specification's result of the arguments as launched.

  The second call's result is a closed form of the six arrays it reads. Four of them reach it unchanged or through a
  reshape: the incidence matrix, the node features and the residual weights as launched, the scale and the shift with a
  leading unit axis. The fifth, the hyperedge features, is the host's combination of the first call's two result
  arrays, the partial hyperedge sums and the partial degrees of the two halves of the node range; combined, they are the
  specification's hyperedge features. With those six identified the closed form is the specification's.
-/
import proofs.«115665_j11158325035087_2_alg».proof.Proof.Run
import proofs.«115665_j11158325035087_2_alg».proof.Proof.HostValue
import proofs.«115665_j11158325035087_2_alg».proof.Proof.NodeValue
import proofs.«115665_j11158325035087_2_alg».proof.Proof.JoinAlgebra

set_option maxRecDepth 16384

noncomputable section

open scoped BigOperators

namespace Cert.KernelIdeal.Join

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The arrays the first call reads: the arguments as launched -/

theorem V1_arg0 : Run.V1 m c main_arg0 = m ((c.tc : Thread nD τ).loc main_arg0) :=
  (HostValue.after0_arg0 (Run.W0 m c)).trans rfl
theorem V1_arg1 : Run.V1 m c main_arg1 = m ((c.tc : Thread nD τ).loc main_arg1) :=
  (HostValue.after0_arg1 (Run.W0 m c)).trans rfl
theorem V1_arg2 : Run.V1 m c main_arg2 = m ((c.tc : Thread nD τ).loc main_arg2) :=
  (HostValue.after0_arg2 (Run.W0 m c)).trans rfl

/-! ## The arrays the second call reads -/

/-- The node features reach the second call as launched: neither stretch of host operations writes them and the first
    call only reads them. -/
theorem V3_arg0 : Run.V3 m c main_arg0 = m ((c.tc : Thread nD τ).loc main_arg0) :=
  calc Run.W3 m c (Proc.devRef .tc main_arg0)
    _ = Run.W2 m c (Proc.devRef .tc main_arg0) := HostValue.after1_arg0 (Run.W2 m c)
    _ = Run.W1 m c (Proc.devRef .tc main_arg0) :=
        (Run.W2_arr m c 0).trans (((Edge.dat (Run.V1 m) c).arrAt_in 0 rfl _).trans (Edge.A_eq (Run.V1 m) c 0))
    _ = m ((c.tc : Thread nD τ).loc main_arg0) := V1_arg0 m c

/-- So does the incidence matrix. -/
theorem V3_arg1 : Run.V3 m c main_arg1 = m ((c.tc : Thread nD τ).loc main_arg1) :=
  calc Run.W3 m c (Proc.devRef .tc main_arg1)
    _ = Run.W2 m c (Proc.devRef .tc main_arg1) := HostValue.after1_arg1 (Run.W2 m c)
    _ = Run.W1 m c (Proc.devRef .tc main_arg1) :=
        (Run.W2_arr m c 1).trans (((Edge.dat (Run.V1 m) c).arrAt_in 1 rfl _).trans (Edge.A_eq (Run.V1 m) c 1))
    _ = m ((c.tc : Thread nD τ).loc main_arg1) := V1_arg1 m c

/-- The residual weights are no array of the first call and no host operation writes them. -/
theorem V3_arg3 : Run.V3 m c main_arg3 = m ((c.tc : Thread nD τ).loc main_arg3) :=
  calc Run.W3 m c (Proc.devRef .tc main_arg3)
    _ = Run.W2 m c (Proc.devRef .tc main_arg3) := HostValue.after1_arg3 (Run.W2 m c)
    _ = Run.W1 m c (Proc.devRef .tc main_arg3) := Run.W2_of_ne m c main_arg3 (by decide)
    _ = Run.W0 m c (Proc.devRef .tc main_arg3) := HostValue.after0_arg3 (Run.W0 m c)
    _ = m ((c.tc : Thread nD τ).loc main_arg3) := rfl

/-- The scale with its leading unit axis, as the first stretch of host operations made it. -/
theorem V3_v0 : (Run.V3 m c main_v0 : S1x512.Idx → EReal)
    = fun i => (m ((c.tc : Thread nD τ).loc main_arg4) : S512.Idx → EReal) (ix1 (i 1)) :=
  calc Run.W3 m c (Proc.devRef .tc main_v0)
    _ = Run.W2 m c (Proc.devRef .tc main_v0) := HostValue.after1_v0 (Run.W2 m c)
    _ = Run.W1 m c (Proc.devRef .tc main_v0) := Run.W2_of_ne m c main_v0 (by decide)
    _ = _ := HostValue.after0_v0 (Run.W0 m c)

/-- The shift likewise. -/
theorem V3_v1 : (Run.V3 m c main_v1 : S1x512.Idx → EReal)
    = fun i => (m ((c.tc : Thread nD τ).loc main_arg5) : S512.Idx → EReal) (ix1 (i 1)) :=
  calc Run.W3 m c (Proc.devRef .tc main_v1)
    _ = Run.W2 m c (Proc.devRef .tc main_v1) := HostValue.after1_v1 (Run.W2 m c)
    _ = Run.W1 m c (Proc.devRef .tc main_v1) := Run.W2_of_ne m c main_v1 (by decide)
    _ = _ := HostValue.after0_v1 (Run.W0 m c)

/-- The hyperedge features handed to the second call: the host's combination of what the first call's write-backs
    leave in its two result arrays. -/
theorem V3_v20_blocks : (Run.V3 m c main_v20 : S5000x512.Idx → EReal)
    = HostValue.combine ((Edge.dat (Run.V1 m) c).arrAt 3 cfg0.N) ((Edge.dat (Run.V1 m) c).arrAt 4 cfg0.N) :=
  calc Run.W3 m c (Proc.devRef .tc main_v20)
    _ = HostValue.combine (Run.W2 m c (Proc.devRef .tc main_v2_0)) (Run.W2 m c (Proc.devRef .tc main_v2_1)) :=
        HostValue.after1_v20 (Run.W2 m c)
    _ = _ := by rw [show Run.W2 m c (Proc.devRef .tc main_v2_0) = (Edge.dat (Run.V1 m) c).arrAt 3 cfg0.N from Run.W2_arr m c 3,
                    show Run.W2 m c (Proc.devRef .tc main_v2_1) = (Edge.dat (Run.V1 m) c).arrAt 4 cfg0.N from Run.W2_arr m c 4]

/-! ## The first call's two result arrays, over the arguments as launched -/

/-- The hyperedge features handed to the second call, given what the first call's write-backs leave (`h3`, `h4`: the
    partial hyperedge sums and the partial degrees of the arrays the first call reads). -/
theorem V3_v20
    (h3 : (Edge.dat (Run.V1 m) c).arrAt 3 cfg0.N
      = Cert.Join.partialEdge (Run.V1 m c main_arg0) (Run.V1 m c main_arg1) (Run.V1 m c main_arg2))
    (h4 : (Edge.dat (Run.V1 m) c).arrAt 4 cfg0.N = Cert.Join.partialDeg (Run.V1 m c main_arg1)) :
    (Run.V3 m c main_v20 : S5000x512.Idx → EReal)
      = HostValue.combine (Cert.Join.partialEdge (m ((c.tc : Thread nD τ).loc main_arg0)) (m ((c.tc : Thread nD τ).loc main_arg1)) (m ((c.tc : Thread nD τ).loc main_arg2)))
          (Cert.Join.partialDeg (m ((c.tc : Thread nD τ).loc main_arg1))) := by
  rw [V3_v20_blocks, h3, h4, V1_arg0, V1_arg1, V1_arg2]

/-! ## The join -/

/-- The array the second call's write-backs leave is the specification's result of the six arguments as launched,
    given what the first call's write-backs leave. -/
theorem kernel_eq_spec_of
    (h3 : (Edge.dat (Run.V1 m) c).arrAt 3 cfg0.N
      = Cert.Join.partialEdge (Run.V1 m c main_arg0) (Run.V1 m c main_arg1) (Run.V1 m c main_arg2))
    (h4 : (Edge.dat (Run.V1 m) c).arrAt 4 cfg0.N = Cert.Join.partialDeg (Run.V1 m c main_arg1)) :
    (Node.dat (Run.V3 m) c).arrAt 6 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [NodeValue.final6 (Run.V3 m) c]
  unfold NodeValue.G
  rw [V3_arg1 m c, V3_v20 m c h3 h4, V3_arg0 m c, V3_arg3 m c, V3_v0 m c, V3_v1 m c]
  exact Cert.Join.nodeOut_eq_spec _ _ _ _ _ _ _ (fun e d => Cert.Join.combine_partials _ _ _ e d) _ _ (fun d => rfl) (fun d => rfl)

end Cert.KernelIdeal.Join

end
-- ==== Proof.EdgeValuePieces.lean ====
/-
  The edge-aggregation region, value side: what each kind of step leaves in the two accumulators and the two output
  blocks, read back as the body's arithmetic of the tiles it loaded. A first step's accumulators are the update of
  the zeros it has just stored; a middle or last step's are the update of what the step before left; a last step's
  output blocks are the format change and re-shape of the accumulators it has just updated.
-/
import proofs.«115665_j11158325035087_2_alg».proof.Proof.EdgeRegion
import Idealize.ShloMosaic.Lib.Pipeline.Value
import Idealize.ShloMosaic.Lib.ValueIdx
import Idealize.ShloMosaic.Lib.ValueLayout
set_option maxRecDepth 16384

noncomputable section

namespace Cert.KernelIdeal.EdgeValue

open Cert.KernelIdeal Cert.KernelIdeal.Gen Cert.KernelIdeal.Edge
open Idealize.ShloMosaic Idealize.ShloMosaic.TcCoe Idealize.ShloMosaic.Tactic
open Idealize.SL.Sem
open Idealize.ShloMosaic.Pipeline (Dat Cfg Window)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A core's first step: the accumulators are cleared, then updated -/

theorem accF_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) :
    accF c i arg2 harg2 arg3 harg3 arg4 harg4 arg5 harg5 arg6 harg6 arg7 harg7 arg8 harg8 hc0 hc1 x0 x1 x2 = k0_pay4 x0 x2 x1 (k0_pay1) := by
  unfold accF
  rw [View.read_writes_eq_canon _ _ _ (cover_accF c i arg2 harg2 arg3 harg3 arg4 harg4 arg5 harg5 arg6 harg6 arg7 harg7 arg8 harg8 hc0 hc1 x0 x1 x2)]
  unfold runFirst
  dsimp only
  sl_unfold_words
  rw [View.canon_cons_unit_zero (S := S5000x512) hz2, View.readCov_unit_zero (S := S5000x512) _ hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

theorem degF_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : condFirst i) (hc1 : ¬condLast i) (x0 : Vec F S200x256 .f32) (x1 : Vec F S200x5000 .f32) (x2 : Vec F S256x512 .f32) :
    degF c i arg2 harg2 arg3 harg3 arg4 harg4 arg5 harg5 arg6 harg6 arg7 harg7 arg8 harg8 hc0 hc1 x0 x1 x2 = k0_pay3 x1 (k0_pay2) := by
  unfold degF
  rw [View.read_writes_eq_canon _ _ _ (cover_degF c i arg2 harg2 arg3 harg3 arg4 harg4 arg5 harg5 arg6 harg6 arg7 harg7 arg8 harg8 hc0 hc1 x0 x1 x2)]
  unfold runFirst
  dsimp only
  sl_unfold_words
  rw [View.canon_cons_unit_zero (S := S1x5000) hz2, View.readCov_unit_zero (S := S1x5000) _ hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

/-! ## A middle step: this tile is added to what the step before left -/

theorem accM_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) :
    accM_ c i arg2 harg2 arg3 harg3 arg4 harg4 arg5 harg5 arg6 harg6 arg7 harg7 arg8 harg8 hc0 hc1 x0 x1 x2 xs7 xs8 = k0_pay4 x0 x2 x1 xs7 := by
  unfold accM_
  rw [View.read_writes_eq_canon _ _ _ (cover_accM c i arg2 harg2 arg3 harg3 arg4 harg4 arg5 harg5 arg6 harg6 arg7 harg7 arg8 harg8 hc0 hc1 x0 x1 x2 xs7 xs8)]
  unfold runMid
  dsimp only
  rw [View.canon_unit_zero hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

theorem degM_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : ¬condLast i) (x0 : Vec F S200x256 .f32) (x1 : Vec F S200x5000 .f32) (x2 : Vec F S256x512 .f32) (xs7 : Vec F S5000x512 .f32) (xs8 : Vec F S1x5000 .f32) :
    degM_ c i arg2 harg2 arg3 harg3 arg4 harg4 arg5 harg5 arg6 harg6 arg7 harg7 arg8 harg8 hc0 hc1 x0 x1 x2 xs7 xs8 = k0_pay3 x1 xs8 := by
  unfold degM_
  rw [View.read_writes_eq_canon _ _ _ (cover_degM c i arg2 harg2 arg3 harg3 arg4 harg4 arg5 harg5 arg6 harg6 arg7 harg7 arg8 harg8 hc0 hc1 x0 x1 x2 xs7 xs8)]
  unfold runMid
  dsimp only
  rw [View.canon_unit_zero hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

/-! ## A core's last step: the same update, and the updated accumulators copied into the output blocks -/

theorem accL_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) :
    accL c i arg2 harg2 arg3 harg3 arg4 harg4 arg5 harg5 arg6 harg6 arg7 harg7 arg8 harg8 hc0 hc1 x0 x1 x2 xs7 xs8 = k0_pay4 x0 x2 x1 xs7 := by
  unfold accL
  rw [View.read_writes_eq_canon _ _ _ (cover_accL c i arg2 harg2 arg3 harg3 arg4 harg4 arg5 harg5 arg6 harg6 arg7 harg7 arg8 harg8 hc0 hc1 x0 x1 x2 xs7 xs8)]
  unfold runLast
  dsimp only
  sl_unfold_words
  rw [View.canon_unit_zero hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

theorem degL_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) :
    degL c i arg2 harg2 arg3 harg3 arg4 harg4 arg5 harg5 arg6 harg6 arg7 harg7 arg8 harg8 hc0 hc1 x0 x1 x2 xs7 xs8 = k0_pay3 x1 xs8 := by
  unfold degL
  rw [View.read_writes_eq_canon _ _ _ (cover_degL c i arg2 harg2 arg3 harg3 arg4 harg4 arg5 harg5 arg6 harg6 arg7 harg7 arg8 harg8 hc0 hc1 x0 x1 x2 xs7 xs8)]
  unfold runLast
  dsimp only
  sl_unfold_words
  rw [View.canon_unit_zero hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

theorem o3L_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) :
    o3L c i arg2 harg2 arg3 harg3 arg4 harg4 arg5 harg5 arg6 harg6 arg7 harg7 arg8 harg8 hc0 hc1 x0 x1 x2 xs7 xs8 = k0_pay5 (k0_pay4 x0 x2 x1 xs7) := by
  unfold o3L
  rw [View.read_writes_eq_canon _ _ _ (cover_o3L c i arg2 harg2 arg3 harg3 arg4 harg4 arg5 harg5 arg6 harg6 arg7 harg7 arg8 harg8 hc0 hc1 x0 x1 x2 xs7 xs8)]
  unfold runLast
  dsimp only
  sl_unfold_words
  rw [View.canon_unit_zero hz3, View.readCov_unit_zero (S := S5000x512) _ hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

theorem o4L_eq (c : Dev nD) (i : grid0.Coords) (arg2 : Memref sig .tc .vmem S200x256 .f32) (harg2 : arg2.IsWhole) (arg3 : Memref sig .tc .vmem S200x5000 .f32) (harg3 : arg3.IsWhole) (arg4 : Memref sig .tc .vmem S256x512 .f32) (harg4 : arg4.IsWhole) (arg5 : Memref sig .tc .vmem S1x5000x512 .bf16) (harg5 : arg5.IsWhole) (arg6 : Memref sig .tc .vmem S1x1x5000 .f32) (harg6 : arg6.IsWhole) (arg7 : Memref sig .tc .vmem S5000x512 .f32) (harg7 : arg7.IsWhole) (arg8 : Memref sig .tc .vmem S1x5000 .f32) (harg8 : arg8.IsWhole) (hc0 : ¬condFirst i) (hc1 : condLast i) (x0 : Vec F S200x256 .f32) (x1 : Vec F S200x5000 .f32) (x2 : Vec F S256x512 .f32) (xs7 : Vec F S5000x512 .f32) (xs8 : Vec F S1x5000 .f32) :
    o4L c i arg2 harg2 arg3 harg3 arg4 harg4 arg5 harg5 arg6 harg6 arg7 harg7 arg8 harg8 hc0 hc1 x0 x1 x2 xs7 xs8 = k0_pay6 (k0_pay3 x1 xs8) := by
  unfold o4L
  rw [View.read_writes_eq_canon _ _ _ (cover_o4L c i arg2 harg2 arg3 harg3 arg4 harg4 arg5 harg5 arg6 harg6 arg7 harg7 arg8 harg8 hc0 hc1 x0 x1 x2 xs7 xs8)]
  unfold runLast
  dsimp only
  sl_unfold_words
  rw [View.canon_unit_zero hz3, View.readCov_unit_zero (S := S1x5000) _ hz2]
  simp only [View.readAt_eq_ld, harg2.read_unread, harg3.read_unread, harg4.read_unread, harg7.read_unread, harg8.read_unread, View.ld_unit_zero (S := S200x256) hz2, View.ld_unit_zero (S := S200x5000) hz2, View.ld_unit_zero (S := S256x512) hz2, View.ld_unit_zero (S := S5000x512) hz2, View.ld_unit_zero (S := S1x5000) hz2]

end Cert.KernelIdeal.EdgeValue
end
-- ==== Proof.EdgeValuePay.lean ====
/-
  The edge-aggregation region, value side: the body's arithmetic read at an index, over the extended reals. The two
  products are sums over their one contracted axis (the second contracts the ROWS of both operands: Hᵀ·p), the degree
  update is a column sum, the format changes are the identity, and the copies into the output blocks only add a
  leading unit axis.
-/
import proofs.«115665_j11158325035087_2_alg».proof.Proof.EdgeValuePieces
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.EdgeValue

open Cert.KernelIdeal Cert.KernelIdeal.Gen Cert.KernelIdeal.Edge
open Idealize.ShloMosaic Idealize.ShloMosaic.TcCoe Idealize.ShloMosaic.Tactic
open Idealize.SL.Sem
open Idealize.ShloMosaic.Pipeline (Dat Cfg Window)

variable {F : FTy → Type} [FloatOps F]

open Idealize.ShloMosaic.ValueIdx

/-! ## The two products of the body, read at an index -/

theorem lhs1_0 (j : S200x512.Idx) (q : dot_S200x256_S256x512_S200x512_1_0_0_1_n_n.contr.Idx) : (dot_S200x256_S256x512_S200x512_1_0_0_1_n_n.lhsIdx j q 0).val = (j 0).val := by
  unfold DotDims.lhsIdx
  rw [dif_neg (show ¬(0 : Fin S200x256.rank) ∈ dot_S200x256_S256x512_S200x512_1_0_0_1_n_n.lhsBatch by decide), dif_pos (show (0 : Fin S200x256.rank) ∈ dot_S200x256_S256x512_S200x512_1_0_0_1_n_n.lhsNonContracting by decide)]
  rfl
theorem lhs1_1 (j : S200x512.Idx) (q : dot_S200x256_S256x512_S200x512_1_0_0_1_n_n.contr.Idx) : (dot_S200x256_S256x512_S200x512_1_0_0_1_n_n.lhsIdx j q 1).val = (q ⟨0, by decide⟩).val :=
  dot_S200x256_S256x512_S200x512_1_0_0_1_n_n.lhsIdx_val_of_single rfl j q
theorem rhs1_0 (j : S200x512.Idx) (q : dot_S200x256_S256x512_S200x512_1_0_0_1_n_n.contr.Idx) : (dot_S200x256_S256x512_S200x512_1_0_0_1_n_n.rhsIdx j q 0).val = (q ⟨0, by decide⟩).val :=
  dot_S200x256_S256x512_S200x512_1_0_0_1_n_n.rhsIdx_val_of_single rfl j q
theorem rhs1_1 (j : S200x512.Idx) (q : dot_S200x256_S256x512_S200x512_1_0_0_1_n_n.contr.Idx) : (dot_S200x256_S256x512_S200x512_1_0_0_1_n_n.rhsIdx j q 1).val = (j 1).val := by
  unfold DotDims.rhsIdx
  rw [dif_neg (show ¬(1 : Fin S256x512.rank) ∈ dot_S200x256_S256x512_S200x512_1_0_0_1_n_n.rhsBatch by decide), dif_pos (show (1 : Fin S256x512.rank) ∈ dot_S200x256_S256x512_S200x512_1_0_0_1_n_n.rhsNonContracting by decide)]
  rfl

/-- The tile's projection x·W_node into a zero accumulator: row r, column d is the sum over the 256 input features. -/
theorem mm1_apply (a : FVec Ideal S200x256 .bf16) (b : FVec Ideal S256x512 .bf16) (r : Fin 200) (d : Fin 512) :
    matmul dot_S200x256_S256x512_S200x512_1_0_0_1_n_n none a b (constant (F := Ideal) S200x512 .f32 0x00000000#32) (ix2 r d)
      = ∑ k : Fin 256, a (ix2 r k) * b (ix2 k d) := by
  refine (Ideal.matmul_constant_zero_apply dot_S200x256_S256x512_S200x512_1_0_0_1_n_n none a b (ix2 r d)).trans ?_
  rw [← Equiv.sum_comp (contrEquiv1 dot_S200x256_S256x512_S200x512_1_0_0_1_n_n 256 rfl rfl).symm]
  refine Finset.sum_congr rfl fun k _ => ?_
  have hk := contrEquiv1_symm_val dot_S200x256_S256x512_S200x512_1_0_0_1_n_n 256 rfl rfl k
  have el : dot_S200x256_S256x512_S200x512_1_0_0_1_n_n.lhsIdx (ix2 r d) ((contrEquiv1 dot_S200x256_S256x512_S200x512_1_0_0_1_n_n 256 rfl rfl).symm k) = ix2 r k := funext fun x => Fin.ext (by
    match x with
    | ⟨0, _⟩ => exact lhs1_0 _ _
    | ⟨1, _⟩ => exact (lhs1_1 _ _).trans hk)
  have er : dot_S200x256_S256x512_S200x512_1_0_0_1_n_n.rhsIdx (ix2 r d) ((contrEquiv1 dot_S200x256_S256x512_S200x512_1_0_0_1_n_n 256 rfl rfl).symm k) = ix2 k d := funext fun x => Fin.ext (by
    match x with
    | ⟨0, _⟩ => exact (rhs1_0 _ _).trans hk
    | ⟨1, _⟩ => exact rhs1_1 _ _)
  rw [el, er]

theorem lhs2_0 (j : S5000x512.Idx) (q : dot_S200x5000_S200x512_S5000x512_0_0_1_1_n_n.contr.Idx) : (dot_S200x5000_S200x512_S5000x512_0_0_1_1_n_n.lhsIdx j q 0).val = (q ⟨0, by decide⟩).val :=
  dot_S200x5000_S200x512_S5000x512_0_0_1_1_n_n.lhsIdx_val_of_single rfl j q
theorem lhs2_1 (j : S5000x512.Idx) (q : dot_S200x5000_S200x512_S5000x512_0_0_1_1_n_n.contr.Idx) : (dot_S200x5000_S200x512_S5000x512_0_0_1_1_n_n.lhsIdx j q 1).val = (j 0).val := by
  unfold DotDims.lhsIdx
  rw [dif_neg (show ¬(1 : Fin S200x5000.rank) ∈ dot_S200x5000_S200x512_S5000x512_0_0_1_1_n_n.lhsBatch by decide), dif_pos (show (1 : Fin S200x5000.rank) ∈ dot_S200x5000_S200x512_S5000x512_0_0_1_1_n_n.lhsNonContracting by decide)]
  rfl
theorem rhs2_0 (j : S5000x512.Idx) (q : dot_S200x5000_S200x512_S5000x512_0_0_1_1_n_n.contr.Idx) : (dot_S200x5000_S200x512_S5000x512_0_0_1_1_n_n.rhsIdx j q 0).val = (q ⟨0, by decide⟩).val :=
  dot_S200x5000_S200x512_S5000x512_0_0_1_1_n_n.rhsIdx_val_of_single rfl j q
theorem rhs2_1 (j : S5000x512.Idx) (q : dot_S200x5000_S200x512_S5000x512_0_0_1_1_n_n.contr.Idx) : (dot_S200x5000_S200x512_S5000x512_0_0_1_1_n_n.rhsIdx j q 1).val = (j 1).val := by
  unfold DotDims.rhsIdx
  rw [dif_neg (show ¬(1 : Fin S200x512.rank) ∈ dot_S200x5000_S200x512_S5000x512_0_0_1_1_n_n.rhsBatch by decide), dif_pos (show (1 : Fin S200x512.rank) ∈ dot_S200x5000_S200x512_S5000x512_0_0_1_1_n_n.rhsNonContracting by decide)]
  rfl

/-- The tile's aggregation Hᵀ·p into a zero accumulator: both operands are contracted along their ROWS, so
    hyperedge e, column d is the sum over the tile's 200 nodes of H[r, e]·p[r, d]. -/
theorem mm2_apply (a : FVec Ideal S200x5000 .bf16) (b : FVec Ideal S200x512 .bf16) (e : Fin 5000) (d : Fin 512) :
    matmul dot_S200x5000_S200x512_S5000x512_0_0_1_1_n_n none a b (constant (F := Ideal) S5000x512 .f32 0x00000000#32) (ix2 e d)
      = ∑ r : Fin 200, a (ix2 r e) * b (ix2 r d) := by
  refine (Ideal.matmul_constant_zero_apply dot_S200x5000_S200x512_S5000x512_0_0_1_1_n_n none a b (ix2 e d)).trans ?_
  rw [← Equiv.sum_comp (contrEquiv1 dot_S200x5000_S200x512_S5000x512_0_0_1_1_n_n 200 rfl rfl).symm]
  refine Finset.sum_congr rfl fun k _ => ?_
  have hk := contrEquiv1_symm_val dot_S200x5000_S200x512_S5000x512_0_0_1_1_n_n 200 rfl rfl k
  have el : dot_S200x5000_S200x512_S5000x512_0_0_1_1_n_n.lhsIdx (ix2 e d) ((contrEquiv1 dot_S200x5000_S200x512_S5000x512_0_0_1_1_n_n 200 rfl rfl).symm k) = ix2 k e := funext fun x => Fin.ext (by
    match x with
    | ⟨0, _⟩ => exact (lhs2_0 _ _).trans hk
    | ⟨1, _⟩ => exact lhs2_1 _ _)
  have er : dot_S200x5000_S200x512_S5000x512_0_0_1_1_n_n.rhsIdx (ix2 e d) ((contrEquiv1 dot_S200x5000_S200x512_S5000x512_0_0_1_1_n_n 200 rfl rfl).symm k) = ix2 k d := funext fun x => Fin.ext (by
    match x with
    | ⟨0, _⟩ => exact (rhs2_0 _ _).trans hk
    | ⟨1, _⟩ => exact rhs2_1 _ _)
  rw [el, er]

/-! ## The payloads at an index -/

/-- The accumulator update: what was there plus Hᵀ·(x·W_node) of this tile. -/
theorem pay4_apply (v3 : Vec Ideal S200x256 .f32) (v5 : Vec Ideal S256x512 .f32) (v9 : Vec Ideal S200x5000 .f32) (v18 : Vec Ideal S5000x512 .f32) (e : Fin 5000) (d : Fin 512) :
    k0_pay4 (F := Ideal) v3 v5 v9 v18 (ix2 e d)
      = v18 (ix2 e d) + ∑ r : Fin 200, v9 (ix2 r e) * ∑ k : Fin 256, v3 (ix2 r k) * v5 (ix2 k d) := by
  unfold k0_pay4
  refine (congrFun (shapeCast_self _ _) (ix2 e d)).trans ?_
  refine (congrArg (v18 (ix2 e d) + ·) (mm2_apply _ _ e d)).trans ?_
  refine congrArg (v18 (ix2 e d) + ·) (Finset.sum_congr rfl fun r _ => ?_)
  exact congrArg (v9 (ix2 r e) * ·) (mm1_apply _ _ r d)

/-- The degree update: what was there plus the tile's column sums of H. -/
theorem pay3_apply (v9 : Vec Ideal S200x5000 .f32) (v10 : Vec Ideal S1x5000 .f32) (u : Fin 1) (e : Fin 5000) :
    k0_pay3 (F := Ideal) v9 v10 (ix2 u e) = v10 (ix2 u e) + ∑ r : Fin 200, v9 (ix2 r e) := by
  unfold k0_pay3
  refine (congrFun (shapeCast_self _ _) (ix2 u e)).trans ?_
  refine congrArg (v10 (ix2 u e) + ·) ?_
  refine (shapeCast_a_1a_apply _ _ u e).trans ?_
  refine (Ideal.multiReduction_add_single (φ := .f32) v9 0x00000000#32 reduces_S200x5000_S5000 (.inl rfl) rfl (ix1 e)).trans ?_
  refine Finset.sum_congr rfl fun r _ => congrArg v9 ?_
  funext a
  match a with
  | ⟨0, _⟩ => rfl
  | ⟨1, _⟩ => rfl

/-- The cleared accumulators are zero everywhere. -/
theorem pay1_apply (j : S5000x512.Idx) : k0_pay1 (F := Ideal) j = 0 := by
  unfold k0_pay1
  refine (congrFun (shapeCast_self _ _) j).trans ?_
  exact Ideal.ofBits_zero_f32
theorem pay2_apply (j : S1x5000.Idx) : k0_pay2 (F := Ideal) j = 0 := by
  unfold k0_pay2
  refine (congrFun (shapeCast_self _ _) j).trans ?_
  exact Ideal.ofBits_zero_f32

/-- The copy into the first output block: the accumulator under a leading unit axis. -/
theorem pay5_apply (v27 : Vec Ideal S5000x512 .f32) (u : Fin 1) (e : Fin 5000) (d : Fin 512) :
    k0_pay5 (F := Ideal) v27 (ix3 u e d) = v27 (ix2 e d) := by
  unfold k0_pay5
  exact shapeCast_ab_1ab_apply _ _ u e d

/-- The copy into the second output block: the degree row under a leading unit axis. -/
theorem pay6_apply (v32 : Vec Ideal S1x5000 .f32) (u u' : Fin 1) (e : Fin 5000) :
    k0_pay6 (F := Ideal) v32 (ix3 u u' e) = v32 (ix2 u' e) := by
  unfold k0_pay6
  exact shapeCast_ab_1ab_apply _ _ u u' e

end Cert.KernelIdeal.EdgeValue
end
-- ==== Proof.EdgeValueStep.lean ====
/-
  The edge-aggregation region, value side: the tiles as rows of the whole arrays (the x and H tiles at point t are rows
  200·t … 200·t + 199, W_node's block is W_node), and the step equations — what the two accumulators and the two output
  blocks hold after a point as the body's arithmetic of that point's tiles and of what the point before left.
-/
import proofs.«115665_j11158325035087_2_alg».proof.Proof.EdgeValuePay
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.EdgeValue

open Cert.KernelIdeal Cert.KernelIdeal.Gen Cert.KernelIdeal.Edge
open Idealize.ShloMosaic Idealize.ShloMosaic.TcCoe Idealize.ShloMosaic.Tactic
open Idealize.SL.Sem
open Idealize.ShloMosaic.Pipeline (Dat Cfg Window)

variable {F : FTy → Type} [FloatOps F]

open Idealize.ShloMosaic.ValueIdx

variable (V : (c : Dev nD) → (b : Ref sig .tc) → Buf (Elt F) ((c : Thread nD τ).loc b))

/-! ## The tiles as rows of the whole arrays -/

/-- The row of the whole arrays that row r of the tile at grid position n is: a block's coordinate is the block
    index times the block's extent plus the coordinate inside the block. (Reduced modulo the extent so that it is
    a row for every n; at a position of the grid nothing is reduced.) -/
def row (n : ℕ) (r : Fin 200) : Fin 20000 := ⟨(n * 200 + r.val) % 20000, Nat.mod_lt _ (by decide)⟩

theorem row_val (n : ℕ) (hn : n < 100) (r : Fin 200) : (row n r).val = n * 200 + r.val := by
  unfold row; show (n * 200 + r.val) % 20000 = _; have := r.isLt; omega

/-- The block index of each window at a point of the grid: the two tiled inputs move with the point, W_node
    stays, the two outputs move with the core. -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 3) = t.val / 50 ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val / 50 ∧ win0_4.index t (1 : Fin 3) = 0 ∧ win0_4.index t (2 : Fin 3) = 0 :=
  (by decide +kernel : ∀ t : Fin grid0.N, _)

/-- The x tile at point t is rows 200·t … 200·t + 199 of x. -/
theorem iblk0_apply (c : Dev nD) (t : Fin cfg0.N) (r : Fin 200) (k : Fin 256) :
    (iblk V c 0 t : Vec F S200x256 .f32) (ix2 r k) = (V c main_arg0 : S20000x256.Idx → Elt F .f32) (ix2 (row t.val r) k) := by
  have hN : cfg0.N = 100 := N_0
  unfold iblk
  rw [View.read_apply]
  show V c main_arg0 _ = V c main_arg0 _
  congr 1
  funext a
  apply Fin.ext
  match a with
  | ⟨0, _⟩ => show win0_0.index t 0 * 200 + 1 * r.val = (t.val * 200 + r.val) % 20000; rw [(idx_0 t).1]; have := t.isLt; have := r.isLt; omega
  | ⟨1, _⟩ => show win0_0.index t 1 * 256 + 1 * k.val = k.val; rw [(idx_0 t).2]; omega

/-- The H tile at point t is rows 200·t … 200·t + 199 of H. -/
theorem iblk1_apply (c : Dev nD) (t : Fin cfg0.N) (r : Fin 200) (e : Fin 5000) :
    (iblk V c 1 t : Vec F S200x5000 .f32) (ix2 r e) = (V c main_arg1 : S20000x5000.Idx → Elt F .f32) (ix2 (row t.val r) e) := by
  have hN : cfg0.N = 100 := N_0
  unfold iblk
  rw [View.read_apply]
  show V c main_arg1 _ = V c main_arg1 _
  congr 1
  funext a
  apply Fin.ext
  match a with
  | ⟨0, _⟩ => show win0_1.index t 0 * 200 + 1 * r.val = (t.val * 200 + r.val) % 20000; rw [(idx_1 t).1]; have := t.isLt; have := r.isLt; omega
  | ⟨1, _⟩ => show win0_1.index t 1 * 5000 + 1 * e.val = e.val; rw [(idx_1 t).2]; omega

/-- W_node's one block is W_node. -/
theorem iblk2_apply (c : Dev nD) (t : Fin cfg0.N) (k : Fin 256) (d : Fin 512) :
    (iblk V c 2 t : Vec F S256x512 .f32) (ix2 k d) = (V c main_arg2 : S256x512.Idx → Elt F .f32) (ix2 k d) := by
  unfold iblk
  rw [View.read_apply]
  show V c main_arg2 _ = V c main_arg2 _
  congr 1
  funext a
  apply Fin.ext
  match a with
  | ⟨0, _⟩ => show win0_2.index t 0 * 256 + 1 * k.val = k.val; rw [(idx_2 t).1]; omega
  | ⟨1, _⟩ => show win0_2.index t 1 * 512 + 1 * d.val = d.val; rw [(idx_2 t).2]; omega

/-! ## The step equations: what the accumulators and the output blocks hold after a point, as the body's arithmetic
    of that point's tiles and of what the point before left -/

/-- After a core's first step the accumulator is the update of the cleared one. -/
theorem acc_first (c : Dev nD) (t : Fin cfg0.N) (h0 : t.val % 50 = 0) :
    (outsAt V c t.val t.isLt).2.2.1 = k0_pay4 (iblk V c 0 t) (iblk V c 2 t) (iblk V c 1 t) k0_pay1 := by
  have h1 : ¬t.val % 50 = 49 := by omega
  rw [outsAt_first V c t h0 h1]
  dsimp only
  exact accF_eq c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)

/-- After a core's first step the degree row is the update of the cleared one. -/
theorem deg_first (c : Dev nD) (t : Fin cfg0.N) (h0 : t.val % 50 = 0) :
    (outsAt V c t.val t.isLt).2.2.2 = k0_pay3 (iblk V c 1 t) k0_pay2 := by
  have h1 : ¬t.val % 50 = 49 := by omega
  rw [outsAt_first V c t h0 h1]
  dsimp only
  exact degF_eq c (grid0.coords t) (ms0 t) (hs0 t) (ms1 t) (hs1 t) (ms2 t) (hs2 t) (ms3 t) (hs3 t) (ms4 t) (hs4 t) accM (Memref.isWhole_whole _) degM (Memref.isWhole_whole _) ((hcondFirst t).mpr h0) (fun h => h1 ((hcondLast t).mp h)) (iblk V c 0 t) (iblk V c 1 t) (iblk V c 2 t)

/-- After any other step the accumulator is the update of what the step before left. -/
theorem acc_step (c : Dev nD) (t : Fin cfg0.N) (h0 : ¬t.val % 50 = 0) :
    (outsAt V c t.val t.isLt).2.2.1 = k0_pay4 (iblk V c 0 t) (iblk V c 2 t) (iblk V c 1 t) (outsAt V c (t.val - 1) (Nat.lt_of_le_of_lt (Nat.sub_le _ _) t.isLt)).2.2.1 := by
  by_cases h1 : t.val % 50 = 49
  · rw [outsAt_last V c t h0 h1]
    dsimp only
    exact accL_eq c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2
  · rw [outsAt_mid V c t h0 h1]
    dsimp only
    exact accM_eq c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2

/-- After any other step the degree row is the update of what the step before left. -/
theorem deg_step (c : Dev nD) (t : Fin cfg0.N) (h0 : ¬t.val % 50 = 0) :
    (outsAt V c t.val t.isLt).2.2.2 = k0_pay3 (iblk V c 1 t) (outsAt V c (t.val - 1) (Nat.lt_of_le_of_lt (Nat.sub_le _ _) t.isLt)).2.2.2 := by
  by_cases h1 : t.val % 50 = 49
  · rw [outsAt_last V c t h0 h1]
    dsimp only
    exact degL_eq c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2
  · rw [outsAt_mid V c t h0 h1]
    dsimp only
    exact degM_eq c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2

/-- At a core's last step the first output block is the accumulator just updated, under a leading unit axis. -/
theorem o3_last (c : Dev nD) (t : Fin cfg0.N) (h1 : t.val % 50 = 49) :
    (outsAt V c t.val t.isLt).1 = k0_pay5 (outsAt V c t.val t.isLt).2.2.1 := by
  have h0 : ¬t.val % 50 = 0 := by omega
  refine Eq.trans ?_ (congrArg k0_pay5 (acc_step V c t h0).symm)
  rw [outsAt_last V c t h0 h1]
  dsimp only
  exact o3L_eq c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2

/-- At a core's last step the second output block is the degree row just updated, under a leading unit axis. -/
theorem o4_last (c : Dev nD) (t : Fin cfg0.N) (h1 : t.val % 50 = 49) :
    (outsAt V c t.val t.isLt).2.1 = k0_pay6 (outsAt V c t.val t.isLt).2.2.2 := by
  have h0 : ¬t.val % 50 = 0 := by omega
  refine Eq.trans ?_ (congrArg k0_pay6 (deg_step V c t h0).symm)
  rw [outsAt_last V c t h0 h1]
  dsimp only
  exact o4L_eq c (grid0.coords t) (ms0 t) (hs0 t) (ms1 t) (hs1 t) (ms2 t) (hs2 t) (ms3 t) (hs3 t) (ms4 t) (hs4 t) accM (Memref.isWhole_whole _) degM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2

end Cert.KernelIdeal.EdgeValue
end
-- ==== Proof.EdgeValueFinal.lean ====
/-
  The edge-aggregation region, value side, last step: from the blocks to the arrays. The two output windows are written
  back at a core's last point only (points 49 and 99), and the block written at such a point is the slab of the core:
  `[t / 50, :, :]`. What is written is the accumulator (the degree row) under a leading unit axis; given that at a
  core's last point the accumulator holds the core's partial sums over its 50 blocks of 200 rows — the accumulation
  invariant, taken here as a hypothesis — the two slabs fill the arrays with the partial sums and partial degrees of
  the joining algebra.
-/
import proofs.«115665_j11158325035087_2_alg».proof.Proof.EdgeValueStep
import proofs.«115665_j11158325035087_2_alg».proof.Proof.JoinAlgebra
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.EdgeValue

open Cert.KernelIdeal Cert.KernelIdeal.Gen Cert.KernelIdeal.Edge
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-- A point's core: the 100 points are two cores' 50 each. -/
theorem half_lt (t : Fin cfg0.N) : t.val / 50 < 2 := by
  have hN : cfg0.N = 100 := N_0
  have := t.isLt
  omega

/-- The partial hyperedge sums of the arrays the region reads. -/
abbrev PE (c : Dev nD) : S2x5000x512.Idx → EReal :=
  Cert.Join.partialEdge (V c main_arg0 : S20000x256.Idx → EReal) (V c main_arg1 : S20000x5000.Idx → EReal)
    (V c main_arg2 : S256x512.Idx → EReal)

/-- The partial degrees of the incidence matrix the region reads. -/
abbrev PD (c : Dev nD) : S2x1x5000.Idx → EReal :=
  Cert.Join.partialDeg (V c main_arg1 : S20000x5000.Idx → EReal)

/-! ## Window 3: the partial hyperedge sums -/

/-- What a core's last point writes back is the core's slab of the partial sums. -/
theorem flushed3_eq (c : Dev nD)
    (hacc : ∀ (t : Fin cfg0.N) (h1 : t.val % 50 = 49) (e : Fin 5000) (d : Fin 512),
      (outsAt V c t.val t.isLt).2.2.1 (ix2 e d) = PE V c (ix3 (⟨t.val / 50, half_lt t⟩ : Fin 2) e d))
    (t : Fin cfg0.N) (h1 : t.val % 50 = 49) :
    (Edge.dat V c).flushed 3 t = ((cfg0.win 3).blk t).view.read (Elt Ideal) (PE V c) := by
  obtain ⟨i0, i1, i2⟩ := idx_3 t
  show (cfg0.win 3).cut (grid0.coords t) ((Edge.dat V c).after 3 t) = _
  rw [Edge.after_3, o3_last V c t h1]
  funext j
  obtain ⟨u, e, d, rfl⟩ : ∃ (u : Fin 1) (e : Fin 5000) (d : Fin 512), j = ix3 u e d := ⟨j 0, j 1, j 2, eq_ix3 j⟩
  rw [View.read_apply]
  have hemb : ((cfg0.win 3).blk t).view.emb (ix3 u e d) = (ix3 (⟨t.val / 50, half_lt t⟩ : Fin 2) e d : S2x5000x512.Idx) := by
    funext a
    apply Fin.ext
    match a with
    | ⟨0, _⟩ => show win0_3.index t (0 : Fin 3) * 1 + 1 * u.val = t.val / 50; rw [i0]; omega
    | ⟨1, _⟩ => show win0_3.index t (1 : Fin 3) * 5000 + 1 * e.val = e.val; rw [i1]; omega
    | ⟨2, _⟩ => show win0_3.index t (2 : Fin 3) * 512 + 1 * d.val = d.val; rw [i2]; omega
  rw [hemb]
  show k0_pay5 (F := Ideal) (outsAt V c t.val t.isLt).2.2.1 (ix3 u e d) = _
  rw [pay5_apply]
  exact hacc t h1 e d

/-- An index of the array is in point `t`'s block iff each coordinate is in the block's range on its axis. -/
theorem mem_blk3 (t : Fin cfg0.N) (i : S2x5000x512.Idx) :
    i ∈ ((cfg0.win 3).blk t).view.set ↔ ∀ a : Fin 3, win0_3.index t a * S1x5000x512.size a ≤ (i a).val ∧ (i a).val < win0_3.index t a * S1x5000x512.size a + S1x5000x512.size a := by
  show i ∈ ((View.whole main_v2_0).slice (win0_3.rect t)).set ↔ _
  rw [View.set_slice_whole, Rect.mem_set_unit]
  exact Iff.rfl

/-- Every index is in the slab its first coordinate names, and that core's last point writes the slab back. -/
theorem cover3 (i : S2x5000x512.Idx) : ∃ t : Fin cfg0.N, (cfg0.win 3).flush t = true ∧ i ∈ ((cfg0.win 3).blk t).view.set := by
  have hN : cfg0.N = 100 := N_0
  have hi0 : (i 0).val < 2 := (i 0).isLt
  have hi1 : (i 1).val < 5000 := (i 1).isLt
  have hi2 : (i 2).val < 512 := (i 2).isLt
  have hq : 50 * (i 0).val + 49 < cfg0.N := by rw [hN]; omega
  obtain ⟨h0, h1, h2⟩ := idx_3 ⟨50 * (i 0).val + 49, hq⟩
  refine ⟨⟨50 * (i 0).val + 49, hq⟩, (flush0_3 _).mpr (by show (50 * (i 0).val + 49) % 50 = 49; omega), ?_⟩
  rw [mem_blk3]
  intro a
  match a with
  | ⟨0, _⟩ =>
    show win0_3.index ⟨50 * (i 0).val + 49, hq⟩ (0 : Fin 3) * 1 ≤ (i 0).val ∧ (i 0).val < win0_3.index ⟨50 * (i 0).val + 49, hq⟩ (0 : Fin 3) * 1 + 1
    rw [h0]; show (50 * (i 0).val + 49) / 50 * 1 ≤ (i 0).val ∧ (i 0).val < (50 * (i 0).val + 49) / 50 * 1 + 1; omega
  | ⟨1, _⟩ =>
    show win0_3.index ⟨50 * (i 0).val + 49, hq⟩ (1 : Fin 3) * 5000 ≤ (i 1).val ∧ (i 1).val < win0_3.index ⟨50 * (i 0).val + 49, hq⟩ (1 : Fin 3) * 5000 + 5000
    rw [h1]; omega
  | ⟨2, _⟩ =>
    show win0_3.index ⟨50 * (i 0).val + 49, hq⟩ (2 : Fin 3) * 512 ≤ (i 2).val ∧ (i 2).val < win0_3.index ⟨50 * (i 0).val + 49, hq⟩ (2 : Fin 3) * 512 + 512
    rw [h2]; omega

/-- The first output array after the region: the partial hyperedge sums. -/
theorem final3_of (c : Dev nD)
    (hacc : ∀ (t : Fin cfg0.N) (h1 : t.val % 50 = 49) (e : Fin 5000) (d : Fin 512),
      (outsAt V c t.val t.isLt).2.2.1 (ix2 e d) = PE V c (ix3 (⟨t.val / 50, half_lt t⟩ : Fin 2) e d)) :
    (Edge.dat V c).arrAt 3 cfg0.N = PE V c :=
  (Edge.dat V c).arrAt_eq_of_cover 3 (PE V c) (fun t hf => flushed3_eq V c hacc t ((flush0_3 t).mp hf)) cover3

/-! ## Window 4: the partial degrees -/

/-- What a core's last point writes back is the core's row of the partial degrees. -/
theorem flushed4_eq (c : Dev nD)
    (hdeg : ∀ (t : Fin cfg0.N) (h1 : t.val % 50 = 49) (e : Fin 5000),
      (outsAt V c t.val t.isLt).2.2.2 (ix2 (0 : Fin 1) e) = PD V c (ix3 (⟨t.val / 50, half_lt t⟩ : Fin 2) (0 : Fin 1) e))
    (t : Fin cfg0.N) (h1 : t.val % 50 = 49) :
    (Edge.dat V c).flushed 4 t = ((cfg0.win 4).blk t).view.read (Elt Ideal) (PD V c) := by
  obtain ⟨i0, i1, i2⟩ := idx_4 t
  show (cfg0.win 4).cut (grid0.coords t) ((Edge.dat V c).after 4 t) = _
  rw [Edge.after_4, o4_last V c t h1]
  funext j
  obtain ⟨u, u', e, rfl⟩ : ∃ (u : Fin 1) (u' : Fin 1) (e : Fin 5000), j = ix3 u u' e := ⟨j 0, j 1, j 2, eq_ix3 j⟩
  obtain rfl : u' = 0 := Subsingleton.elim _ _
  rw [View.read_apply]
  have hemb : ((cfg0.win 4).blk t).view.emb (ix3 u (0 : Fin 1) e) = (ix3 (⟨t.val / 50, half_lt t⟩ : Fin 2) (0 : Fin 1) e : S2x1x5000.Idx) := by
    funext a
    apply Fin.ext
    match a with
    | ⟨0, _⟩ => show win0_4.index t (0 : Fin 3) * 1 + 1 * u.val = t.val / 50; rw [i0]; omega
    | ⟨1, _⟩ => show win0_4.index t (1 : Fin 3) * 1 + 1 * (0 : Fin 1).val = 0; rw [i1]; rfl
    | ⟨2, _⟩ => show win0_4.index t (2 : Fin 3) * 5000 + 1 * e.val = e.val; rw [i2]; omega
  rw [hemb]
  show k0_pay6 (F := Ideal) (outsAt V c t.val t.isLt).2.2.2 (ix3 u (0 : Fin 1) e) = _
  rw [pay6_apply]
  exact hdeg t h1 e

theorem mem_blk4 (t : Fin cfg0.N) (i : S2x1x5000.Idx) :
    i ∈ ((cfg0.win 4).blk t).view.set ↔ ∀ a : Fin 3, win0_4.index t a * S1x1x5000.size a ≤ (i a).val ∧ (i a).val < win0_4.index t a * S1x1x5000.size a + S1x1x5000.size a := by
  show i ∈ ((View.whole main_v2_1).slice (win0_4.rect t)).set ↔ _
  rw [View.set_slice_whole, Rect.mem_set_unit]
  exact Iff.rfl

theorem cover4 (i : S2x1x5000.Idx) : ∃ t : Fin cfg0.N, (cfg0.win 4).flush t = true ∧ i ∈ ((cfg0.win 4).blk t).view.set := by
  have hN : cfg0.N = 100 := N_0
  have hi0 : (i 0).val < 2 := (i 0).isLt
  have hi1 : (i 1).val < 1 := (i 1).isLt
  have hi2 : (i 2).val < 5000 := (i 2).isLt
  have hq : 50 * (i 0).val + 49 < cfg0.N := by rw [hN]; omega
  obtain ⟨h0, h1, h2⟩ := idx_4 ⟨50 * (i 0).val + 49, hq⟩
  refine ⟨⟨50 * (i 0).val + 49, hq⟩, (flush0_4 _).mpr (by show (50 * (i 0).val + 49) % 50 = 49; omega), ?_⟩
  rw [mem_blk4]
  intro a
  match a with
  | ⟨0, _⟩ =>
    show win0_4.index ⟨50 * (i 0).val + 49, hq⟩ (0 : Fin 3) * 1 ≤ (i 0).val ∧ (i 0).val < win0_4.index ⟨50 * (i 0).val + 49, hq⟩ (0 : Fin 3) * 1 + 1
    rw [h0]; show (50 * (i 0).val + 49) / 50 * 1 ≤ (i 0).val ∧ (i 0).val < (50 * (i 0).val + 49) / 50 * 1 + 1; omega
  | ⟨1, _⟩ =>
    show win0_4.index ⟨50 * (i 0).val + 49, hq⟩ (1 : Fin 3) * 1 ≤ (i 1).val ∧ (i 1).val < win0_4.index ⟨50 * (i 0).val + 49, hq⟩ (1 : Fin 3) * 1 + 1
    rw [h1]; omega
  | ⟨2, _⟩ =>
    show win0_4.index ⟨50 * (i 0).val + 49, hq⟩ (2 : Fin 3) * 5000 ≤ (i 2).val ∧ (i 2).val < win0_4.index ⟨50 * (i 0).val + 49, hq⟩ (2 : Fin 3) * 5000 + 5000
    rw [h2]; omega

/-- The second output array after the region: the partial degrees. -/
theorem final4_of (c : Dev nD)
    (hdeg : ∀ (t : Fin cfg0.N) (h1 : t.val % 50 = 49) (e : Fin 5000),
      (outsAt V c t.val t.isLt).2.2.2 (ix2 (0 : Fin 1) e) = PD V c (ix3 (⟨t.val / 50, half_lt t⟩ : Fin 2) (0 : Fin 1) e)) :
    (Edge.dat V c).arrAt 4 cfg0.N = PD V c :=
  (Edge.dat V c).arrAt_eq_of_cover 4 (PD V c) (fun t hf => flushed4_eq V c hdeg t ((flush0_4 t).mp hf)) cover4

end Cert.KernelIdeal.EdgeValue
end
-- ==== Proof.EdgeValueAcc.lean ====
/-
  The edge-aggregation region, value side: the invariant of the two accumulators over the grid's points. One tile adds,
  at hyperedge e and column d, the sum over its 200 nodes of H[node, e] · (x·W_node)[node, d] to the first and the sum
  of H[node, e] to the second; a core's first step starts both from zero; so after position n they hold the sums of
  those contributions over this core's tiles up to this one, positions 50·(n / 50) … n. Proved by induction on the
  position; only the re-association of a finite sum one term at a time is used.
-/
import proofs.«115665_j11158325035087_2_alg».proof.Proof.EdgeValueStep
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.EdgeValue

open Cert.KernelIdeal Cert.KernelIdeal.Gen Cert.KernelIdeal.Edge
open Idealize.ShloMosaic Idealize.ShloMosaic.TcCoe Idealize.ShloMosaic.Tactic
open Idealize.SL.Sem
open Idealize.ShloMosaic.Pipeline (Dat Cfg Window)

variable {F : FTy → Type} [FloatOps F]

open Idealize.ShloMosaic.ValueIdx

/-! ## One tile's contribution -/

/-- What the tile at grid position n adds to the accumulator at hyperedge e, column d: the sum over the tile's 200
    nodes of H[node, e] · (x·W_node)[node, d]. -/
def tileAcc (X : S20000x256.Idx → EReal) (Hm : S20000x5000.Idx → EReal) (Wn : S256x512.Idx → EReal) (n : ℕ) (e : Fin 5000) (d : Fin 512) : EReal :=
  ∑ r : Fin 200, Hm (ix2 (row n r) e) * ∑ k : Fin 256, X (ix2 (row n r) k) * Wn (ix2 k d)

/-- What the tile at grid position n adds to the degree of hyperedge e: the sum over the tile's nodes of H[node, e]. -/
def tileDeg (Hm : S20000x5000.Idx → EReal) (n : ℕ) (e : Fin 5000) : EReal :=
  ∑ r : Fin 200, Hm (ix2 (row n r) e)

/-- The accumulator update, with the three tiles read as rows of the whole arrays. -/
theorem acc_upd (X : S20000x256.Idx → EReal) (Hm : S20000x5000.Idx → EReal) (Wn : S256x512.Idx → EReal) (n : ℕ)
    (x0 : Vec Ideal S200x256 .f32) (x1 : Vec Ideal S200x5000 .f32) (x2 : Vec Ideal S256x512 .f32) (xs7 : Vec Ideal S5000x512 .f32)
    (h0 : ∀ (r : Fin 200) (k : Fin 256), x0 (ix2 r k) = X (ix2 (row n r) k))
    (h1 : ∀ (r : Fin 200) (e : Fin 5000), x1 (ix2 r e) = Hm (ix2 (row n r) e))
    (h2 : ∀ (k : Fin 256) (d : Fin 512), x2 (ix2 k d) = Wn (ix2 k d)) (e : Fin 5000) (d : Fin 512) :
    k0_pay4 (F := Ideal) x0 x2 x1 xs7 (ix2 e d) = xs7 (ix2 e d) + tileAcc X Hm Wn n e d := by
  refine (pay4_apply x0 x2 x1 xs7 e d).trans (congrArg (xs7 (ix2 e d) + ·) (Finset.sum_congr rfl fun r _ => ?_))
  rw [h1 r e]
  exact congrArg (Hm (ix2 (row n r) e) * ·) (Finset.sum_congr rfl fun k _ => by rw [h0 r k, h2 k d])

/-- The degree update, with the H tile read as rows of H. -/
theorem deg_upd (Hm : S20000x5000.Idx → EReal) (n : ℕ) (x1 : Vec Ideal S200x5000 .f32) (xs8 : Vec Ideal S1x5000 .f32)
    (h1 : ∀ (r : Fin 200) (e : Fin 5000), x1 (ix2 r e) = Hm (ix2 (row n r) e)) (u : Fin 1) (e : Fin 5000) :
    k0_pay3 (F := Ideal) x1 xs8 (ix2 u e) = xs8 (ix2 u e) + tileDeg Hm n e := by
  refine (pay3_apply x1 xs8 u e).trans (congrArg (xs8 (ix2 u e) + ·) (Finset.sum_congr rfl fun r _ => ?_))
  exact h1 r e

variable (V : (c : Dev nD) → (b : Ref sig .tc) → Buf (Elt Ideal) ((c : Thread nD τ).loc b))

/-! ## The accumulators after a point -/

theorem acc_at_first (c : Dev nD) (t : Fin cfg0.N) (h0 : t.val % 50 = 0) (e : Fin 5000) (d : Fin 512) :
    ((outsAt V c t.val t.isLt).2.2.1 : S5000x512.Idx → EReal) (ix2 e d) = tileAcc (V c main_arg0) (V c main_arg1) (V c main_arg2) t.val e d := by
  refine (congrFun (acc_first V c t h0) (ix2 e d)).trans ?_
  refine (acc_upd (V c main_arg0) (V c main_arg1) (V c main_arg2) t.val (iblk V c 0 t) (iblk V c 1 t) (iblk V c 2 t) (k0_pay1 (F := Ideal))
    (iblk0_apply V c t) (iblk1_apply V c t) (iblk2_apply V c t) e d).trans ?_
  rw [pay1_apply, zero_add]

theorem acc_at_step (c : Dev nD) (t : Fin cfg0.N) (h0 : ¬t.val % 50 = 0) (e : Fin 5000) (d : Fin 512) :
    ((outsAt V c t.val t.isLt).2.2.1 : S5000x512.Idx → EReal) (ix2 e d)
      = ((outsAt V c (t.val - 1) (Nat.lt_of_le_of_lt (Nat.sub_le _ _) t.isLt)).2.2.1 : S5000x512.Idx → EReal) (ix2 e d)
        + tileAcc (V c main_arg0) (V c main_arg1) (V c main_arg2) t.val e d := by
  refine (congrFun (acc_step V c t h0) (ix2 e d)).trans ?_
  exact acc_upd (V c main_arg0) (V c main_arg1) (V c main_arg2) t.val (iblk V c 0 t) (iblk V c 1 t) (iblk V c 2 t)
    (outsAt V c (t.val - 1) (Nat.lt_of_le_of_lt (Nat.sub_le _ _) t.isLt)).2.2.1
    (iblk0_apply V c t) (iblk1_apply V c t) (iblk2_apply V c t) e d

/-- THE INVARIANT of the accumulator: after position n it holds, at (e, d), the contributions of this core's tiles
    up to this one — positions 50·(n / 50) … n. -/
theorem acc_inv (c : Dev nD) : ∀ (n : ℕ) (hn : n < cfg0.N) (e : Fin 5000) (d : Fin 512),
    ((outsAt V c n hn).2.2.1 : S5000x512.Idx → EReal) (ix2 e d)
      = ∑ s ∈ Finset.range (n % 50 + 1), tileAcc (V c main_arg0) (V c main_arg1) (V c main_arg2) (n / 50 * 50 + s) e d := by
  intro n
  induction n with
  | zero =>
    intro hn e d
    refine (acc_at_first V c ⟨0, hn⟩ rfl e d).trans ?_
    show tileAcc _ _ _ 0 e d = _
    rw [show 0 % 50 + 1 = 1 from rfl, Finset.sum_range_one]
  | succ n ih =>
    intro hn e d
    by_cases h0 : (n + 1) % 50 = 0
    · refine (acc_at_first V c ⟨n + 1, hn⟩ h0 e d).trans ?_
      show tileAcc _ _ _ (n + 1) e d = _
      have e1 : (n + 1) % 50 + 1 = 1 := by omega
      have e2 : (n + 1) / 50 * 50 = n + 1 := by omega
      rw [e1, e2, Finset.sum_range_one, Nat.add_zero]
    · refine (acc_at_step V c ⟨n + 1, hn⟩ h0 e d).trans ?_
      show ((outsAt V c n _).2.2.1 : S5000x512.Idx → EReal) (ix2 e d) + tileAcc _ _ _ (n + 1) e d = _
      rw [ih (Nat.lt_of_succ_lt hn) e d]
      have e1 : (n + 1) % 50 + 1 = (n % 50 + 1) + 1 := by omega
      have e2 : (n + 1) / 50 = n / 50 := by omega
      have e3 : n / 50 * 50 + (n % 50 + 1) = n + 1 := by omega
      rw [e1, e2, Finset.sum_range_succ _ (n % 50 + 1), e3]

theorem deg_at_first (c : Dev nD) (t : Fin cfg0.N) (h0 : t.val % 50 = 0) (u : Fin 1) (e : Fin 5000) :
    ((outsAt V c t.val t.isLt).2.2.2 : S1x5000.Idx → EReal) (ix2 u e) = tileDeg (V c main_arg1) t.val e := by
  refine (congrFun (deg_first V c t h0) (ix2 u e)).trans ?_
  refine (deg_upd (V c main_arg1) t.val (iblk V c 1 t) (k0_pay2 (F := Ideal)) (iblk1_apply V c t) u e).trans ?_
  rw [pay2_apply, zero_add]

theorem deg_at_step (c : Dev nD) (t : Fin cfg0.N) (h0 : ¬t.val % 50 = 0) (u : Fin 1) (e : Fin 5000) :
    ((outsAt V c t.val t.isLt).2.2.2 : S1x5000.Idx → EReal) (ix2 u e)
      = ((outsAt V c (t.val - 1) (Nat.lt_of_le_of_lt (Nat.sub_le _ _) t.isLt)).2.2.2 : S1x5000.Idx → EReal) (ix2 u e)
        + tileDeg (V c main_arg1) t.val e := by
  refine (congrFun (deg_step V c t h0) (ix2 u e)).trans ?_
  exact deg_upd (V c main_arg1) t.val (iblk V c 1 t)
    (outsAt V c (t.val - 1) (Nat.lt_of_le_of_lt (Nat.sub_le _ _) t.isLt)).2.2.2 (iblk1_apply V c t) u e

/-- THE INVARIANT of the degree row: after position n it holds, at e, the column sums of this core's H tiles up
    to this one. -/
theorem deg_inv (c : Dev nD) : ∀ (n : ℕ) (hn : n < cfg0.N) (u : Fin 1) (e : Fin 5000),
    ((outsAt V c n hn).2.2.2 : S1x5000.Idx → EReal) (ix2 u e)
      = ∑ s ∈ Finset.range (n % 50 + 1), tileDeg (V c main_arg1) (n / 50 * 50 + s) e := by
  intro n
  induction n with
  | zero =>
    intro hn u e
    refine (deg_at_first V c ⟨0, hn⟩ rfl u e).trans ?_
    show tileDeg _ 0 e = _
    rw [show 0 % 50 + 1 = 1 from rfl, Finset.sum_range_one]
  | succ n ih =>
    intro hn u e
    by_cases h0 : (n + 1) % 50 = 0
    · refine (deg_at_first V c ⟨n + 1, hn⟩ h0 u e).trans ?_
      show tileDeg _ (n + 1) e = _
      have e1 : (n + 1) % 50 + 1 = 1 := by omega
      have e2 : (n + 1) / 50 * 50 = n + 1 := by omega
      rw [e1, e2, Finset.sum_range_one, Nat.add_zero]
    · refine (deg_at_step V c ⟨n + 1, hn⟩ h0 u e).trans ?_
      show ((outsAt V c n _).2.2.2 : S1x5000.Idx → EReal) (ix2 u e) + tileDeg _ (n + 1) e = _
      rw [ih (Nat.lt_of_succ_lt hn) u e]
      have e1 : (n + 1) % 50 + 1 = (n % 50 + 1) + 1 := by omega
      have e2 : (n + 1) / 50 = n / 50 := by omega
      have e3 : n / 50 * 50 + (n % 50 + 1) = n + 1 := by omega
      rw [e1, e2, Finset.sum_range_succ _ (n % 50 + 1), e3]

end Cert.KernelIdeal.EdgeValue
end
-- ==== Proof.EdgeValueLast.lean ====
/-
  The edge-aggregation region, value side: at a core's last step the two accumulators hold that half's partial sums. The
  invariant gives the sum over the core's fifty tiles of each tile's contribution; a tile's row r is node
  (50·core + tile)·200 + r, so that sum is the half's partial hyperedge sum (resp. partial degree) as the join of
  the two calls states it.
-/
import proofs.«115665_j11158325035087_2_alg».proof.Proof.JoinAlgebra
import proofs.«115665_j11158325035087_2_alg».proof.Proof.EdgeValueAcc
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.EdgeValue

open Cert.KernelIdeal Cert.KernelIdeal.Gen Cert.KernelIdeal.Edge
open Idealize.ShloMosaic Idealize.ShloMosaic.TcCoe Idealize.ShloMosaic.Tactic
open Idealize.SL.Sem
open Idealize.ShloMosaic.Pipeline (Dat Cfg Window)

variable {F : FTy → Type} [FloatOps F]

open Idealize.ShloMosaic.ValueIdx

/-- A tile's contributions with its rows written as nodes: row r of tile i of half p is node (50·p + i)·200 + r. -/
theorem row_node (p : Fin 2) (i : Fin 50) (r : Fin 200) :
    row (p.val * 50 + i.val) r = (⟨(p.val * 50 + i.val) * 200 + r.val, Cert.Join.node_lt p i r⟩ : Fin 20000) :=
  Fin.ext (row_val _ (by have := p.isLt; have := i.isLt; omega) r)

theorem tileAcc_node (X : S20000x256.Idx → EReal) (Hm : S20000x5000.Idx → EReal) (Wn : S256x512.Idx → EReal)
    (p : Fin 2) (i : Fin 50) (e : Fin 5000) (d : Fin 512) :
    tileAcc X Hm Wn (p.val * 50 + i.val) e d
      = ∑ r : Fin 200, Hm (ix2 (⟨(p.val * 50 + i.val) * 200 + r.val, Cert.Join.node_lt p i r⟩ : Fin 20000) e) * (∑ k : Fin 256, X (ix2 (⟨(p.val * 50 + i.val) * 200 + r.val, Cert.Join.node_lt p i r⟩ : Fin 20000) k) * Wn (ix2 k d)) := by
  unfold tileAcc
  refine Finset.sum_congr rfl fun r _ => ?_
  rw [row_node p i r]

theorem tileDeg_node (Hm : S20000x5000.Idx → EReal) (p : Fin 2) (i : Fin 50) (e : Fin 5000) :
    tileDeg Hm (p.val * 50 + i.val) e = ∑ r : Fin 200, Hm (ix2 (⟨(p.val * 50 + i.val) * 200 + r.val, Cert.Join.node_lt p i r⟩ : Fin 20000) e) := by
  unfold tileDeg
  refine Finset.sum_congr rfl fun r _ => ?_
  rw [row_node p i r]

variable (V : (c : Dev nD) → (b : Ref sig .tc) → Buf (Elt Ideal) ((c : Thread nD τ).loc b))

/-- The grid's two halves: a point's core. -/
theorem core_lt (t : Fin cfg0.N) : t.val / 50 < 2 := by
  have hN : cfg0.N = 100 := N_0
  have := t.isLt
  omega

/-- AT A CORE'S LAST STEP the accumulator holds that half's partial hyperedge sums. -/
theorem acc_last (c : Dev nD) (t : Fin cfg0.N) (h49 : t.val % 50 = 49) (e : Fin 5000) (d : Fin 512) :
    ((outsAt V c t.val t.isLt).2.2.1 : S5000x512.Idx → EReal) (ix2 e d)
      = Cert.Join.partialEdge (V c main_arg0) (V c main_arg1) (V c main_arg2) (ix3 (⟨t.val / 50, core_lt t⟩ : Fin 2) e d) := by
  rw [acc_inv V c t.val t.isLt e d, h49, Finset.sum_range]
  exact Finset.sum_congr rfl fun i _ => tileAcc_node (V c main_arg0) (V c main_arg1) (V c main_arg2) ⟨t.val / 50, core_lt t⟩ i e d

/-- AT A CORE'S LAST STEP the degree row holds that half's partial degrees. -/
theorem deg_last (c : Dev nD) (t : Fin cfg0.N) (h49 : t.val % 50 = 49) (e : Fin 5000) :
    ((outsAt V c t.val t.isLt).2.2.2 : S1x5000.Idx → EReal) (ix2 (0 : Fin 1) e)
      = Cert.Join.partialDeg (V c main_arg1) (ix3 (⟨t.val / 50, core_lt t⟩ : Fin 2) (0 : Fin 1) e) := by
  rw [deg_inv V c t.val t.isLt (0 : Fin 1) e, h49, Finset.sum_range]
  exact Finset.sum_congr rfl fun i _ => tileDeg_node (V c main_arg1) ⟨t.val / 50, core_lt t⟩ i e

end Cert.KernelIdeal.EdgeValue
end
-- ==== Proof.JoinFinal.lean ====
/-
  The kernel's result array is the specification: the node region's closed form, with the edge features it is handed
  being the two cores' partial sums combined by the host, and those partial sums being what the edge region's
  accumulators hold at each core's last step.
-/
import proofs.«115665_j11158325035087_2_alg».proof.Proof.Join
import proofs.«115665_j11158325035087_2_alg».proof.Proof.EdgeValueFinal
import proofs.«115665_j11158325035087_2_alg».proof.Proof.EdgeValueLast

noncomputable section

namespace Cert.KernelIdeal.Join

open Cert.KernelIdeal Cert.KernelIdeal.Gen
open Idealize.ShloMosaic Idealize.ShloMosaic.TcCoe Idealize.SL.Sem

theorem kernel_eq_spec (m : (ℓ : Loc nD τ sig) → Buf (Elt Ideal) ℓ) (c : Dev nD) :
    (Node.dat (Run.V3 m) c).arrAt 6 cfg1.N
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  kernel_eq_spec_of m c
    (EdgeValue.final3_of (Run.V1 m) c (fun t h1 e d => EdgeValue.acc_last (Run.V1 m) c t h1 e d))
    (EdgeValue.final4_of (Run.V1 m) c (fun t h1 e => EdgeValue.deg_last (Run.V1 m) c t h1 e))

end Cert.KernelIdeal.Join

end
-- ==== Proof.lean ====
/-
  The kernel is a two-stage message passing over a hypergraph with incidence matrix H [20000, 5000]:
  node features are projected (x·W_node), averaged into hyperedges (Hᵀ·(x·W_node) divided by the clamped edge degree),
  averaged back into nodes (H·edge_feat divided by the clamped node degree), a residual projection x·W_res is added
  and each row is layer-normalised. The kernel computes the edge stage on a 2 x 50 grid — each half of the rows of H
  summed tile by tile into per-core accumulators, the two partial sums added and divided on the host — and the node stage
  on 50 row blocks; the reference computes the same expressions on whole arrays. Over the extended reals the two
  agree index by index: the only law between them is that a sum over the 20000 rows is the sum over the two halves of
  the sums over their fifty tiles of two hundred rows (addition of extended reals is commutative and associative, so no
  finiteness is used), and max is commutative.

  The three frames are the programs' runs: each idealized or word-level kernel program runs as host operations, the
  edge region, host operations, the node region, and no item writes an argument array.
-/
import proofs.«115665_j11158325035087_2_alg».proof.Defs
import proofs.«115665_j11158325035087_2_alg».proof.Proof.Gen.Kernel
import proofs.«115665_j11158325035087_2_alg».proof.Proof.Gen.KernelIdeal
import proofs.«115665_j11158325035087_2_alg».proof.Proof.Gen.ReferenceIdeal
import proofs.«115665_j11158325035087_2_alg».proof.Proof.Gen.Pre_finite_inputs
import proofs.«115665_j11158325035087_2_alg».proof.Proof.KRun
import proofs.«115665_j11158325035087_2_alg».proof.Proof.Run
import proofs.«115665_j11158325035087_2_alg».proof.Proof.RefSpec
import proofs.«115665_j11158325035087_2_alg».proof.Proof.JoinFinal

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the one function of the argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Join.kernel_eq_spec m c), (h c).2⟩)
      (Cert.KernelIdeal.Run.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v39_eq, Cert.ReferenceIdeal.RefValue.ref_eq_spec,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
